-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v177)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v177) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v232) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024 : Shape := ⟨1, ![1024]⟩
abbrev S1024x1024 : Shape := ⟨2, ![1024, 1024]⟩
abbrev S200000x64 : Shape := ⟨2, ![200000, 64]⟩
abbrev S500x64 : Shape := ⟨2, ![500, 64]⟩
abbrev S200000 : Shape := ⟨1, ![200000]⟩
abbrev S500 : Shape := ⟨1, ![500]⟩
abbrev S_ : Shape := ⟨0, ![]⟩

class Facts : Prop where
  bcast_S_S200000x64 : S_.BroadcastsInDim S200000x64 (![] : Fin 0 → Fin S200000x64.rank)
  reducesTo_S200000x64_S_d0_1 : S200000x64.ReducesTo [0, 1] S_
  h_S_ : 0 < S_.numel
  bcast_S_S500x64 : S_.BroadcastsInDim S500x64 (![] : Fin 0 → Fin S500x64.rank)
  reducesTo_S500x64_S_d0_1 : S500x64.ReducesTo [0, 1] S_
  bcast_S_S200000 : S_.BroadcastsInDim S200000 (![] : Fin 0 → Fin S200000.rank)
  reducesTo_S200000_S_d0 : S200000.ReducesTo [0] S_
  bcast_S_S500 : S_.BroadcastsInDim S500 (![] : Fin 0 → Fin S500.rank)
  reducesTo_S500_S_d0 : S500.ReducesTo [0] S_

variable [Facts]

def fn_part1 {F : FTy → Type} [FloatOps F] (main_arg7 : FVec F S200000 .f32) (main_arg8 : FVec F S200000 .f32) (main_arg9 : FVec F S500 .f32) (main_v13 : IVec S_ 1) (main_v16 : IVec S500x64 1) : IVec S_ 1 :=
  let main_c_5 : IVec S_ 1 := constantI S_ 1 1#1
  let main_v17 : IVec S_ 1 := (fun x v => Host.reduce IntOp.andi x v reducesTo_S500x64_S_d0_1 h_S_) main_v16 main_c_5
  let main_v18 : IVec S_ 1 := andi main_v13 main_v17
  let main_v19 : FVec F S200000 .f32 := Host.absf main_arg7
  let main_cst_6 : FVec F S_ .f32 := constant S_ .f32 0x7F800000#32
  let main_v20 : FVec F S200000 .f32 := broadcastInDim S200000 ![] bcast_S_S200000 main_cst_6
  let main_v21 : IVec S200000 1 := cmpf .olt main_v19 main_v20
  let main_c_7 : IVec S_ 1 := constantI S_ 1 1#1
  let main_v22 : IVec S_ 1 := (fun x v => Host.reduce IntOp.andi x v reducesTo_S200000_S_d0 h_S_) main_v21 main_c_7
  let main_v23 : IVec S_ 1 := andi main_v18 main_v22
  let main_v24 : FVec F S200000 .f32 := Host.absf main_arg8
  let main_cst_8 : FVec F S_ .f32 := constant S_ .f32 0x7F800000#32
  let main_v25 : FVec F S200000 .f32 := broadcastInDim S200000 ![] bcast_S_S200000 main_cst_8
  let main_v26 : IVec S200000 1 := cmpf .olt main_v24 main_v25
  let main_c_9 : IVec S_ 1 := constantI S_ 1 1#1
  let main_v27 : IVec S_ 1 := (fun x v => Host.reduce IntOp.andi x v reducesTo_S200000_S_d0 h_S_) main_v26 main_c_9
  let main_v28 : IVec S_ 1 := andi main_v23 main_v27
  let main_v29 : FVec F S500 .f32 := Host.absf main_arg9
  let main_cst_10 : FVec F S_ .f32 := constant S_ .f32 0x7F800000#32
  let main_v30 : FVec F S500 .f32 := broadcastInDim S500 ![] bcast_S_S500 main_cst_10
  let main_v31 : IVec S500 1 := cmpf .olt main_v29 main_v30
  let main_c_11 : IVec S_ 1 := constantI S_ 1 1#1
  let main_v32 : IVec S_ 1 := (fun x v => Host.reduce IntOp.andi x v reducesTo_S500_S_d0 h_S_) main_v31 main_c_11
  let main_v33 : IVec S_ 1 := andi main_v28 main_v32
  main_v33

def fn {F : FTy → Type} [FloatOps F] (main_arg0 : IVec S1024 32) (main_arg1 : IVec S1024 32) (main_arg2 : IVec S1024x1024 32) (main_arg3 : FVec F S200000x64 .f32) (main_arg4 : FVec F S500x64 .f32) (main_arg5 : FVec F S500x64 .f32) (main_arg6 : FVec F S500x64 .f32) (main_arg7 : FVec F S200000 .f32) (main_arg8 : FVec F S200000 .f32) (main_arg9 : FVec F S500 .f32) : IVec S_ 1 :=
  let main_v0 : FVec F S200000x64 .f32 := Host.absf main_arg3
  let main_cst : FVec F S_ .f32 := constant S_ .f32 0x7F800000#32
  let main_v1 : FVec F S200000x64 .f32 := broadcastInDim S200000x64 ![] bcast_S_S200000x64 main_cst
  let main_v2 : IVec S200000x64 1 := cmpf .olt main_v0 main_v1
  let main_c : IVec S_ 1 := constantI S_ 1 1#1
  let main_v3 : IVec S_ 1 := (fun x v => Host.reduce IntOp.andi x v reducesTo_S200000x64_S_d0_1 h_S_) main_v2 main_c
  let main_v4 : FVec F S500x64 .f32 := Host.absf main_arg4
  let main_cst_0 : FVec F S_ .f32 := constant S_ .f32 0x7F800000#32
  let main_v5 : FVec F S500x64 .f32 := broadcastInDim S500x64 ![] bcast_S_S500x64 main_cst_0
  let main_v6 : IVec S500x64 1 := cmpf .olt main_v4 main_v5
  let main_c_1 : IVec S_ 1 := constantI S_ 1 1#1
  let main_v7 : IVec S_ 1 := (fun x v => Host.reduce IntOp.andi x v reducesTo_S500x64_S_d0_1 h_S_) main_v6 main_c_1
  let main_v8 : IVec S_ 1 := andi main_v3 main_v7
  let main_v9 : FVec F S500x64 .f32 := Host.absf main_arg5
  let main_cst_2 : FVec F S_ .f32 := constant S_ .f32 0x7F800000#32
  let main_v10 : FVec F S500x64 .f32 := broadcastInDim S500x64 ![] bcast_S_S500x64 main_cst_2
  let main_v11 : IVec S500x64 1 := cmpf .olt main_v9 main_v10
  let main_c_3 : IVec S_ 1 := constantI S_ 1 1#1
  let main_v12 : IVec S_ 1 := (fun x v => Host.reduce IntOp.andi x v reducesTo_S500x64_S_d0_1 h_S_) main_v11 main_c_3
  let main_v13 : IVec S_ 1 := andi main_v8 main_v12
  let main_v14 : FVec F S500x64 .f32 := Host.absf main_arg6
  let main_cst_4 : FVec F S_ .f32 := constant S_ .f32 0x7F800000#32
  let main_v15 : FVec F S500x64 .f32 := broadcastInDim S500x64 ![] bcast_S_S500x64 main_cst_4
  let main_v16 : IVec S500x64 1 := cmpf .olt main_v14 main_v15
  fn_part1 (F := F) main_arg7 main_arg8 main_arg9 main_v13 main_v16
-- ==== Kernel.lean ====
abbrev S1024 : Shape := ⟨1, ![1024]⟩
abbrev S1024x1024 : Shape := ⟨2, ![1024, 1024]⟩
abbrev S200000x64 : Shape := ⟨2, ![200000, 64]⟩
abbrev S500x64 : Shape := ⟨2, ![500, 64]⟩
abbrev S200000 : Shape := ⟨1, ![200000]⟩
abbrev S500 : Shape := ⟨1, ![500]⟩
abbrev S_ : Shape := ⟨0, ![]⟩
abbrev S1024x1 : Shape := ⟨2, ![1024, 1]⟩
abbrev S1024x64 : Shape := ⟨2, ![1024, 64]⟩
abbrev S1024x32x2 : Shape := ⟨3, ![1024, 32, 2]⟩
abbrev S1024x32 : Shape := ⟨2, ![1024, 32]⟩
abbrev S1024x32x1 : Shape := ⟨3, ![1024, 32, 1]⟩
abbrev S1024x1024x1 : Shape := ⟨3, ![1024, 1024, 1]⟩
abbrev S1024x1024x64 : Shape := ⟨3, ![1024, 1024, 64]⟩
abbrev S128x128x64 : Shape := ⟨3, ![128, 128, 64]⟩
abbrev S128x64 : Shape := ⟨2, ![128, 64]⟩
abbrev S128x1 : Shape := ⟨2, ![128, 1]⟩
abbrev S128x128 : Shape := ⟨2, ![128, 128]⟩
abbrev S128x128x1 : Shape := ⟨3, ![128, 128, 1]⟩
abbrev S128x1x64 : Shape := ⟨3, ![128, 1, 64]⟩
abbrev S128 : Shape := ⟨1, ![128]⟩

abbrev nBuf : Space → Nat
  | .hbm => 242
  | .vmem => 12
  | .smem => 0
  | _ => 0

abbrev hbmTy0_0 (i : Nat) : BufTy := match i % 128 with
  | 0 => ⟨S1024, .i32⟩
  | 1 => ⟨S1024, .i32⟩
  | 2 => ⟨S1024x1024, .i32⟩
  | 3 => ⟨S200000x64, .f32⟩
  | 4 => ⟨S500x64, .f32⟩
  | 5 => ⟨S500x64, .f32⟩
  | 6 => ⟨S500x64, .f32⟩
  | 7 => ⟨S200000, .f32⟩
  | 8 => ⟨S200000, .f32⟩
  | 9 => ⟨S500, .f32⟩
  | 10 => ⟨S_, .i32⟩
  | 11 => ⟨S1024, .i32⟩
  | 12 => ⟨S1024, .i1⟩
  | 13 => ⟨S_, .i32⟩
  | 14 => ⟨S1024, .i32⟩
  | 15 => ⟨S1024, .i32⟩
  | 16 => ⟨S1024, .i32⟩
  | 17 => ⟨S1024x1, .i32⟩
  | 18 => ⟨S1024x64, .f32⟩
  | 19 => ⟨S1024x64, .f32⟩
  | 20 => ⟨S_, .f32⟩
  | 21 => ⟨S1024, .f32⟩
  | 22 => ⟨S1024x1, .f32⟩
  | 23 => ⟨S1024x1, .f32⟩
  | 24 => ⟨S_, .f32⟩
  | 25 => ⟨S1024x1, .f32⟩
  | 26 => ⟨S1024x1, .f32⟩
  | 27 => ⟨S1024x1, .f32⟩
  | 28 => ⟨S1024x64, .f32⟩
  | 29 => ⟨S1024x64, .f32⟩
  | 30 => ⟨S1024x64, .f32⟩
  | 31 => ⟨S1024x64, .f32⟩
  | 32 => ⟨S_, .i32⟩
  | 33 => ⟨S1024, .i32⟩
  | 34 => ⟨S1024, .i1⟩
  | 35 => ⟨S_, .i32⟩
  | 36 => ⟨S1024, .i32⟩
  | 37 => ⟨S1024, .i32⟩
  | 38 => ⟨S1024, .i32⟩
  | 39 => ⟨S1024x1, .i32⟩
  | 40 => ⟨S1024x64, .f32⟩
  | 41 => ⟨S1024x64, .f32⟩
  | 42 => ⟨S_, .f32⟩
  | 43 => ⟨S1024, .f32⟩
  | 44 => ⟨S1024x1, .f32⟩
  | 45 => ⟨S1024x1, .f32⟩
  | 46 => ⟨S_, .f32⟩
  | 47 => ⟨S1024x1, .f32⟩
  | 48 => ⟨S1024x1, .f32⟩
  | 49 => ⟨S1024x1, .f32⟩
  | 50 => ⟨S1024x64, .f32⟩
  | 51 => ⟨S1024x64, .f32⟩
  | 52 => ⟨S1024x64, .f32⟩
  | 53 => ⟨S1024x64, .f32⟩
  | 54 => ⟨S_, .i32⟩
  | 55 => ⟨S1024, .i32⟩
  | 56 => ⟨S1024, .i1⟩
  | 57 => ⟨S_, .i32⟩
  | 58 => ⟨S1024, .i32⟩
  | 59 => ⟨S1024, .i32⟩
  | 60 => ⟨S1024, .i32⟩
  | 61 => ⟨S1024x1, .i32⟩
  | 62 => ⟨S1024x64, .f32⟩
  | 63 => ⟨S1024x64, .f32⟩
  | 64 => ⟨S_, .f32⟩
  | 65 => ⟨S1024, .f32⟩
  | 66 => ⟨S1024x1, .f32⟩
  | 67 => ⟨S1024x1, .f32⟩
  | 68 => ⟨S_, .f32⟩
  | 69 => ⟨S1024x1, .f32⟩
  | 70 => ⟨S1024x1, .f32⟩
  | 71 => ⟨S1024x1, .f32⟩
  | 72 => ⟨S1024x64, .f32⟩
  | 73 => ⟨S1024x64, .f32⟩
  | 74 => ⟨S1024x64, .f32⟩
  | 75 => ⟨S1024x64, .f32⟩
  | 76 => ⟨S_, .i32⟩
  | 77 => ⟨S1024, .i32⟩
  | 78 => ⟨S1024, .i1⟩
  | 79 => ⟨S_, .i32⟩
  | 80 => ⟨S1024, .i32⟩
  | 81 => ⟨S1024, .i32⟩
  | 82 => ⟨S1024, .i32⟩
  | 83 => ⟨S1024x1, .i32⟩
  | 84 => ⟨S1024x64, .f32⟩
  | 85 => ⟨S1024x64, .f32⟩
  | 86 => ⟨S_, .f32⟩
  | 87 => ⟨S1024, .f32⟩
  | 88 => ⟨S1024x1, .f32⟩
  | 89 => ⟨S1024x64, .f32⟩
  | 90 => ⟨S_, .f32⟩
  | 91 => ⟨S1024, .f32⟩
  | 92 => ⟨S1024x1, .f32⟩
  | 93 => ⟨S1024x64, .f32⟩
  | 94 => ⟨S_, .f32⟩
  | 95 => ⟨S1024, .f32⟩
  | 96 => ⟨S1024x1, .f32⟩
  | 97 => ⟨S_, .f32⟩
  | 98 => ⟨S1024x1, .f32⟩
  | 99 => ⟨S1024x1, .f32⟩
  | 100 => ⟨S_, .f32⟩
  | 101 => ⟨S1024x1, .f32⟩
  | 102 => ⟨S1024x1, .f32⟩
  | 103 => ⟨S1024x1, .f32⟩
  | 104 => ⟨S1024x64, .f32⟩
  | 105 => ⟨S1024x64, .f32⟩
  | 106 => ⟨S_, .f32⟩
  | 107 => ⟨S1024x1, .f32⟩
  | 108 => ⟨S1024x1, .f32⟩
  | 109 => ⟨S1024x64, .f32⟩
  | 110 => ⟨S1024x64, .f32⟩
  | 111 => ⟨S1024x64, .f32⟩
  | 112 => ⟨S_, .f32⟩
  | 113 => ⟨S1024x1, .f32⟩
  | 114 => ⟨S1024x1, .f32⟩
  | 115 => ⟨S_, .f32⟩
  | 116 => ⟨S1024x1, .f32⟩
  | 117 => ⟨S1024x1, .f32⟩
  | 118 => ⟨S1024x1, .f32⟩
  | 119 => ⟨S1024x1, .f32⟩
  | 120 => ⟨S_, .f32⟩
  | 121 => ⟨S1024x1, .f32⟩
  | 122 => ⟨S1024x1, .f32⟩
  | 123 => ⟨S1024x64, .f32⟩
  | 124 => ⟨S1024x64, .f32⟩
  | 125 => ⟨S1024x32x2, .f32⟩
  | 126 => ⟨S1024x32x2, .f32⟩
  | 127 => ⟨S_, .f32⟩
  | _ => ⟨S1024, .i32⟩

abbrev hbmTy0_1 (i : Nat) : BufTy := match i % 128 with
  | 0 => ⟨S1024x32, .f32⟩
  | 1 => ⟨S1024x32x1, .f32⟩
  | 2 => ⟨S1024x32x1, .f32⟩
  | 3 => ⟨S_, .f32⟩
  | 4 => ⟨S1024x32x1, .f32⟩
  | 5 => ⟨S1024x32x1, .f32⟩
  | 6 => ⟨S1024x32x2, .f32⟩
  | 7 => ⟨S1024x32x2, .f32⟩
  | 8 => ⟨S1024x32x2, .f32⟩
  | 9 => ⟨S1024x32x1, .f32⟩
  | 10 => ⟨S1024x32, .f32⟩
  | 11 => ⟨S1024x32x1, .f32⟩
  | 12 => ⟨S1024x32, .f32⟩
  | 13 => ⟨S1024x32, .f32⟩
  | 14 => ⟨S1024x32x1, .f32⟩
  | 15 => ⟨S1024x32, .f32⟩
  | 16 => ⟨S1024x32x1, .f32⟩
  | 17 => ⟨S1024x32, .f32⟩
  | 18 => ⟨S1024x32, .f32⟩
  | 19 => ⟨S1024x32, .f32⟩
  | 20 => ⟨S1024x32x1, .f32⟩
  | 21 => ⟨S1024x32, .f32⟩
  | 22 => ⟨S1024x32x1, .f32⟩
  | 23 => ⟨S1024x32, .f32⟩
  | 24 => ⟨S1024x32, .f32⟩
  | 25 => ⟨S1024x32x1, .f32⟩
  | 26 => ⟨S1024x32, .f32⟩
  | 27 => ⟨S1024x32x1, .f32⟩
  | 28 => ⟨S1024x32, .f32⟩
  | 29 => ⟨S1024x32, .f32⟩
  | 30 => ⟨S1024x32, .f32⟩
  | 31 => ⟨S1024x32x1, .f32⟩
  | 32 => ⟨S1024x32x1, .f32⟩
  | 33 => ⟨S1024x32x2, .f32⟩
  | 34 => ⟨S1024x64, .f32⟩
  | 35 => ⟨S1024x64, .f32⟩
  | 36 => ⟨S_, .f32⟩
  | 37 => ⟨S1024, .f32⟩
  | 38 => ⟨S1024x1, .f32⟩
  | 39 => ⟨S1024x64, .f32⟩
  | 40 => ⟨S_, .f32⟩
  | 41 => ⟨S1024, .f32⟩
  | 42 => ⟨S1024x1, .f32⟩
  | 43 => ⟨S1024x64, .f32⟩
  | 44 => ⟨S_, .f32⟩
  | 45 => ⟨S1024, .f32⟩
  | 46 => ⟨S1024x1, .f32⟩
  | 47 => ⟨S_, .f32⟩
  | 48 => ⟨S1024x1, .f32⟩
  | 49 => ⟨S1024x1, .f32⟩
  | 50 => ⟨S_, .f32⟩
  | 51 => ⟨S1024x1, .f32⟩
  | 52 => ⟨S1024x1, .f32⟩
  | 53 => ⟨S1024x1, .f32⟩
  | 54 => ⟨S1024x64, .f32⟩
  | 55 => ⟨S1024x64, .f32⟩
  | 56 => ⟨S_, .f32⟩
  | 57 => ⟨S1024x1, .f32⟩
  | 58 => ⟨S1024x1, .f32⟩
  | 59 => ⟨S1024x64, .f32⟩
  | 60 => ⟨S1024x64, .f32⟩
  | 61 => ⟨S1024x64, .f32⟩
  | 62 => ⟨S_, .f32⟩
  | 63 => ⟨S1024x1, .f32⟩
  | 64 => ⟨S1024x1, .f32⟩
  | 65 => ⟨S_, .f32⟩
  | 66 => ⟨S1024x1, .f32⟩
  | 67 => ⟨S1024x1, .f32⟩
  | 68 => ⟨S1024x1, .f32⟩
  | 69 => ⟨S1024x1, .f32⟩
  | 70 => ⟨S_, .f32⟩
  | 71 => ⟨S1024x1, .f32⟩
  | 72 => ⟨S1024x1, .f32⟩
  | 73 => ⟨S1024x64, .f32⟩
  | 74 => ⟨S1024x64, .f32⟩
  | 75 => ⟨S_, .i32⟩
  | 76 => ⟨S1024, .i32⟩
  | 77 => ⟨S1024, .i1⟩
  | 78 => ⟨S_, .i32⟩
  | 79 => ⟨S1024, .i32⟩
  | 80 => ⟨S1024, .i32⟩
  | 81 => ⟨S1024, .i32⟩
  | 82 => ⟨S1024x1, .i32⟩
  | 83 => ⟨S1024, .f32⟩
  | 84 => ⟨S_, .i32⟩
  | 85 => ⟨S1024, .i32⟩
  | 86 => ⟨S1024, .i1⟩
  | 87 => ⟨S_, .i32⟩
  | 88 => ⟨S1024, .i32⟩
  | 89 => ⟨S1024, .i32⟩
  | 90 => ⟨S1024, .i32⟩
  | 91 => ⟨S1024x1, .i32⟩
  | 92 => ⟨S1024, .f32⟩
  | 93 => ⟨S_, .i32⟩
  | 94 => ⟨S1024x1024, .i32⟩
  | 95 => ⟨S1024x1024, .i1⟩
  | 96 => ⟨S_, .i32⟩
  | 97 => ⟨S1024x1024, .i32⟩
  | 98 => ⟨S1024x1024, .i32⟩
  | 99 => ⟨S1024x1024, .i32⟩
  | 100 => ⟨S1024x1024x1, .i32⟩
  | 101 => ⟨S1024x1024, .f32⟩
  | 102 => ⟨S_, .i32⟩
  | 103 => ⟨S1024x1024, .i32⟩
  | 104 => ⟨S1024x1024, .i1⟩
  | 105 => ⟨S_, .i32⟩
  | 106 => ⟨S1024x1024, .i32⟩
  | 107 => ⟨S1024x1024, .i32⟩
  | 108 => ⟨S1024x1024, .i32⟩
  | 109 => ⟨S1024x1024x1, .i32⟩
  | 110 => ⟨S1024x1024x64, .f32⟩
  | 111 => ⟨S1024x1, .f32⟩
  | 112 => ⟨S1024x1, .f32⟩
  | 113 => ⟨S1024x1024, .f32⟩
  | _ => ⟨S1024, .i32⟩

abbrev hbmTy (i : Nat) : BufTy := match i / 128 with
  | 0 => hbmTy0_0 i
  | 1 => hbmTy0_1 i
  | _ => ⟨S1024, .i32⟩

abbrev bufTy : (tb : Table) → Fin (tcTables nBuf tb) → BufTy
  | .hbm, ⟨i, _⟩ => hbmTy i
  | .local _ .vmem, ⟨0, _⟩ => ⟨S128x128x64, .f32⟩
  | .local _ .vmem, ⟨1, _⟩ => ⟨S128x128x64, .f32⟩
  | .local _ .vmem, ⟨2, _⟩ => ⟨S128x64, .f32⟩
  | .local _ .vmem, ⟨3, _⟩ => ⟨S128x64, .f32⟩
  | .local _ .vmem, ⟨4, _⟩ => ⟨S128x1, .f32⟩
  | .local _ .vmem, ⟨5, _⟩ => ⟨S128x1, .f32⟩
  | .local _ .vmem, ⟨6, _⟩ => ⟨S128x1, .f32⟩
  | .local _ .vmem, ⟨7, _⟩ => ⟨S128x1, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | _, _ => ⟨S1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_call0_v0 : Ref sig .tc := ⟨.hbm, 19, rfl⟩
abbrev main_call0_cst : Ref sig .tc := ⟨.hbm, 20, rfl⟩
abbrev main_call0_v1 : Ref sig .tc := ⟨.hbm, 21, rfl⟩
abbrev main_call0_v2 : Ref sig .tc := ⟨.hbm, 22, rfl⟩
abbrev main_v7 : Ref sig .tc := ⟨.hbm, 23, rfl⟩
abbrev main_cst : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_c_1 : Ref sig .tc := ⟨.hbm, 32, rfl⟩
abbrev main_v15 : Ref sig .tc := ⟨.hbm, 33, rfl⟩
abbrev main_v16 : Ref sig .tc := ⟨.hbm, 34, rfl⟩
abbrev main_c_2 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_call1_v0 : Ref sig .tc := ⟨.hbm, 41, rfl⟩
abbrev main_call1_cst : Ref sig .tc := ⟨.hbm, 42, rfl⟩
abbrev main_call1_v1 : Ref sig .tc := ⟨.hbm, 43, rfl⟩
abbrev main_call1_v2 : Ref sig .tc := ⟨.hbm, 44, rfl⟩
abbrev main_v22 : Ref sig .tc := ⟨.hbm, 45, rfl⟩
abbrev main_cst_3 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_c_4 : Ref sig .tc := ⟨.hbm, 54, rfl⟩
abbrev main_v30 : Ref sig .tc := ⟨.hbm, 55, rfl⟩
abbrev main_v31 : Ref sig .tc := ⟨.hbm, 56, rfl⟩
abbrev main_c_5 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_call2_v0 : Ref sig .tc := ⟨.hbm, 63, rfl⟩
abbrev main_call2_cst : Ref sig .tc := ⟨.hbm, 64, rfl⟩
abbrev main_call2_v1 : Ref sig .tc := ⟨.hbm, 65, rfl⟩
abbrev main_call2_v2 : Ref sig .tc := ⟨.hbm, 66, rfl⟩
abbrev main_v37 : Ref sig .tc := ⟨.hbm, 67, rfl⟩
abbrev main_cst_6 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_c_7 : Ref sig .tc := ⟨.hbm, 76, rfl⟩
abbrev main_v45 : Ref sig .tc := ⟨.hbm, 77, rfl⟩
abbrev main_v46 : Ref sig .tc := ⟨.hbm, 78, rfl⟩
abbrev main_c_8 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_cst_9 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_cst_10 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_cst_11 : Ref sig .tc := ⟨.hbm, 94, rfl⟩
abbrev main_v59 : Ref sig .tc := ⟨.hbm, 95, rfl⟩
abbrev main_v60 : Ref sig .tc := ⟨.hbm, 96, rfl⟩
abbrev main_cst_12 : Ref sig .tc := ⟨.hbm, 97, rfl⟩
abbrev main_v61 : Ref sig .tc := ⟨.hbm, 98, rfl⟩
abbrev main_v62 : Ref sig .tc := ⟨.hbm, 99, rfl⟩
abbrev main_cst_13 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_cst_14 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_cst_15 : Ref sig .tc := ⟨.hbm, 112, rfl⟩
abbrev main_v73 : Ref sig .tc := ⟨.hbm, 113, rfl⟩
abbrev main_v74 : Ref sig .tc := ⟨.hbm, 114, rfl⟩
abbrev main_cst_16 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_cst_17 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_call3_v0 : Ref sig .tc := ⟨.hbm, 126, rfl⟩
abbrev main_call3_cst : Ref sig .tc := ⟨.hbm, 127, rfl⟩
abbrev main_call3_v1 : Ref sig .tc := ⟨.hbm, 128, rfl⟩
abbrev main_call3_v2 : Ref sig .tc := ⟨.hbm, 129, rfl⟩
abbrev main_v84 : Ref sig .tc := ⟨.hbm, 130, rfl⟩
abbrev main_cst_18 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_cst_19 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_cst_20 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_cst_21 : Ref sig .tc := ⟨.hbm, 172, rfl⟩
abbrev main_v123 : Ref sig .tc := ⟨.hbm, 173, rfl⟩
abbrev main_v124 : Ref sig .tc := ⟨.hbm, 174, rfl⟩
abbrev main_cst_22 : Ref sig .tc := ⟨.hbm, 175, rfl⟩
abbrev main_v125 : Ref sig .tc := ⟨.hbm, 176, rfl⟩
abbrev main_v126 : Ref sig .tc := ⟨.hbm, 177, rfl⟩
abbrev main_cst_23 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_cst_24 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_cst_25 : Ref sig .tc := ⟨.hbm, 190, rfl⟩
abbrev main_v137 : Ref sig .tc := ⟨.hbm, 191, rfl⟩
abbrev main_v138 : Ref sig .tc := ⟨.hbm, 192, rfl⟩
abbrev main_cst_26 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_cst_27 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_v146 : Ref sig .tc := ⟨.hbm, 202, rfl⟩
abbrev main_c_28 : Ref sig .tc := ⟨.hbm, 203, rfl⟩
abbrev main_v147 : Ref sig .tc := ⟨.hbm, 204, rfl⟩
abbrev main_v148 : Ref sig .tc := ⟨.hbm, 205, rfl⟩
abbrev main_c_29 : Ref sig .tc := ⟨.hbm, 206, rfl⟩
abbrev main_v149 : Ref sig .tc := ⟨.hbm, 207, rfl⟩
abbrev main_v150 : Ref sig .tc := ⟨.hbm, 208, rfl⟩
abbrev main_v151 : Ref sig .tc := ⟨.hbm, 209, rfl⟩
abbrev main_v152 : Ref sig .tc := ⟨.hbm, 210, rfl⟩
abbrev main_v153 : Ref sig .tc := ⟨.hbm, 211, rfl⟩
abbrev main_c_30 : Ref sig .tc := ⟨.hbm, 212, rfl⟩
abbrev main_v154 : Ref sig .tc := ⟨.hbm, 213, rfl⟩
abbrev main_v155 : Ref sig .tc := ⟨.hbm, 214, rfl⟩
abbrev main_c_31 : Ref sig .tc := ⟨.hbm, 215, rfl⟩
abbrev main_v156 : Ref sig .tc := ⟨.hbm, 216, rfl⟩
abbrev main_v157 : Ref sig .tc := ⟨.hbm, 217, rfl⟩
abbrev main_v158 : Ref sig .tc := ⟨.hbm, 218, rfl⟩
abbrev main_v159 : Ref sig .tc := ⟨.hbm, 219, rfl⟩
abbrev main_v160 : Ref sig .tc := ⟨.hbm, 220, rfl⟩
abbrev main_c_32 : Ref sig .tc := ⟨.hbm, 221, rfl⟩
abbrev main_v161 : Ref sig .tc := ⟨.hbm, 222, rfl⟩
abbrev main_v162 : Ref sig .tc := ⟨.hbm, 223, rfl⟩
abbrev main_c_33 : Ref sig .tc := ⟨.hbm, 224, rfl⟩
abbrev main_v163 : Ref sig .tc := ⟨.hbm, 225, rfl⟩
abbrev main_v164 : Ref sig .tc := ⟨.hbm, 226, rfl⟩
abbrev main_v165 : Ref sig .tc := ⟨.hbm, 227, rfl⟩
abbrev main_v166 : Ref sig .tc := ⟨.hbm, 228, rfl⟩
abbrev main_v167 : Ref sig .tc := ⟨.hbm, 229, rfl⟩
abbrev main_c_34 : Ref sig .tc := ⟨.hbm, 230, rfl⟩
abbrev main_v168 : Ref sig .tc := ⟨.hbm, 231, rfl⟩
abbrev main_v169 : Ref sig .tc := ⟨.hbm, 232, rfl⟩
abbrev main_c_35 : Ref sig .tc := ⟨.hbm, 233, rfl⟩
abbrev main_v170 : Ref sig .tc := ⟨.hbm, 234, rfl⟩
abbrev main_v171 : Ref sig .tc := ⟨.hbm, 235, rfl⟩
abbrev main_v172 : Ref sig .tc := ⟨.hbm, 236, rfl⟩
abbrev main_v173 : Ref sig .tc := ⟨.hbm, 237, rfl⟩
abbrev main_v174 : Ref sig .tc := ⟨.hbm, 238, rfl⟩
abbrev main_v175 : Ref sig .tc := ⟨.hbm, 239, rfl⟩
abbrev main_v176 : Ref sig .tc := ⟨.hbm, 240, rfl⟩
abbrev main_v177 : Ref sig .tc := ⟨.hbm, 241, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S128x128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  bcast_S_S1024 : S_.BroadcastsInDim S1024 (![] : Fin 0 → Fin S1024.rank)
  bcast_S1024_S1024x1_0 : S1024.BroadcastsInDim S1024x1 (![0] : Fin 1 → Fin S1024x1.rank)
  reducesTo_S1024x64_S1024_d1 : S1024x64.ReducesTo [1] S1024
  h_S_ : 0 < S_.numel
  bcast_S_S1024x1 : S_.BroadcastsInDim S1024x1 (![] : Fin 0 → Fin S1024x1.rank)
  bcast_S1024x1_S1024x64_0_1 : S1024x1.BroadcastsInDim S1024x64 (![0, 1] : Fin 2 → Fin S1024x64.rank)
  shapeCasts_S1024x64_S1024x32x2 : S1024x64.ShapeCasts S1024x32x2
  reducesTo_S1024x32x2_S1024x32_d2 : S1024x32x2.ReducesTo [2] S1024x32
  bcast_S1024x32_S1024x32x1_0_1 : S1024x32.BroadcastsInDim S1024x32x1 (![0, 1] : Fin 2 → Fin S1024x32x1.rank)
  bcast_S_S1024x32x1 : S_.BroadcastsInDim S1024x32x1 (![] : Fin 0 → Fin S1024x32x1.rank)
  bcast_S1024x32x1_S1024x32x2_0_1_2 : S1024x32x1.BroadcastsInDim S1024x32x2 (![0, 1, 2] : Fin 3 → Fin S1024x32x2.rank)
  slices_S1024x32x2_S1024x32x1_0_0_0 : S1024x32x2.Slices ![0, 0, 0] S1024x32x1
  shapeCasts_S1024x32x1_S1024x32 : S1024x32x1.ShapeCasts S1024x32
  slices_S1024x32x2_S1024x32x1_0_0_1 : S1024x32x2.Slices ![0, 0, 1] S1024x32x1
  concatenates_S1024x32x1_S1024x32x1_S1024x32x2_d2 : Shape.Concatenates [S1024x32x1, S1024x32x1] S1024x32x2 2
  shapeCasts_S1024x32x2_S1024x64 : S1024x32x2.ShapeCasts S1024x64
  bcast_S_S1024x1024 : S_.BroadcastsInDim S1024x1024 (![] : Fin 0 → Fin S1024x1024.rank)
  bcast_S1024x1024_S1024x1024x1_0_1 : S1024x1024.BroadcastsInDim S1024x1024x1 (![0, 1] : Fin 2 → Fin S1024x1024x1.rank)
  shapeCasts_S1024_S1024x1 : S1024.ShapeCasts S1024x1
  inb_S128x128x64_S128x128x64_0_0_0 : ∀ a, (![0, 0, 0] : Fin 3 → Nat) a + S128x128x64.size a ≤ S128x128x64.size a
  h_S128x128x64 : 0 < S128x128x64.numel
  shapeCasts_S128x128x64_S128x128x64 : S128x128x64.ShapeCasts S128x128x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S128x128_S128x128_0_0 : ∀ a, (![0, 0] : Fin 2 → Nat) a + S128x128.size a ≤ S128x128.size a
  h_S128x128 : 0 < S128x128.numel
  shapeCasts_S128x128_S128x128 : S128x128.ShapeCasts S128x128
  reduces_S128x128x64_S128x128 : S128x128x64.Reduces [2] S128x128
  shapeCasts_S128x128_S128x128x1 : S128x128.ShapeCasts S128x128x1
  broadcasts_S128x128x1_S128x128x64 : S128x128x1.Broadcasts S128x128x64
  shapeCasts_S128x64_S128x1x64 : S128x64.ShapeCasts S128x1x64
  broadcasts_S128x1x64_S128x128x64 : S128x1x64.Broadcasts S128x128x64
  reduces_S128x64_S128 : S128x64.Reduces [1] S128
  shapeCasts_S128_S128x1 : S128.ShapeCasts S128x1
  broadcasts_S128x1_S128x128 : S128x1.Broadcasts S128x128
  gather_S200000x64_S1024x1_S1024x64_1_0_n_n_0_1_164_wf : GatherDims.WF S200000x64 S1024x1 S1024x64 [1] [0] [] [0] [] 1 ![1, 64]
  gather_S500x64_S1024x1_S1024x64_1_0_n_n_0_1_164_wf : GatherDims.WF S500x64 S1024x1 S1024x64 [1] [0] [] [0] [] 1 ![1, 64]
  gather_S500_S1024x1_S1024_n_0_n_n_0_1_1_wf : GatherDims.WF S500 S1024x1 S1024 [] [0] [] [0] [] 1 ![1]
  gather_S200000_S1024x1_S1024_n_0_n_n_0_1_1_wf : GatherDims.WF S200000 S1024x1 S1024 [] [0] [] [0] [] 1 ![1]
  gather_S200000_S1024x1024x1_S1024x1024_n_0_n_n_0_2_1_wf : GatherDims.WF S200000 S1024x1024x1 S1024x1024 [] [0] [] [0] [] 2 ![1]
  gather_S200000x64_S1024x1024x1_S1024x1024x64_2_0_n_n_0_2_164_wf : GatherDims.WF S200000x64 S1024x1024x1 S1024x1024x64 [2] [0] [] [0] [] 2 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128x64.size a ≤ S1024x1024x64.size a
  hwx0_0 : ∀ i : grid0.Coords, EltTy.bits .f32 = 32 ∨ (Rect.block (s := S1024x1024x64) S128x128x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S1024x64.size a
  hwx0_1 : ∀ i : grid0.Coords, EltTy.bits .f32 = 32 ∨ (Rect.block (s := S1024x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S1024x1.size a
  hwx0_2 : ∀ i : grid0.Coords, EltTy.bits .f32 = 32 ∨ (Rect.block (s := S1024x1) S128x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x1.size a ≤ S1024x1.size a
  hwx0_3 : ∀ i : grid0.Coords, EltTy.bits .f32 = 32 ∨ (Rect.block (s := S1024x1) S128x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S1024x1024.size a
  hwx0_4 : ∀ i : grid0.Coords, EltTy.bits .f32 = 32 ∨ (Rect.block (s := S1024x1024) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S1024x1024.size a
  hwx0_5 : ∀ i : grid0.Coords, EltTy.bits .f32 = 32 ∨ (Rect.block (s := S1024x1024) S128x128.size (cc0_transform_5 i) (hinb0_5 i)).WholeWords (EltTy.packing .f32)

variable [Facts₀]

def gather_S200000x64_S1024x1_S1024x64_1_0_n_n_0_1_164 : GatherDims S200000x64 S1024x1 S1024x64 where
  offsetDims := [1]
  collapsedSliceDims := [0]
  operandBatchingDims := []
  startIndicesBatchingDims := []
  startIndexMap := [0]
  indexVectorDim := 1
  sliceSizes := ![1, 64]
  wf := gather_S200000x64_S1024x1_S1024x64_1_0_n_n_0_1_164_wf
def gather_S500x64_S1024x1_S1024x64_1_0_n_n_0_1_164 : GatherDims S500x64 S1024x1 S1024x64 where
  offsetDims := [1]
  collapsedSliceDims := [0]
  operandBatchingDims := []
  startIndicesBatchingDims := []
  startIndexMap := [0]
  indexVectorDim := 1
  sliceSizes := ![1, 64]
  wf := gather_S500x64_S1024x1_S1024x64_1_0_n_n_0_1_164_wf
def gather_S500_S1024x1_S1024_n_0_n_n_0_1_1 : GatherDims S500 S1024x1 S1024 where
  offsetDims := []
  collapsedSliceDims := [0]
  operandBatchingDims := []
  startIndicesBatchingDims := []
  startIndexMap := [0]
  indexVectorDim := 1
  sliceSizes := ![1]
  wf := gather_S500_S1024x1_S1024_n_0_n_n_0_1_1_wf
def gather_S200000_S1024x1_S1024_n_0_n_n_0_1_1 : GatherDims S200000 S1024x1 S1024 where
  offsetDims := []
  collapsedSliceDims := [0]
  operandBatchingDims := []
  startIndicesBatchingDims := []
  startIndexMap := [0]
  indexVectorDim := 1
  sliceSizes := ![1]
  wf := gather_S200000_S1024x1_S1024_n_0_n_n_0_1_1_wf
def gather_S200000_S1024x1024x1_S1024x1024_n_0_n_n_0_2_1 : GatherDims S200000 S1024x1024x1 S1024x1024 where
  offsetDims := []
  collapsedSliceDims := [0]
  operandBatchingDims := []
  startIndicesBatchingDims := []
  startIndexMap := [0]
  indexVectorDim := 2
  sliceSizes := ![1]
  wf := gather_S200000_S1024x1024x1_S1024x1024_n_0_n_n_0_2_1_wf
def gather_S200000x64_S1024x1024x1_S1024x1024x64_2_0_n_n_0_2_164 : GatherDims S200000x64 S1024x1024x1 S1024x1024x64 where
  offsetDims := [2]
  collapsedSliceDims := [0]
  operandBatchingDims := []
  startIndicesBatchingDims := []
  startIndexMap := [0]
  indexVectorDim := 2
  sliceSizes := ![1, 64]
  wf := gather_S200000x64_S1024x1024x1_S1024x1024x64_2_0_n_n_0_2_164_wf

abbrev win0_0 : Pipeline.Window sig grid0 :=
  Pipeline.Window.ofSpec (Memref.whole main_v174) S128x128x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v146) S128x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v175) S128x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v176) S128x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v167) S128x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v177) S128x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1024 : Shape := ⟨1, ![1024]⟩
abbrev S1024x1024 : Shape := ⟨2, ![1024, 1024]⟩
abbrev S200000x64 : Shape := ⟨2, ![200000, 64]⟩
abbrev S500x64 : Shape := ⟨2, ![500, 64]⟩
abbrev S200000 : Shape := ⟨1, ![200000]⟩
abbrev S500 : Shape := ⟨1, ![500]⟩
abbrev S_ : Shape := ⟨0, ![]⟩
abbrev S1024x1 : Shape := ⟨2, ![1024, 1]⟩
abbrev S1024x64 : Shape := ⟨2, ![1024, 64]⟩
abbrev S1024x1024x1 : Shape := ⟨3, ![1024, 1024, 1]⟩
abbrev S1024x1024x64 : Shape := ⟨3, ![1024, 1024, 64]⟩
abbrev S1024x32x2 : Shape := ⟨3, ![1024, 32, 2]⟩
abbrev S1024x32 : Shape := ⟨2, ![1024, 32]⟩
abbrev S1024x32x1 : Shape := ⟨3, ![1024, 32, 1]⟩
abbrev S1024x1x64 : Shape := ⟨3, ![1024, 1, 64]⟩

abbrev nBuf : Space → Nat
  | .hbm => 316
  | .vmem => 0
  | .smem => 0
  | _ => 0

abbrev hbmTy0_0 (i : Nat) : BufTy := match i % 128 with
  | 0 => ⟨S1024, .i32⟩
  | 1 => ⟨S1024, .i32⟩
  | 2 => ⟨S1024x1024, .i32⟩
  | 3 => ⟨S200000x64, .f32⟩
  | 4 => ⟨S500x64, .f32⟩
  | 5 => ⟨S500x64, .f32⟩
  | 6 => ⟨S500x64, .f32⟩
  | 7 => ⟨S200000, .f32⟩
  | 8 => ⟨S200000, .f32⟩
  | 9 => ⟨S500, .f32⟩
  | 10 => ⟨S_, .i32⟩
  | 11 => ⟨S1024, .i32⟩
  | 12 => ⟨S1024, .i1⟩
  | 13 => ⟨S_, .i32⟩
  | 14 => ⟨S1024, .i32⟩
  | 15 => ⟨S1024, .i32⟩
  | 16 => ⟨S1024, .i32⟩
  | 17 => ⟨S1024x1, .i32⟩
  | 18 => ⟨S1024x64, .f32⟩
  | 19 => ⟨S1024x64, .f32⟩
  | 20 => ⟨S_, .f32⟩
  | 21 => ⟨S1024, .f32⟩
  | 22 => ⟨S1024x1, .f32⟩
  | 23 => ⟨S1024x1, .f32⟩
  | 24 => ⟨S_, .f32⟩
  | 25 => ⟨S1024x1, .f32⟩
  | 26 => ⟨S1024x1, .f32⟩
  | 27 => ⟨S1024x1, .f32⟩
  | 28 => ⟨S1024x64, .f32⟩
  | 29 => ⟨S1024x64, .f32⟩
  | 30 => ⟨S1024x64, .f32⟩
  | 31 => ⟨S1024x64, .f32⟩
  | 32 => ⟨S_, .i32⟩
  | 33 => ⟨S1024x1024, .i32⟩
  | 34 => ⟨S1024x1024, .i1⟩
  | 35 => ⟨S_, .i32⟩
  | 36 => ⟨S1024x1024, .i32⟩
  | 37 => ⟨S1024x1024, .i32⟩
  | 38 => ⟨S1024x1024, .i32⟩
  | 39 => ⟨S1024x1024x1, .i32⟩
  | 40 => ⟨S1024x1024x64, .f32⟩
  | 41 => ⟨S1024x1024x64, .f32⟩
  | 42 => ⟨S_, .f32⟩
  | 43 => ⟨S1024x1024, .f32⟩
  | 44 => ⟨S1024x1024x1, .f32⟩
  | 45 => ⟨S1024x1024x1, .f32⟩
  | 46 => ⟨S_, .f32⟩
  | 47 => ⟨S1024x1024x1, .f32⟩
  | 48 => ⟨S1024x1024x1, .f32⟩
  | 49 => ⟨S1024x1024x1, .f32⟩
  | 50 => ⟨S1024x1024x64, .f32⟩
  | 51 => ⟨S1024x1024x64, .f32⟩
  | 52 => ⟨S1024x1024x64, .f32⟩
  | 53 => ⟨S1024x1024x64, .f32⟩
  | 54 => ⟨S_, .i32⟩
  | 55 => ⟨S1024, .i32⟩
  | 56 => ⟨S1024, .i1⟩
  | 57 => ⟨S_, .i32⟩
  | 58 => ⟨S1024, .i32⟩
  | 59 => ⟨S1024, .i32⟩
  | 60 => ⟨S1024, .i32⟩
  | 61 => ⟨S1024x1, .i32⟩
  | 62 => ⟨S1024x64, .f32⟩
  | 63 => ⟨S1024x64, .f32⟩
  | 64 => ⟨S_, .f32⟩
  | 65 => ⟨S1024, .f32⟩
  | 66 => ⟨S1024x1, .f32⟩
  | 67 => ⟨S1024x1, .f32⟩
  | 68 => ⟨S_, .f32⟩
  | 69 => ⟨S1024x1, .f32⟩
  | 70 => ⟨S1024x1, .f32⟩
  | 71 => ⟨S1024x1, .f32⟩
  | 72 => ⟨S1024x64, .f32⟩
  | 73 => ⟨S1024x64, .f32⟩
  | 74 => ⟨S1024x64, .f32⟩
  | 75 => ⟨S1024x64, .f32⟩
  | 76 => ⟨S_, .i32⟩
  | 77 => ⟨S1024, .i32⟩
  | 78 => ⟨S1024, .i1⟩
  | 79 => ⟨S_, .i32⟩
  | 80 => ⟨S1024, .i32⟩
  | 81 => ⟨S1024, .i32⟩
  | 82 => ⟨S1024, .i32⟩
  | 83 => ⟨S1024x1, .i32⟩
  | 84 => ⟨S1024x64, .f32⟩
  | 85 => ⟨S1024x64, .f32⟩
  | 86 => ⟨S_, .f32⟩
  | 87 => ⟨S1024, .f32⟩
  | 88 => ⟨S1024x1, .f32⟩
  | 89 => ⟨S1024x1, .f32⟩
  | 90 => ⟨S_, .f32⟩
  | 91 => ⟨S1024x1, .f32⟩
  | 92 => ⟨S1024x1, .f32⟩
  | 93 => ⟨S1024x1, .f32⟩
  | 94 => ⟨S1024x64, .f32⟩
  | 95 => ⟨S1024x64, .f32⟩
  | 96 => ⟨S1024x64, .f32⟩
  | 97 => ⟨S1024x64, .f32⟩
  | 98 => ⟨S_, .i32⟩
  | 99 => ⟨S1024, .i32⟩
  | 100 => ⟨S1024, .i1⟩
  | 101 => ⟨S_, .i32⟩
  | 102 => ⟨S1024, .i32⟩
  | 103 => ⟨S1024, .i32⟩
  | 104 => ⟨S1024, .i32⟩
  | 105 => ⟨S1024x1, .i32⟩
  | 106 => ⟨S1024x64, .f32⟩
  | 107 => ⟨S1024x64, .f32⟩
  | 108 => ⟨S_, .f32⟩
  | 109 => ⟨S1024, .f32⟩
  | 110 => ⟨S1024x1, .f32⟩
  | 111 => ⟨S1024x64, .f32⟩
  | 112 => ⟨S_, .f32⟩
  | 113 => ⟨S1024, .f32⟩
  | 114 => ⟨S1024x1, .f32⟩
  | 115 => ⟨S1024x64, .f32⟩
  | 116 => ⟨S_, .f32⟩
  | 117 => ⟨S1024, .f32⟩
  | 118 => ⟨S1024x1, .f32⟩
  | 119 => ⟨S_, .f32⟩
  | 120 => ⟨S1024x1, .f32⟩
  | 121 => ⟨S1024x1, .f32⟩
  | 122 => ⟨S_, .f32⟩
  | 123 => ⟨S1024x1, .f32⟩
  | 124 => ⟨S1024x1, .f32⟩
  | 125 => ⟨S1024x1, .f32⟩
  | 126 => ⟨S1024x64, .f32⟩
  | 127 => ⟨S1024x64, .f32⟩
  | _ => ⟨S1024, .i32⟩

abbrev hbmTy0_1 (i : Nat) : BufTy := match i % 128 with
  | 0 => ⟨S_, .f32⟩
  | 1 => ⟨S1024x1, .f32⟩
  | 2 => ⟨S1024x1, .f32⟩
  | 3 => ⟨S1024x64, .f32⟩
  | 4 => ⟨S1024x64, .f32⟩
  | 5 => ⟨S1024x64, .f32⟩
  | 6 => ⟨S_, .f32⟩
  | 7 => ⟨S1024x1, .f32⟩
  | 8 => ⟨S1024x1, .f32⟩
  | 9 => ⟨S_, .f32⟩
  | 10 => ⟨S1024x1, .f32⟩
  | 11 => ⟨S1024x1, .f32⟩
  | 12 => ⟨S1024x1, .f32⟩
  | 13 => ⟨S1024x1, .f32⟩
  | 14 => ⟨S_, .f32⟩
  | 15 => ⟨S1024x1, .f32⟩
  | 16 => ⟨S1024x1, .f32⟩
  | 17 => ⟨S1024x64, .f32⟩
  | 18 => ⟨S1024x64, .f32⟩
  | 19 => ⟨S1024x32x2, .f32⟩
  | 20 => ⟨S1024x32x2, .f32⟩
  | 21 => ⟨S_, .f32⟩
  | 22 => ⟨S1024x32, .f32⟩
  | 23 => ⟨S1024x32x1, .f32⟩
  | 24 => ⟨S1024x32x1, .f32⟩
  | 25 => ⟨S_, .f32⟩
  | 26 => ⟨S1024x32x1, .f32⟩
  | 27 => ⟨S1024x32x1, .f32⟩
  | 28 => ⟨S1024x32x2, .f32⟩
  | 29 => ⟨S1024x32x2, .f32⟩
  | 30 => ⟨S1024x32x2, .f32⟩
  | 31 => ⟨S1024x32x1, .f32⟩
  | 32 => ⟨S1024x32, .f32⟩
  | 33 => ⟨S1024x32x1, .f32⟩
  | 34 => ⟨S1024x32, .f32⟩
  | 35 => ⟨S1024x32, .f32⟩
  | 36 => ⟨S1024x32x1, .f32⟩
  | 37 => ⟨S1024x32, .f32⟩
  | 38 => ⟨S1024x32x1, .f32⟩
  | 39 => ⟨S1024x32, .f32⟩
  | 40 => ⟨S1024x32, .f32⟩
  | 41 => ⟨S1024x32, .f32⟩
  | 42 => ⟨S1024x32x1, .f32⟩
  | 43 => ⟨S1024x32, .f32⟩
  | 44 => ⟨S1024x32x1, .f32⟩
  | 45 => ⟨S1024x32, .f32⟩
  | 46 => ⟨S1024x32, .f32⟩
  | 47 => ⟨S1024x32x1, .f32⟩
  | 48 => ⟨S1024x32, .f32⟩
  | 49 => ⟨S1024x32x1, .f32⟩
  | 50 => ⟨S1024x32, .f32⟩
  | 51 => ⟨S1024x32, .f32⟩
  | 52 => ⟨S1024x32, .f32⟩
  | 53 => ⟨S1024x32x1, .f32⟩
  | 54 => ⟨S1024x32x1, .f32⟩
  | 55 => ⟨S1024x32x2, .f32⟩
  | 56 => ⟨S1024x64, .f32⟩
  | 57 => ⟨S1024x64, .f32⟩
  | 58 => ⟨S_, .f32⟩
  | 59 => ⟨S1024, .f32⟩
  | 60 => ⟨S1024x1, .f32⟩
  | 61 => ⟨S1024x64, .f32⟩
  | 62 => ⟨S_, .f32⟩
  | 63 => ⟨S1024, .f32⟩
  | 64 => ⟨S1024x1, .f32⟩
  | 65 => ⟨S1024x64, .f32⟩
  | 66 => ⟨S_, .f32⟩
  | 67 => ⟨S1024, .f32⟩
  | 68 => ⟨S1024x1, .f32⟩
  | 69 => ⟨S_, .f32⟩
  | 70 => ⟨S1024x1, .f32⟩
  | 71 => ⟨S1024x1, .f32⟩
  | 72 => ⟨S_, .f32⟩
  | 73 => ⟨S1024x1, .f32⟩
  | 74 => ⟨S1024x1, .f32⟩
  | 75 => ⟨S1024x1, .f32⟩
  | 76 => ⟨S1024x64, .f32⟩
  | 77 => ⟨S1024x64, .f32⟩
  | 78 => ⟨S_, .f32⟩
  | 79 => ⟨S1024x1, .f32⟩
  | 80 => ⟨S1024x1, .f32⟩
  | 81 => ⟨S1024x64, .f32⟩
  | 82 => ⟨S1024x64, .f32⟩
  | 83 => ⟨S1024x64, .f32⟩
  | 84 => ⟨S_, .f32⟩
  | 85 => ⟨S1024x1, .f32⟩
  | 86 => ⟨S1024x1, .f32⟩
  | 87 => ⟨S_, .f32⟩
  | 88 => ⟨S1024x1, .f32⟩
  | 89 => ⟨S1024x1, .f32⟩
  | 90 => ⟨S1024x1, .f32⟩
  | 91 => ⟨S1024x1, .f32⟩
  | 92 => ⟨S_, .f32⟩
  | 93 => ⟨S1024x1, .f32⟩
  | 94 => ⟨S1024x1, .f32⟩
  | 95 => ⟨S1024x64, .f32⟩
  | 96 => ⟨S1024x64, .f32⟩
  | 97 => ⟨S1024x1x64, .f32⟩
  | 98 => ⟨S1024x1024x64, .f32⟩
  | 99 => ⟨S1024x1024x64, .f32⟩
  | 100 => ⟨S1024x1024x64, .f32⟩
  | 101 => ⟨S_, .f32⟩
  | 102 => ⟨S1024x1024, .f32⟩
  | 103 => ⟨S1024x1024x64, .f32⟩
  | 104 => ⟨S_, .f32⟩
  | 105 => ⟨S1024x1024, .f32⟩
  | 106 => ⟨S_, .f32⟩
  | 107 => ⟨S1024x1024, .f32⟩
  | 108 => ⟨S1024x1024, .f32⟩
  | 109 => ⟨S_, .f32⟩
  | 110 => ⟨S1024x1024, .f32⟩
  | 111 => ⟨S1024x1024, .f32⟩
  | 112 => ⟨S_, .f32⟩
  | 113 => ⟨S1024x1024, .f32⟩
  | 114 => ⟨S1024x1024, .f32⟩
  | 115 => ⟨S1024x1024, .f32⟩
  | 116 => ⟨S1024x1024, .f32⟩
  | 117 => ⟨S1024x1024x64, .f32⟩
  | 118 => ⟨S1024x1024x64, .f32⟩
  | 119 => ⟨S1024x1024x64, .f32⟩
  | 120 => ⟨S_, .f32⟩
  | 121 => ⟨S1024x1024, .f32⟩
  | 122 => ⟨S1024x1x64, .f32⟩
  | 123 => ⟨S_, .f32⟩
  | 124 => ⟨S1024x1, .f32⟩
  | 125 => ⟨S_, .f32⟩
  | 126 => ⟨S1024x1, .f32⟩
  | 127 => ⟨S1024x1, .f32⟩
  | _ => ⟨S1024, .i32⟩

abbrev hbmTy0_2 (i : Nat) : BufTy := match i % 128 with
  | 0 => ⟨S_, .f32⟩
  | 1 => ⟨S1024x1024, .f32⟩
  | 2 => ⟨S1024x1024, .f32⟩
  | 3 => ⟨S_, .f32⟩
  | 4 => ⟨S1024x1, .f32⟩
  | 5 => ⟨S1024x1, .f32⟩
  | 6 => ⟨S1024x1024, .f32⟩
  | 7 => ⟨S1024x1024, .f32⟩
  | 8 => ⟨S1024x1024, .f32⟩
  | 9 => ⟨S_, .i32⟩
  | 10 => ⟨S1024, .i32⟩
  | 11 => ⟨S1024, .i1⟩
  | 12 => ⟨S_, .i32⟩
  | 13 => ⟨S1024, .i32⟩
  | 14 => ⟨S1024, .i32⟩
  | 15 => ⟨S1024, .i32⟩
  | 16 => ⟨S1024x1, .i32⟩
  | 17 => ⟨S1024, .f32⟩
  | 18 => ⟨S1024, .f32⟩
  | 19 => ⟨S1024, .f32⟩
  | 20 => ⟨S_, .f32⟩
  | 21 => ⟨S1024, .f32⟩
  | 22 => ⟨S1024, .f32⟩
  | 23 => ⟨S_, .f32⟩
  | 24 => ⟨S1024, .f32⟩
  | 25 => ⟨S1024, .f32⟩
  | 26 => ⟨S1024x1, .f32⟩
  | 27 => ⟨S1024x1024, .f32⟩
  | 28 => ⟨S1024x1024, .f32⟩
  | 29 => ⟨S_, .f32⟩
  | 30 => ⟨S1024x1, .f32⟩
  | 31 => ⟨S1024x1, .f32⟩
  | 32 => ⟨S1024x1024, .f32⟩
  | 33 => ⟨S1024x1024, .f32⟩
  | 34 => ⟨S1024x1024, .f32⟩
  | 35 => ⟨S_, .f32⟩
  | 36 => ⟨S1024x1024, .f32⟩
  | 37 => ⟨S1024x1024, .f32⟩
  | 38 => ⟨S_, .i32⟩
  | 39 => ⟨S1024, .i32⟩
  | 40 => ⟨S1024, .i1⟩
  | 41 => ⟨S_, .i32⟩
  | 42 => ⟨S1024, .i32⟩
  | 43 => ⟨S1024, .i32⟩
  | 44 => ⟨S1024, .i32⟩
  | 45 => ⟨S1024x1, .i32⟩
  | 46 => ⟨S1024, .f32⟩
  | 47 => ⟨S1024x1, .f32⟩
  | 48 => ⟨S1024x1024, .f32⟩
  | 49 => ⟨S1024x1024, .f32⟩
  | 50 => ⟨S_, .i32⟩
  | 51 => ⟨S1024x1024, .i32⟩
  | 52 => ⟨S1024x1024, .i1⟩
  | 53 => ⟨S_, .i32⟩
  | 54 => ⟨S1024x1024, .i32⟩
  | 55 => ⟨S1024x1024, .i32⟩
  | 56 => ⟨S1024x1024, .i32⟩
  | 57 => ⟨S1024x1024x1, .i32⟩
  | 58 => ⟨S1024x1024, .f32⟩
  | 59 => ⟨S1024x1024, .f32⟩
  | _ => ⟨S1024, .i32⟩

abbrev hbmTy (i : Nat) : BufTy := match i / 128 with
  | 0 => hbmTy0_0 i
  | 1 => hbmTy0_1 i
  | 2 => hbmTy0_2 i
  | _ => ⟨S1024, .i32⟩

abbrev bufTy : (tb : Table) → Fin (tcTables nBuf tb) → BufTy
  | .hbm, ⟨i, _⟩ => hbmTy i
  | _, _ => ⟨S1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_call0_v0 : Ref sig .tc := ⟨.hbm, 19, rfl⟩
abbrev main_call0_cst : Ref sig .tc := ⟨.hbm, 20, rfl⟩
abbrev main_call0_v1 : Ref sig .tc := ⟨.hbm, 21, rfl⟩
abbrev main_call0_v2 : Ref sig .tc := ⟨.hbm, 22, rfl⟩
abbrev main_v7 : Ref sig .tc := ⟨.hbm, 23, rfl⟩
abbrev main_cst : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_c_1 : Ref sig .tc := ⟨.hbm, 32, rfl⟩
abbrev main_v15 : Ref sig .tc := ⟨.hbm, 33, rfl⟩
abbrev main_v16 : Ref sig .tc := ⟨.hbm, 34, rfl⟩
abbrev main_c_2 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_call1_v0 : Ref sig .tc := ⟨.hbm, 41, rfl⟩
abbrev main_call1_cst : Ref sig .tc := ⟨.hbm, 42, rfl⟩
abbrev main_call1_v1 : Ref sig .tc := ⟨.hbm, 43, rfl⟩
abbrev main_call1_v2 : Ref sig .tc := ⟨.hbm, 44, rfl⟩
abbrev main_v22 : Ref sig .tc := ⟨.hbm, 45, rfl⟩
abbrev main_cst_3 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_c_4 : Ref sig .tc := ⟨.hbm, 54, rfl⟩
abbrev main_v30 : Ref sig .tc := ⟨.hbm, 55, rfl⟩
abbrev main_v31 : Ref sig .tc := ⟨.hbm, 56, rfl⟩
abbrev main_c_5 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_call2_v0 : Ref sig .tc := ⟨.hbm, 63, rfl⟩
abbrev main_call2_cst : Ref sig .tc := ⟨.hbm, 64, rfl⟩
abbrev main_call2_v1 : Ref sig .tc := ⟨.hbm, 65, rfl⟩
abbrev main_call2_v2 : Ref sig .tc := ⟨.hbm, 66, rfl⟩
abbrev main_v37 : Ref sig .tc := ⟨.hbm, 67, rfl⟩
abbrev main_cst_6 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_c_7 : Ref sig .tc := ⟨.hbm, 76, rfl⟩
abbrev main_v45 : Ref sig .tc := ⟨.hbm, 77, rfl⟩
abbrev main_v46 : Ref sig .tc := ⟨.hbm, 78, rfl⟩
abbrev main_c_8 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_call3_v0 : Ref sig .tc := ⟨.hbm, 85, rfl⟩
abbrev main_call3_cst : Ref sig .tc := ⟨.hbm, 86, rfl⟩
abbrev main_call3_v1 : Ref sig .tc := ⟨.hbm, 87, rfl⟩
abbrev main_call3_v2 : Ref sig .tc := ⟨.hbm, 88, rfl⟩
abbrev main_v52 : Ref sig .tc := ⟨.hbm, 89, rfl⟩
abbrev main_cst_9 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_c_10 : Ref sig .tc := ⟨.hbm, 98, rfl⟩
abbrev main_v60 : Ref sig .tc := ⟨.hbm, 99, rfl⟩
abbrev main_v61 : Ref sig .tc := ⟨.hbm, 100, rfl⟩
abbrev main_c_11 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_cst_12 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_cst_13 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_cst_14 : Ref sig .tc := ⟨.hbm, 116, rfl⟩
abbrev main_v74 : Ref sig .tc := ⟨.hbm, 117, rfl⟩
abbrev main_v75 : Ref sig .tc := ⟨.hbm, 118, rfl⟩
abbrev main_cst_15 : Ref sig .tc := ⟨.hbm, 119, rfl⟩
abbrev main_v76 : Ref sig .tc := ⟨.hbm, 120, rfl⟩
abbrev main_v77 : Ref sig .tc := ⟨.hbm, 121, rfl⟩
abbrev main_cst_16 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_cst_17 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_cst_18 : Ref sig .tc := ⟨.hbm, 134, rfl⟩
abbrev main_v88 : Ref sig .tc := ⟨.hbm, 135, rfl⟩
abbrev main_v89 : Ref sig .tc := ⟨.hbm, 136, rfl⟩
abbrev main_cst_19 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_cst_20 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_call4_v0 : Ref sig .tc := ⟨.hbm, 148, rfl⟩
abbrev main_call4_cst : Ref sig .tc := ⟨.hbm, 149, rfl⟩
abbrev main_call4_v1 : Ref sig .tc := ⟨.hbm, 150, rfl⟩
abbrev main_call4_v2 : Ref sig .tc := ⟨.hbm, 151, rfl⟩
abbrev main_v99 : Ref sig .tc := ⟨.hbm, 152, rfl⟩
abbrev main_cst_21 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_cst_22 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_cst_23 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_cst_24 : Ref sig .tc := ⟨.hbm, 194, rfl⟩
abbrev main_v138 : Ref sig .tc := ⟨.hbm, 195, rfl⟩
abbrev main_v139 : Ref sig .tc := ⟨.hbm, 196, rfl⟩
abbrev main_cst_25 : Ref sig .tc := ⟨.hbm, 197, rfl⟩
abbrev main_v140 : Ref sig .tc := ⟨.hbm, 198, rfl⟩
abbrev main_v141 : Ref sig .tc := ⟨.hbm, 199, rfl⟩
abbrev main_cst_26 : Ref sig .tc := ⟨.hbm, 200, rfl⟩
abbrev main_v142 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_v146 : Ref sig .tc := ⟨.hbm, 205, rfl⟩
abbrev main_cst_27 : Ref sig .tc := ⟨.hbm, 206, rfl⟩
abbrev main_v147 : Ref sig .tc := ⟨.hbm, 207, rfl⟩
abbrev main_v148 : Ref sig .tc := ⟨.hbm, 208, rfl⟩
abbrev main_v149 : Ref sig .tc := ⟨.hbm, 209, rfl⟩
abbrev main_v150 : Ref sig .tc := ⟨.hbm, 210, rfl⟩
abbrev main_v151 : Ref sig .tc := ⟨.hbm, 211, rfl⟩
abbrev main_cst_28 : Ref sig .tc := ⟨.hbm, 212, rfl⟩
abbrev main_v152 : Ref sig .tc := ⟨.hbm, 213, rfl⟩
abbrev main_v153 : Ref sig .tc := ⟨.hbm, 214, rfl⟩
abbrev main_cst_29 : Ref sig .tc := ⟨.hbm, 215, rfl⟩
abbrev main_v154 : Ref sig .tc := ⟨.hbm, 216, rfl⟩
abbrev main_v155 : Ref sig .tc := ⟨.hbm, 217, rfl⟩
abbrev main_v156 : Ref sig .tc := ⟨.hbm, 218, rfl⟩
abbrev main_v157 : Ref sig .tc := ⟨.hbm, 219, rfl⟩
abbrev main_cst_30 : Ref sig .tc := ⟨.hbm, 220, rfl⟩
abbrev main_v158 : Ref sig .tc := ⟨.hbm, 221, rfl⟩
abbrev main_v159 : Ref sig .tc := ⟨.hbm, 222, rfl⟩
abbrev main_v160 : Ref sig .tc := ⟨.hbm, 223, rfl⟩
abbrev main_v161 : Ref sig .tc := ⟨.hbm, 224, rfl⟩
abbrev main_v162 : Ref sig .tc := ⟨.hbm, 225, rfl⟩
abbrev main_v163 : Ref sig .tc := ⟨.hbm, 226, rfl⟩
abbrev main_v164 : Ref sig .tc := ⟨.hbm, 227, rfl⟩
abbrev main_v165 : Ref sig .tc := ⟨.hbm, 228, rfl⟩
abbrev main_cst_31 : Ref sig .tc := ⟨.hbm, 229, rfl⟩
abbrev main_v166 : Ref sig .tc := ⟨.hbm, 230, rfl⟩
abbrev main_v167 : Ref sig .tc := ⟨.hbm, 231, rfl⟩
abbrev main_cst_32 : Ref sig .tc := ⟨.hbm, 232, rfl⟩
abbrev main_v168 : Ref sig .tc := ⟨.hbm, 233, rfl⟩
abbrev main_cst_33 : Ref sig .tc := ⟨.hbm, 234, rfl⟩
abbrev main_v169 : Ref sig .tc := ⟨.hbm, 235, rfl⟩
abbrev main_v170 : Ref sig .tc := ⟨.hbm, 236, rfl⟩
abbrev main_cst_34 : Ref sig .tc := ⟨.hbm, 237, rfl⟩
abbrev main_v171 : Ref sig .tc := ⟨.hbm, 238, rfl⟩
abbrev main_v172 : Ref sig .tc := ⟨.hbm, 239, rfl⟩
abbrev main_cst_35 : Ref sig .tc := ⟨.hbm, 240, rfl⟩
abbrev main_v173 : Ref sig .tc := ⟨.hbm, 241, rfl⟩
abbrev main_v174 : Ref sig .tc := ⟨.hbm, 242, rfl⟩
abbrev main_v175 : Ref sig .tc := ⟨.hbm, 243, rfl⟩
abbrev main_v176 : Ref sig .tc := ⟨.hbm, 244, rfl⟩
abbrev main_v177 : Ref sig .tc := ⟨.hbm, 245, rfl⟩
abbrev main_v178 : Ref sig .tc := ⟨.hbm, 246, rfl⟩
abbrev main_v179 : Ref sig .tc := ⟨.hbm, 247, rfl⟩
abbrev main_cst_36 : Ref sig .tc := ⟨.hbm, 248, rfl⟩
abbrev main_v180 : Ref sig .tc := ⟨.hbm, 249, rfl⟩
abbrev main_v181 : Ref sig .tc := ⟨.hbm, 250, rfl⟩
abbrev main_cst_37 : Ref sig .tc := ⟨.hbm, 251, rfl⟩
abbrev main_v182 : Ref sig .tc := ⟨.hbm, 252, rfl⟩
abbrev main_cst_38 : Ref sig .tc := ⟨.hbm, 253, rfl⟩
abbrev main_v183 : Ref sig .tc := ⟨.hbm, 254, rfl⟩
abbrev main_v184 : Ref sig .tc := ⟨.hbm, 255, rfl⟩
abbrev main_cst_39 : Ref sig .tc := ⟨.hbm, 256, rfl⟩
abbrev main_v185 : Ref sig .tc := ⟨.hbm, 257, rfl⟩
abbrev main_v186 : Ref sig .tc := ⟨.hbm, 258, rfl⟩
abbrev main_cst_40 : Ref sig .tc := ⟨.hbm, 259, rfl⟩
abbrev main_v187 : Ref sig .tc := ⟨.hbm, 260, rfl⟩
abbrev main_v188 : Ref sig .tc := ⟨.hbm, 261, rfl⟩
abbrev main_v189 : Ref sig .tc := ⟨.hbm, 262, rfl⟩
abbrev main_v190 : Ref sig .tc := ⟨.hbm, 263, rfl⟩
abbrev main_v191 : Ref sig .tc := ⟨.hbm, 264, rfl⟩
abbrev main_c_41 : Ref sig .tc := ⟨.hbm, 265, rfl⟩
abbrev main_v192 : Ref sig .tc := ⟨.hbm, 266, rfl⟩
abbrev main_v193 : Ref sig .tc := ⟨.hbm, 267, rfl⟩
abbrev main_c_42 : Ref sig .tc := ⟨.hbm, 268, rfl⟩
abbrev main_v194 : Ref sig .tc := ⟨.hbm, 269, rfl⟩
abbrev main_v195 : Ref sig .tc := ⟨.hbm, 270, rfl⟩
abbrev main_v196 : Ref sig .tc := ⟨.hbm, 271, rfl⟩
abbrev main_v197 : Ref sig .tc := ⟨.hbm, 272, rfl⟩
abbrev main_v198 : Ref sig .tc := ⟨.hbm, 273, rfl⟩
abbrev main_v199 : Ref sig .tc := ⟨.hbm, 274, rfl⟩
abbrev main_v200 : Ref sig .tc := ⟨.hbm, 275, rfl⟩
abbrev main_cst_43 : Ref sig .tc := ⟨.hbm, 276, rfl⟩
abbrev main_v201 : Ref sig .tc := ⟨.hbm, 277, rfl⟩
abbrev main_v202 : Ref sig .tc := ⟨.hbm, 278, rfl⟩
abbrev main_cst_44 : Ref sig .tc := ⟨.hbm, 279, rfl⟩
abbrev main_v203 : Ref sig .tc := ⟨.hbm, 280, rfl⟩
abbrev main_v204 : Ref sig .tc := ⟨.hbm, 281, rfl⟩
abbrev main_v205 : Ref sig .tc := ⟨.hbm, 282, rfl⟩
abbrev main_v206 : Ref sig .tc := ⟨.hbm, 283, rfl⟩
abbrev main_v207 : Ref sig .tc := ⟨.hbm, 284, rfl⟩
abbrev main_cst_45 : Ref sig .tc := ⟨.hbm, 285, rfl⟩
abbrev main_v208 : Ref sig .tc := ⟨.hbm, 286, rfl⟩
abbrev main_v209 : Ref sig .tc := ⟨.hbm, 287, rfl⟩
abbrev main_v210 : Ref sig .tc := ⟨.hbm, 288, rfl⟩
abbrev main_v211 : Ref sig .tc := ⟨.hbm, 289, rfl⟩
abbrev main_v212 : Ref sig .tc := ⟨.hbm, 290, rfl⟩
abbrev main_cst_46 : Ref sig .tc := ⟨.hbm, 291, rfl⟩
abbrev main_v213 : Ref sig .tc := ⟨.hbm, 292, rfl⟩
abbrev main_v214 : Ref sig .tc := ⟨.hbm, 293, rfl⟩
abbrev main_c_47 : Ref sig .tc := ⟨.hbm, 294, rfl⟩
abbrev main_v215 : Ref sig .tc := ⟨.hbm, 295, rfl⟩
abbrev main_v216 : Ref sig .tc := ⟨.hbm, 296, rfl⟩
abbrev main_c_48 : Ref sig .tc := ⟨.hbm, 297, rfl⟩
abbrev main_v217 : Ref sig .tc := ⟨.hbm, 298, rfl⟩
abbrev main_v218 : Ref sig .tc := ⟨.hbm, 299, rfl⟩
abbrev main_v219 : Ref sig .tc := ⟨.hbm, 300, rfl⟩
abbrev main_v220 : Ref sig .tc := ⟨.hbm, 301, rfl⟩
abbrev main_v221 : Ref sig .tc := ⟨.hbm, 302, rfl⟩
abbrev main_v222 : Ref sig .tc := ⟨.hbm, 303, rfl⟩
abbrev main_v223 : Ref sig .tc := ⟨.hbm, 304, rfl⟩
abbrev main_v224 : Ref sig .tc := ⟨.hbm, 305, rfl⟩
abbrev main_c_49 : Ref sig .tc := ⟨.hbm, 306, rfl⟩
abbrev main_v225 : Ref sig .tc := ⟨.hbm, 307, rfl⟩
abbrev main_v226 : Ref sig .tc := ⟨.hbm, 308, rfl⟩
abbrev main_c_50 : Ref sig .tc := ⟨.hbm, 309, rfl⟩
abbrev main_v227 : Ref sig .tc := ⟨.hbm, 310, rfl⟩
abbrev main_v228 : Ref sig .tc := ⟨.hbm, 311, rfl⟩
abbrev main_v229 : Ref sig .tc := ⟨.hbm, 312, rfl⟩
abbrev main_v230 : Ref sig .tc := ⟨.hbm, 313, rfl⟩
abbrev main_v231 : Ref sig .tc := ⟨.hbm, 314, rfl⟩
abbrev main_v232 : Ref sig .tc := ⟨.hbm, 315, rfl⟩

abbrev nD : Nat := 1
abbrev τ : Topo := Topo.v7x

variable {F : FTy → Type} [FloatOps F]

class Facts₀ : Prop where
  bcast_S_S1024 : S_.BroadcastsInDim S1024 (![] : Fin 0 → Fin S1024.rank)
  bcast_S1024_S1024x1_0 : S1024.BroadcastsInDim S1024x1 (![0] : Fin 1 → Fin S1024x1.rank)
  reducesTo_S1024x64_S1024_d1 : S1024x64.ReducesTo [1] S1024
  h_S_ : 0 < S_.numel
  bcast_S_S1024x1 : S_.BroadcastsInDim S1024x1 (![] : Fin 0 → Fin S1024x1.rank)
  bcast_S1024x1_S1024x64_0_1 : S1024x1.BroadcastsInDim S1024x64 (![0, 1] : Fin 2 → Fin S1024x64.rank)
  bcast_S_S1024x1024 : S_.BroadcastsInDim S1024x1024 (![] : Fin 0 → Fin S1024x1024.rank)
  bcast_S1024x1024_S1024x1024x1_0_1 : S1024x1024.BroadcastsInDim S1024x1024x1 (![0, 1] : Fin 2 → Fin S1024x1024x1.rank)
  reducesTo_S1024x1024x64_S1024x1024_d2 : S1024x1024x64.ReducesTo [2] S1024x1024
  bcast_S_S1024x1024x1 : S_.BroadcastsInDim S1024x1024x1 (![] : Fin 0 → Fin S1024x1024x1.rank)
  bcast_S1024x1024x1_S1024x1024x64_0_1_2 : S1024x1024x1.BroadcastsInDim S1024x1024x64 (![0, 1, 2] : Fin 3 → Fin S1024x1024x64.rank)
  shapeCasts_S1024x64_S1024x32x2 : S1024x64.ShapeCasts S1024x32x2
  reducesTo_S1024x32x2_S1024x32_d2 : S1024x32x2.ReducesTo [2] S1024x32
  bcast_S1024x32_S1024x32x1_0_1 : S1024x32.BroadcastsInDim S1024x32x1 (![0, 1] : Fin 2 → Fin S1024x32x1.rank)
  bcast_S_S1024x32x1 : S_.BroadcastsInDim S1024x32x1 (![] : Fin 0 → Fin S1024x32x1.rank)
  bcast_S1024x32x1_S1024x32x2_0_1_2 : S1024x32x1.BroadcastsInDim S1024x32x2 (![0, 1, 2] : Fin 3 → Fin S1024x32x2.rank)
  slices_S1024x32x2_S1024x32x1_0_0_0 : S1024x32x2.Slices ![0, 0, 0] S1024x32x1
  shapeCasts_S1024x32x1_S1024x32 : S1024x32x1.ShapeCasts S1024x32
  slices_S1024x32x2_S1024x32x1_0_0_1 : S1024x32x2.Slices ![0, 0, 1] S1024x32x1
  concatenates_S1024x32x1_S1024x32x1_S1024x32x2_d2 : Shape.Concatenates [S1024x32x1, S1024x32x1] S1024x32x2 2
  shapeCasts_S1024x32x2_S1024x64 : S1024x32x2.ShapeCasts S1024x64
  bcast_S1024x64_S1024x1x64_0_2 : S1024x64.BroadcastsInDim S1024x1x64 (![0, 2] : Fin 2 → Fin S1024x1x64.rank)
  bcast_S1024x1x64_S1024x1024x64_0_1_2 : S1024x1x64.BroadcastsInDim S1024x1024x64 (![0, 1, 2] : Fin 3 → Fin S1024x1024x64.rank)
  reducesTo_S1024x1x64_S1024x1_d2 : S1024x1x64.ReducesTo [2] S1024x1
  bcast_S1024x1_S1024x1024_0_1 : S1024x1.BroadcastsInDim S1024x1024 (![0, 1] : Fin 2 → Fin S1024x1024.rank)
  gather_S200000x64_S1024x1_S1024x64_1_0_n_n_0_1_164_wf : GatherDims.WF S200000x64 S1024x1 S1024x64 [1] [0] [] [0] [] 1 ![1, 64]
  gather_S200000x64_S1024x1024x1_S1024x1024x64_2_0_n_n_0_2_164_wf : GatherDims.WF S200000x64 S1024x1024x1 S1024x1024x64 [2] [0] [] [0] [] 2 ![1, 64]
  gather_S500x64_S1024x1_S1024x64_1_0_n_n_0_1_164_wf : GatherDims.WF S500x64 S1024x1 S1024x64 [1] [0] [] [0] [] 1 ![1, 64]
  gather_S500_S1024x1_S1024_n_0_n_n_0_1_1_wf : GatherDims.WF S500 S1024x1 S1024 [] [0] [] [0] [] 1 ![1]
  gather_S200000_S1024x1_S1024_n_0_n_n_0_1_1_wf : GatherDims.WF S200000 S1024x1 S1024 [] [0] [] [0] [] 1 ![1]
  gather_S200000_S1024x1024x1_S1024x1024_n_0_n_n_0_2_1_wf : GatherDims.WF S200000 S1024x1024x1 S1024x1024 [] [0] [] [0] [] 2 ![1]

variable [Facts₀]

def gather_S200000x64_S1024x1_S1024x64_1_0_n_n_0_1_164 : GatherDims S200000x64 S1024x1 S1024x64 where
  offsetDims := [1]
  collapsedSliceDims := [0]
  operandBatchingDims := []
  startIndicesBatchingDims := []
  startIndexMap := [0]
  indexVectorDim := 1
  sliceSizes := ![1, 64]
  wf := gather_S200000x64_S1024x1_S1024x64_1_0_n_n_0_1_164_wf
def gather_S200000x64_S1024x1024x1_S1024x1024x64_2_0_n_n_0_2_164 : GatherDims S200000x64 S1024x1024x1 S1024x1024x64 where
  offsetDims := [2]
  collapsedSliceDims := [0]
  operandBatchingDims := []
  startIndicesBatchingDims := []
  startIndexMap := [0]
  indexVectorDim := 2
  sliceSizes := ![1, 64]
  wf := gather_S200000x64_S1024x1024x1_S1024x1024x64_2_0_n_n_0_2_164_wf
def gather_S500x64_S1024x1_S1024x64_1_0_n_n_0_1_164 : GatherDims S500x64 S1024x1 S1024x64 where
  offsetDims := [1]
  collapsedSliceDims := [0]
  operandBatchingDims := []
  startIndicesBatchingDims := []
  startIndexMap := [0]
  indexVectorDim := 1
  sliceSizes := ![1, 64]
  wf := gather_S500x64_S1024x1_S1024x64_1_0_n_n_0_1_164_wf
def gather_S500_S1024x1_S1024_n_0_n_n_0_1_1 : GatherDims S500 S1024x1 S1024 where
  offsetDims := []
  collapsedSliceDims := [0]
  operandBatchingDims := []
  startIndicesBatchingDims := []
  startIndexMap := [0]
  indexVectorDim := 1
  sliceSizes := ![1]
  wf := gather_S500_S1024x1_S1024_n_0_n_n_0_1_1_wf
def gather_S200000_S1024x1_S1024_n_0_n_n_0_1_1 : GatherDims S200000 S1024x1 S1024 where
  offsetDims := []
  collapsedSliceDims := [0]
  operandBatchingDims := []
  startIndicesBatchingDims := []
  startIndexMap := [0]
  indexVectorDim := 1
  sliceSizes := ![1]
  wf := gather_S200000_S1024x1_S1024_n_0_n_n_0_1_1_wf
def gather_S200000_S1024x1024x1_S1024x1024_n_0_n_n_0_2_1 : GatherDims S200000 S1024x1024x1 S1024x1024 where
  offsetDims := []
  collapsedSliceDims := [0]
  operandBatchingDims := []
  startIndicesBatchingDims := []
  startIndexMap := [0]
  indexVectorDim := 2
  sliceSizes := ![1]
  wf := gather_S200000_S1024x1024x1_S1024x1024_n_0_n_n_0_2_1_wf

class Facts : Prop extends Facts₀ where

variable [Facts]
-- ==== Proof.Spec.lean ====
/-
  The score both programs compute, for one (query, candidate) pair, on the extended reals.

  From a raw candidate vector u (64 coordinates), a head point h, a gate value s and two biases:
    n    = max (sqrt (Σ u²)) ε                     the clipped norm of u
    t    = tanh n · u / n                          u mapped into the ball
    num  = Σ (h − t)²
    B(d) = log (max num ε / max d ε)               a Busemann-type distance with denominator d
    out  = 9 − (σ(s) · B(1 − Σ t²) + (1 − σ(s)) · B(1 − Σ h²)) + b₁ + b₂,
  σ the logistic function.  The constants ε = f32(1e-15), 1 and 9 are kept as their binary words.

  Two small laws are proved here: a squared difference does not depend on the order of its two terms, on every
  extended real (at an infinite difference both squares are +∞); and the word of 1.0 is the number 1.
-/
import Idealize.ShloMosaic.PureOps.Ideal
import Idealize.ShloMosaic.PureOps.Ideal.Laws
import Idealize.ShloMosaic.Lib.ValueIdx

noncomputable section

namespace Busemann

open Idealize.ShloMosaic
open scoped BigOperators

/-- ε, the lower clip of norms and denominators: the f32 nearest to 1e-15. -/
abbrev eps : EReal := Ideal.ofBits .f32 0x26901D7D#32
/-- The word of 1.0. -/
abbrev one : EReal := Ideal.ofBits .f32 0x3F800000#32
/-- The word of 9.0 (the margin). -/
abbrev nine : EReal := Ideal.ofBits .f32 0x41100000#32

/-- The clipped Euclidean norm of a vector. -/
def clipNorm (u : Fin 64 → EReal) : EReal := max (Ideal.sqrt (∑ l, u l * u l)) eps

/-- The exponential map at the origin of the unit ball, coordinate k. -/
def expmap (u : Fin 64 → EReal) (k : Fin 64) : EReal := Ideal.div (Ideal.tanh (clipNorm u) * u k) (clipNorm u)

/-- Squared distance of two vectors. -/
def sqDist (h t : Fin 64 → EReal) : EReal := ∑ k, (h k - t k) * (h k - t k)

/-- Squared norm of a vector. -/
def sqNorm (t : Fin 64 → EReal) : EReal := ∑ k, t k * t k

/-- log of the clipped numerator over the clipped denominator. -/
def buse (num den : EReal) : EReal := Ideal.log (Ideal.div (max num eps) (max den eps))

/-- The score of one pair. -/
def score (u h : Fin 64 → EReal) (s bu bv : EReal) : EReal :=
  nine - (Ideal.logistic s * buse (sqDist h (expmap u)) (one - sqNorm (expmap u))
      + (one - Ideal.logistic s) * buse (sqDist h (expmap u)) (one - sqNorm h)) + bu + bv

/-- A squared difference is symmetric in its two terms, on all extended reals. -/
theorem sq_sub_comm (a b : EReal) : (a - b) * (a - b) = (b - a) * (b - a) := by
  induction a using EReal.rec <;> induction b using EReal.rec <;>
    first
      | rfl
      | (simp only [EReal.coe_sub_bot, EReal.bot_sub, EReal.top_sub_coe, EReal.coe_sub_top, EReal.sub_top, EReal.top_sub_bot,
          EReal.bot_mul_bot, EReal.top_mul_top])
      | (rw [← EReal.coe_sub, ← EReal.coe_sub, ← EReal.coe_mul, ← EReal.coe_mul]; congr 1; ring)

/-- Squared distance does not depend on the order of its arguments. -/
theorem sqDist_comm (h t : Fin 64 → EReal) : sqDist t h = sqDist h t :=
  Finset.sum_congr rfl fun k _ => sq_sub_comm (t k) (h k)

/-- A sum started from the word of 0.0 is the sum. -/
theorem zero_word_add (s : EReal) : Ideal.ofBits .f32 0x00000000#32 + s = s := by
  rw [Ideal.ofBits_zero_f32, zero_add]

/-- The word 0x3F800000 is the number 1. -/
theorem one_eq : one = 1 := by
  simp [one, Ideal.ofBits, Ideal.ieee, -EReal.coe_mul]; norm_num

/-- The logistic function spelled with the word of 1.0: 1 / (1 + exp (−s)). -/
theorem logistic_spelled (s : EReal) : Ideal.div one (one + Ideal.exp (-s)) = Ideal.logistic s := by
  rw [one_eq]; rfl

/-- The whole result: the score of pair (r, c) from row (r, c) of the raw candidates T, row r of the heads H, and the
    gates and biases of query r and of pair (r, c). -/
def scoreArr (T : (⟨3, ![1024, 1024, 64]⟩ : Shape).Idx → EReal) (H : (⟨2, ![1024, 64]⟩ : Shape).Idx → EReal)
    (Sg B1 : Fin 1024 → EReal) (B2 : (⟨2, ![1024, 1024]⟩ : Shape).Idx → EReal) :
    (⟨2, ![1024, 1024]⟩ : Shape).Idx → EReal :=
  fun i => score (fun k => T (ValueIdx.ix3 (i 0) (i 1) k)) (fun k => H (ValueIdx.ix2 (i 0) k)) (Sg (i 0)) (B1 (i 0)) (B2 i)

end Busemann

end
-- ==== Proof.LibKeepdims.lean ====
/-
  Three layout facts for row-wise reductions with a kept unit axis (`jnp.sum(x, axis=-1, keepdims=True)` and what
  consumes it), read at an index built from literal coordinates:
    • a column [a, 1] broadcast to [a, b] reads, at (p, c), the column's entry of row p;
    • a vector [a] cast to the column [a, 1] reads, at (i, u), the vector's entry i;
    • the sum of a matrix [a, b] along its second axis, at the extended reals, is at row i the sum over k of the
      entries (i, k).
  They complete the library's small-shape lemmas (which have the row forms [1, b] → [a, b] and [a] → [1, a]).
-/
import Idealize.ShloMosaic.Lib.Pipeline.Value
import Idealize.ShloMosaic.Lib.ValueIdx
import Idealize.ShloMosaic.PureOps.Ideal.Laws

noncomputable section

namespace Cert.Lib.Keepdims

open Idealize.ShloMosaic Idealize.ShloMosaic.ValueIdx
open scoped BigOperators

variable {α : Type}

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to the column `[a, 1]` reads, at `(i, u)`, the vector's entry `i`, whatever the unit
    coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The float sum of an `[a, b]` matrix along its second axis, at the extended reals, is at row `i` the sum of
    that row's entries. -/
theorem rowSum_apply {a b : ℕ} {φ : FTy} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.add.neutral φ hφ) (i : Fin a) :
    multiReduction .add [(1 : Fin 2)] ⟨1, ![a]⟩ src acc h hφ hacc (ix1 i) = ∑ k : Fin b, src (ix2 i k) :=
  (Ideal.multiReduction_add_single src acc h hφ hacc (ix1 i)).trans
    (Finset.sum_congr rfl fun k _ => congrArg src (funext fun c => Fin.ext (by
      match c with
      | ⟨0, _⟩ => rfl
      | ⟨1, _⟩ => rfl)))

end Cert.Lib.Keepdims

end
-- ==== Proof.LibLastAxis3.lean ====
/-
  Reductions of a rank-3 array along its LAST axis, and one more unit-axis cast, read at an index.

  For an [a, b, c] array of extended reals:
    • its sum along the last axis reads, at (r, k), the sum over l of the entries (r, k, l);
    • its maximum along the last axis (lane reduction from an accumulator word, or the host's reduce from an initial
      value) reads, at (r, k), the fold of `max` from that start over the entries (r, k, l);
    • the host's sum along the last axis reads, at (r, k), the initial value plus the same sum.
  A [1, c] row cast to [1, 1, c] reads, at (u, v, l), the row at (0, l).
-/
import Idealize.ShloMosaic.Lib.ValueIdx
import Idealize.ShloMosaic.Lib.Pipeline.Value
import Idealize.ShloMosaic.PureOps.Ideal.Laws
import Idealize.ShloMosaic.PureOps.Reduce

noncomputable section

namespace LastAxis3

open Idealize.ShloMosaic Idealize.ShloMosaic.ValueIdx
open scoped BigOperators

variable {α : Type}

/-- Over result index (r, k), the source index with l inserted on the last axis is (r, k, l). -/
theorem lift_last {a b c : ℕ} (h : (⟨3, ![a, b, c]⟩ : Shape).Reduces [(2 : Fin 3)] ⟨2, ![a, b]⟩) (r : Fin a) (k : Fin b)
    (l : Fin c) : h.lift (ix2 r k) l = ix3 r k l := by
  funext ax; refine Fin.ext ?_
  match ax with
  | ⟨0, _⟩ => rfl
  | ⟨1, _⟩ => rfl
  | ⟨2, _⟩ => rfl

/-- The lane sum of an [a, b, c] array along its last axis, at (r, k). -/
theorem sum_last_apply {a b c : ℕ} {φ : FTy} (src : FVec Ideal ⟨3, ![a, b, c]⟩ φ) (acc : BitVec φ.bits)
    (h : (⟨3, ![a, b, c]⟩ : Shape).Reduces [(2 : Fin 3)] ⟨2, ![a, b]⟩) (hφ : FKind.Formats φ)
    (hacc : acc = FKind.add.neutral φ hφ) (r : Fin a) (k : Fin b) :
    multiReduction .add [(2 : Fin 3)] ⟨2, ![a, b]⟩ src acc h hφ hacc (ix2 r k) = ∑ l : Fin c, src (ix3 r k l) :=
  (Ideal.multiReduction_add_single src acc h hφ hacc (ix2 r k)).trans
    (Finset.sum_congr rfl fun l _ => congrArg src (lift_last h r k l))

/-- The lane maximum of an [a, b, c] array along its last axis, at (r, k): the fold of `max` from the accumulator. -/
theorem max_last_apply {a b c : ℕ} {φ : FTy} (src : FVec Ideal ⟨3, ![a, b, c]⟩ φ) (acc : BitVec φ.bits)
    (h : (⟨3, ![a, b, c]⟩ : Shape).Reduces [(2 : Fin 3)] ⟨2, ![a, b]⟩) (hφ : FKind.Formats φ)
    (hacc : acc = FKind.maximumf.neutral φ hφ) (r : Fin a) (k : Fin b) :
    multiReduction .maximumf [(2 : Fin 3)] ⟨2, ![a, b]⟩ src acc h hφ hacc (ix2 r k)
      = (Finset.univ : Finset (Fin c)).fold max (Ideal.ofBits φ acc) (fun l => src (ix3 r k l)) := by
  refine (Ideal.multiReduction_maximumf_single src acc h hφ hacc (ix2 r k)).trans ?_
  refine congrArg (fun f => (Finset.univ : Finset (Fin c)).fold max (Ideal.ofBits φ acc) f) ?_
  funext l
  exact congrArg src (lift_last h r k l)

/-- The host's maximum of an [a, b, c] array along its last axis, at (r, k): the fold of `max` from the initial value. -/
theorem hostMax_last_apply {a b c : ℕ} {φ : FTy} {u : Shape} (x : FVec Ideal ⟨3, ![a, b, c]⟩ φ) (init : FVec Ideal u φ)
    (h' : (⟨3, ![a, b, c]⟩ : Shape).ReducesTo [(2 : Fin 3)] ⟨2, ![a, b]⟩)
    (h : (⟨3, ![a, b, c]⟩ : Shape).Reduces [(2 : Fin 3)] ⟨2, ![a, b]⟩) (hu : 0 < u.numel) (r : Fin a) (k : Fin b) :
    Host.reduce (FloatOps.maximumf (F := Ideal) (φ := φ)) x init h' hu (ix2 r k)
      = (Finset.univ : Finset (Fin c)).fold max (init (Shape.Idx.first hu)) (fun l => x (ix3 r k l)) := by
  refine (Host.reduce_eq_fold_single (FloatOps.maximumf (F := Ideal) (φ := φ)) x init h' h hu (ix2 r k)).trans ?_
  refine congrArg (fun f => (Finset.univ : Finset (Fin c)).fold max (init (Shape.Idx.first hu)) f) ?_
  funext l
  exact congrArg x (lift_last h r k l)

/-- A [1, c] row cast to [1, 1, c] reads, at (u, v, l), the row at (0, l). -/
theorem shapeCast_1c_11c_apply {c : ℕ} (x : (⟨2, ![1, c]⟩ : Shape).Idx → α)
    (h : (⟨2, ![1, c]⟩ : Shape).ShapeCasts ⟨3, ![1, 1, c]⟩) (u v : Fin 1) (l : Fin c) :
    shapeCast ⟨3, ![1, 1, c]⟩ x h (ix3 u v l) = x (ix2 (0 : Fin 1) l) :=
  shapeCast_apply x h _ _ (by
    have hu : u.val = 0 := by omega
    have hv : v.val = 0 := by omega
    rw [Shape.rowMajor_val_three, Shape.rowMajor_val_two]
    show 0 * c + l.val = (u.val * 1 + v.val) * c + l.val
    rw [hu, hv])

end LastAxis3

end
-- ==== Proof.LibOuter3.lean ====
/-
  Rank-3 "outer product" layouts read at an index.

  A kernel that forms an [a, b, c] tensor from a length-c vector, an [a, b] matrix and a [b, c] matrix does it by adding
  unit axes and broadcasting: the vector as [1, 1, c], the first matrix as [a, b, 1], the second as [1, b, c].  Each of
  these reads, at (r, k, l), one entry of its operand; and the sum of an [a, b, c] tensor along its middle axis reads, at
  (r, l), the sum over k of the entries (r, k, l).  All indices are written by coordinates.
-/
import Idealize.ShloMosaic.Lib.ValueIdx
import Idealize.ShloMosaic.Lib.Pipeline.Value
import Idealize.ShloMosaic.PureOps.Ideal.Laws

noncomputable section

namespace Outer3

open Idealize.ShloMosaic Idealize.ShloMosaic.ValueIdx
open scoped BigOperators

variable {α : Type}

/-- A length-c vector cast to [1, 1, c] reads, at (u, v, l), the vector at l. -/
theorem shapeCast_c_11c_apply {c : ℕ} (x : (⟨1, ![c]⟩ : Shape).Idx → α)
    (h : (⟨1, ![c]⟩ : Shape).ShapeCasts ⟨3, ![1, 1, c]⟩) (u v : Fin 1) (l : Fin c) :
    shapeCast ⟨3, ![1, 1, c]⟩ x h (ix3 u v l) = x (ix1 l) :=
  shapeCast_apply x h _ _ (by
    have hu : u.val = 0 := by omega
    have hv : v.val = 0 := by omega
    rw [Shape.rowMajor_val_three, Shape.rowMajor_val_one]
    show l.val = (u.val * 1 + v.val) * c + l.val
    rw [hu, hv]; simp)

/-- An [a, b] matrix cast to [a, b, 1] reads, at (r, k, u), the matrix at (r, k). -/
theorem shapeCast_ab_ab1_apply {a b : ℕ} (x : (⟨2, ![a, b]⟩ : Shape).Idx → α)
    (h : (⟨2, ![a, b]⟩ : Shape).ShapeCasts ⟨3, ![a, b, 1]⟩) (r : Fin a) (k : Fin b) (u : Fin 1) :
    shapeCast ⟨3, ![a, b, 1]⟩ x h (ix3 r k u) = x (ix2 r k) :=
  shapeCast_apply x h _ _ (by
    have hu : u.val = 0 := by omega
    rw [Shape.rowMajor_val_three, Shape.rowMajor_val_two]
    show r.val * b + k.val = (r.val * b + k.val) * 1 + u.val
    rw [hu, Nat.mul_one, Nat.add_zero])

/-- A [1, 1, c] array broadcast to [a, b, c] reads, at (r, k, l), its one fibre at l. -/
theorem broadcastTo_11c_abc_apply {a b c : ℕ} (v : (⟨3, ![1, 1, c]⟩ : Shape).Idx → α)
    (h : (⟨3, ![1, 1, c]⟩ : Shape).Broadcasts ⟨3, ![a, b, c]⟩) (r : Fin a) (k : Fin b) (l : Fin c) :
    broadcastTo ⟨3, ![a, b, c]⟩ v h (ix3 r k l) = v (ix3 (0 : Fin 1) (0 : Fin 1) l) := by
  refine broadcastTo_apply v h (ix3 r k l) (ix3 (0 : Fin 1) (0 : Fin 1) l) fun ax => ?_
  match ax with
  | ⟨0, _⟩ => rfl
  | ⟨1, _⟩ => rfl
  | ⟨2, _⟩ =>
    show l.val = if c = 1 then 0 else l.val
    split
    · have := l.isLt; omega
    · rfl

/-- An [a, b, 1] array broadcast to [a, b, c] reads, at (r, k, l), its entry (r, k). -/
theorem broadcastTo_ab1_abc_apply {a b c : ℕ} (v : (⟨3, ![a, b, 1]⟩ : Shape).Idx → α)
    (h : (⟨3, ![a, b, 1]⟩ : Shape).Broadcasts ⟨3, ![a, b, c]⟩) (r : Fin a) (k : Fin b) (l : Fin c) :
    broadcastTo ⟨3, ![a, b, c]⟩ v h (ix3 r k l) = v (ix3 r k (0 : Fin 1)) := by
  refine broadcastTo_apply v h (ix3 r k l) (ix3 r k (0 : Fin 1)) fun ax => ?_
  match ax with
  | ⟨0, _⟩ =>
    show r.val = if a = 1 then 0 else r.val
    split
    · have := r.isLt; omega
    · rfl
  | ⟨1, _⟩ =>
    show k.val = if b = 1 then 0 else k.val
    split
    · have := k.isLt; omega
    · rfl
  | ⟨2, _⟩ => rfl

/-- A [1, b, c] array broadcast to [a, b, c] reads, at (r, k, l), its entry (k, l). -/
theorem broadcastTo_1bc_abc_apply {a b c : ℕ} (v : (⟨3, ![1, b, c]⟩ : Shape).Idx → α)
    (h : (⟨3, ![1, b, c]⟩ : Shape).Broadcasts ⟨3, ![a, b, c]⟩) (r : Fin a) (k : Fin b) (l : Fin c) :
    broadcastTo ⟨3, ![a, b, c]⟩ v h (ix3 r k l) = v (ix3 (0 : Fin 1) k l) := by
  refine broadcastTo_apply v h (ix3 r k l) (ix3 (0 : Fin 1) k l) fun ax => ?_
  match ax with
  | ⟨0, _⟩ => rfl
  | ⟨1, _⟩ =>
    show k.val = if b = 1 then 0 else k.val
    split
    · have := k.isLt; omega
    · rfl
  | ⟨2, _⟩ =>
    show l.val = if c = 1 then 0 else l.val
    split
    · have := l.isLt; omega
    · rfl

/-- The sum of an [a, b, c] tensor of extended reals along its middle axis reads, at (r, l), the sum over k of the
    entries (r, k, l). -/
theorem multiReduction_add_mid_apply {a b c : ℕ} {φ : FTy} (src : FVec Ideal ⟨3, ![a, b, c]⟩ φ) (acc : BitVec φ.bits)
    (h : (⟨3, ![a, b, c]⟩ : Shape).Reduces [1] ⟨2, ![a, c]⟩) (hφ : FKind.Formats φ)
    (hacc : acc = FKind.add.neutral φ hφ) (r : Fin a) (l : Fin c) :
    multiReduction .add [1] ⟨2, ![a, c]⟩ src acc h hφ hacc (ix2 r l) = ∑ k : Fin b, src (ix3 r k l) := by
  refine (Ideal.multiReduction_add_single src acc h hφ hacc (ix2 r l)).trans ?_
  refine Finset.sum_congr rfl fun k _ => congrArg src (funext fun ax => Fin.ext ?_)
  match ax with
  | ⟨0, _⟩ => rfl
  | ⟨1, _⟩ => rfl
  | ⟨2, _⟩ => rfl

end Outer3

end
-- ==== Proof.LibMidAxis3.lean ====
/-
  A kept middle axis, read at an index.

  A matrix [a, c] seen as [a, 1, c] (`x[:, None, :]`) reads, at (r, u, l), the matrix at (r, l); and an [a, 1, c]
  array broadcast along its middle axis to [a, b, c] reads, at (r, k, l), its entry (r, 0, l).  Together: the matrix
  repeated over a new middle axis.  All indices are written by coordinates.
-/
import Idealize.ShloMosaic.Lib.ValueIdx
import Idealize.ShloMosaic.Lib.Pipeline.Value

noncomputable section

namespace MidAxis3

open Idealize.ShloMosaic Idealize.ShloMosaic.ValueIdx

variable {α : Type}

/-- An [a, c] matrix cast to [a, 1, c] reads, at (r, u, l), the matrix at (r, l). -/
theorem shapeCast_ac_a1c_apply {a c : ℕ} (x : (⟨2, ![a, c]⟩ : Shape).Idx → α)
    (h : (⟨2, ![a, c]⟩ : Shape).ShapeCasts ⟨3, ![a, 1, c]⟩) (r : Fin a) (u : Fin 1) (l : Fin c) :
    shapeCast ⟨3, ![a, 1, c]⟩ x h (ix3 r u l) = x (ix2 r l) :=
  shapeCast_apply x h _ _ (by
    have hu : u.val = 0 := by omega
    rw [Shape.rowMajor_val_three, Shape.rowMajor_val_two]
    show r.val * c + l.val = (r.val * 1 + u.val) * c + l.val
    rw [hu, Nat.mul_one, Nat.add_zero])

/-- An [a, 1, c] array broadcast to [a, b, c] reads, at (r, k, l), its entry (r, 0, l). -/
theorem broadcastTo_a1c_abc_apply {a b c : ℕ} (v : (⟨3, ![a, 1, c]⟩ : Shape).Idx → α)
    (h : (⟨3, ![a, 1, c]⟩ : Shape).Broadcasts ⟨3, ![a, b, c]⟩) (r : Fin a) (k : Fin b) (l : Fin c) :
    broadcastTo ⟨3, ![a, b, c]⟩ v h (ix3 r k l) = v (ix3 r (0 : Fin 1) l) := by
  refine broadcastTo_apply v h (ix3 r k l) (ix3 r (0 : Fin 1) l) fun ax => ?_
  match ax with
  | ⟨0, _⟩ =>
    show r.val = if a = 1 then 0 else r.val
    split
    · have := r.isLt; omega
    · rfl
  | ⟨1, _⟩ => rfl
  | ⟨2, _⟩ =>
    show l.val = if c = 1 then 0 else l.val
    split
    · have := l.isLt; omega
    · rfl

end MidAxis3

end
-- ==== Proof.KernelBlock.lean ====
/-
  What the kernel body leaves in its output block, entry by entry.

  At entry (p, q) of the 128 × 128 output block the body's result is the score (Spec.lean) of row (p, q) of the
  candidate block, row p of the head block, and the gate, the first bias (entry (p, 0) of their columns) and the
  second bias (entry (p, q)).  The three lane sums of the body — Σ u², Σ (h − t)², Σ t² along the last axis of the
  128 × 128 × 64 block, and Σ h² along the rows of the head block — are read as finite sums; the broadcasts of the
  clipped norm over the last axis and of the head over the middle axis read one entry each.
-/
import proofs.«149156_j781684048755_1_alg».proof.Proof.Gen.KernelIdeal.Value
import proofs.«149156_j781684048755_1_alg».proof.Proof.Spec
import proofs.«149156_j781684048755_1_alg».proof.Proof.LibLastAxis3
import proofs.«149156_j781684048755_1_alg».proof.Proof.LibOuter3
import proofs.«149156_j781684048755_1_alg».proof.Proof.LibKeepdims
import proofs.«149156_j781684048755_1_alg».proof.Proof.LibMidAxis3

noncomputable section

namespace Cert.KernelIdeal.Block

open Cert.KernelIdeal Cert.KernelIdeal.Gen Idealize.ShloMosaic Idealize.ShloMosaic.TcCoe Idealize.SL.Sem
open Idealize.ShloMosaic.ValueIdx Busemann
open scoped BigOperators

/-- The candidate block as the body first sees it. -/
abbrev rawV (P2 : Vec Ideal S128x128x64 .f32) : FVec Ideal S128x128x64 .f32 := (shapeCast S128x128x64 P2 shapeCasts_S128x128x64_S128x128x64)

/-- Its clipped norms, with the last axis kept as a unit axis. -/
abbrev normV (P2 : Vec Ideal S128x128x64 .f32) : FVec Ideal S128x128x1 .f32 := (maximumf (sqrt (shapeCast S128x128x1 (multiReduction .add [2] S128x128 (mulf (rawV P2) (rawV P2)) 0x00000000#32 reduces_S128x128x64_S128x128 (.inl rfl) rfl) shapeCasts_S128x128_S128x128x1)) (broadcast S128x128x1 (Scalar.ofBits .f32 0x26901D7D#32)))

/-- The candidates mapped into the ball. -/
abbrev tailV (P2 : Vec Ideal S128x128x64 .f32) : FVec Ideal S128x128x64 .f32 := (divf (mulf (broadcastTo S128x128x64 (tanh (normV P2)) broadcasts_S128x128x1_S128x128x64) (rawV P2)) (broadcastTo S128x128x64 (normV P2) broadcasts_S128x128x1_S128x128x64))

/-- The head block. -/
abbrev headRows (P1 : Vec Ideal S128x64 .f32) : FVec Ideal S128x64 .f32 := (shapeCast S128x64 P1 shapeCasts_S128x64_S128x64)

/-- The head block repeated over the candidates. -/
abbrev headV (P1 : Vec Ideal S128x64 .f32) : FVec Ideal S128x128x64 .f32 := (broadcastTo S128x128x64 (shapeCast S128x1x64 (headRows P1) shapeCasts_S128x64_S128x1x64) broadcasts_S128x1x64_S128x128x64)

/-- Σ (h − t)² per pair. -/
abbrev numV (P1 : Vec Ideal S128x64 .f32) (P2 : Vec Ideal S128x128x64 .f32) : FVec Ideal S128x128 .f32 := (multiReduction .add [2] S128x128 (mulf (subf (headV P1) (tailV P2)) (subf (headV P1) (tailV P2))) 0x00000000#32 reduces_S128x128x64_S128x128 (.inl rfl) rfl)

/-- Σ t² per pair. -/
abbrev ttV (P2 : Vec Ideal S128x128x64 .f32) : FVec Ideal S128x128 .f32 := (multiReduction .add [2] S128x128 (mulf (tailV P2) (tailV P2)) 0x00000000#32 reduces_S128x128x64_S128x128 (.inl rfl) rfl)

/-- Σ h² per query. -/
abbrev hhV (P1 : Vec Ideal S128x64 .f32) : FVec Ideal S128 .f32 := (multiReduction .add [1] S128 (mulf (headRows P1) (headRows P1)) 0x00000000#32 reduces_S128x64_S128 (.inl rfl) rfl)

variable (P0 : Vec Ideal S128x1 .f32) (P1 : Vec Ideal S128x64 .f32) (P2 : Vec Ideal S128x128x64 .f32)
  (P3 : Vec Ideal S128x1 .f32) (P4 : Vec Ideal S128x128 .f32)

/-- The body's first look at the candidate block is the block. -/
theorem rawV_apply (i : S128x128x64.Idx) : rawV P2 i = P2 i := congrFun (shapeCast_self P2 _) i

/-- The body's first look at the head block is the block. -/
theorem headRows_apply (i : S128x64.Idx) : headRows P1 i = P1 i := congrFun (shapeCast_self P1 _) i

/-- The clipped norm at pair (p, q). -/
theorem normV_apply (p q : Fin 128) : normV P2 (ix3 p q (0 : Fin 1)) = clipNorm (fun l => P2 (ix3 p q l)) := by
  show max (Ideal.sqrt (shapeCast S128x128x1 (multiReduction .add [2] S128x128 (mulf (rawV P2) (rawV P2)) 0x00000000#32 reduces_S128x128x64_S128x128 (.inl rfl) rfl) shapeCasts_S128x128_S128x128x1 (ix3 p q (0 : Fin 1)))) eps = _
  rw [Outer3.shapeCast_ab_ab1_apply]
  refine congrArg (fun x => max (Ideal.sqrt x) eps) ?_
  refine (LastAxis3.sum_last_apply _ _ _ _ _ p q).trans ?_
  refine Finset.sum_congr rfl fun l _ => ?_
  show rawV P2 (ix3 p q l) * rawV P2 (ix3 p q l) = _
  rw [rawV_apply]

/-- The mapped candidate at (p, q, k). -/
theorem tailV_apply (p q : Fin 128) (k : Fin 64) : tailV P2 (ix3 p q k) = expmap (fun l => P2 (ix3 p q l)) k := by
  show Ideal.div (broadcastTo S128x128x64 (tanh (normV P2)) broadcasts_S128x128x1_S128x128x64 (ix3 p q k) * rawV P2 (ix3 p q k))
      (broadcastTo S128x128x64 (normV P2) broadcasts_S128x128x1_S128x128x64 (ix3 p q k)) = _
  rw [Outer3.broadcastTo_ab1_abc_apply, Outer3.broadcastTo_ab1_abc_apply, rawV_apply]
  show Ideal.div (Ideal.tanh (normV P2 (ix3 p q (0 : Fin 1))) * P2 (ix3 p q k)) (normV P2 (ix3 p q (0 : Fin 1))) = _
  rw [normV_apply]
  rfl

/-- The repeated head at (p, q, k). -/
theorem headV_apply (p q : Fin 128) (k : Fin 64) : headV P1 (ix3 p q k) = P1 (ix2 p k) := by
  refine (MidAxis3.broadcastTo_a1c_abc_apply _ _ p q k).trans ?_
  refine (MidAxis3.shapeCast_ac_a1c_apply _ _ p (0 : Fin 1) k).trans ?_
  exact headRows_apply P1 _

theorem numV_apply (p q : Fin 128) :
    numV P1 P2 (ix2 p q) = sqDist (fun k => P1 (ix2 p k)) (expmap (fun l => P2 (ix3 p q l))) := by
  refine (LastAxis3.sum_last_apply _ _ _ _ _ p q).trans ?_
  refine Finset.sum_congr rfl fun k _ => ?_
  show (headV P1 (ix3 p q k) - tailV P2 (ix3 p q k)) * (headV P1 (ix3 p q k) - tailV P2 (ix3 p q k)) = _
  rw [headV_apply, tailV_apply]

theorem ttV_apply (p q : Fin 128) : ttV P2 (ix2 p q) = sqNorm (expmap (fun l => P2 (ix3 p q l))) := by
  refine (LastAxis3.sum_last_apply _ _ _ _ _ p q).trans ?_
  refine Finset.sum_congr rfl fun k _ => ?_
  show tailV P2 (ix3 p q k) * tailV P2 (ix3 p q k) = _
  rw [tailV_apply]

theorem hhV_apply (p : Fin 128) : hhV P1 (ix1 p) = sqNorm (fun k => P1 (ix2 p k)) := by
  refine (Cert.Lib.Keepdims.rowSum_apply _ _ _ _ _ p).trans ?_
  refine Finset.sum_congr rfl fun k _ => ?_
  show headRows P1 (ix2 p k) * headRows P1 (ix2 p k) = _
  rw [headRows_apply]

/-- The body's output block at (p, q) is the score of that pair's data. -/
theorem E5_apply (p q : Fin 128) :
    Cert.KernelIdeal.Value.E5 (F := Ideal) P0 P1 P2 P3 P4 (ix2 p q)
      = score (fun k => P2 (ix3 p q k)) (fun k => P1 (ix2 p k)) (P0 (ix2 p (0 : Fin 1))) (P3 (ix2 p (0 : Fin 1))) (P4 (ix2 p q)) := by
  have c0 : Value.ix5_0 (ix2 p q) = ix2 p (0 : Fin 1) := by funext a; match a with | ⟨0, _⟩ => rfl | ⟨1, _⟩ => rfl
  have c1 : Value.ix5_1 (ix2 p q) = ix2 p q := by funext a; match a with | ⟨0, _⟩ => rfl | ⟨1, _⟩ => rfl
  have c2 : Value.ix5_2 (ix2 p q) = ix2 p q := by funext a; match a with | ⟨0, _⟩ => rfl | ⟨1, _⟩ => rfl
  have c3 : Value.ix5_3 (ix2 p q) = ix2 p q := by funext a; match a with | ⟨0, _⟩ => rfl | ⟨1, _⟩ => rfl
  have c4 : Value.ix5_4 (ix2 p q) = ix2 p (0 : Fin 1) := by funext a; match a with | ⟨0, _⟩ => rfl | ⟨1, _⟩ => rfl
  have c5 : Value.ix5_5 (ix2 p q) = ix2 p q := by funext a; match a with | ⟨0, _⟩ => rfl | ⟨1, _⟩ => rfl
  have c6 : Value.ix5_6 (ix2 p q) = ix1 p := by funext a; match a with | ⟨0, _⟩ => rfl
  have c7 : Value.ix5_7 (ix2 p q) = ix2 p (0 : Fin 1) := by funext a; match a with | ⟨0, _⟩ => rfl | ⟨1, _⟩ => rfl
  have c8 : Value.ix5_8 (ix2 p q) = ix2 p q := by funext a; match a with | ⟨0, _⟩ => rfl | ⟨1, _⟩ => rfl
  show FloatOps.addf (FloatOps.addf (FloatOps.subf (Scalar.ofBits .f32 0x41100000#32) (FloatOps.addf (FloatOps.mulf (FloatOps.logistic (P0 (Value.ix5_0 (ix2 p q)))) (FloatOps.log (FloatOps.divf (FloatOps.maximumf ((numV P1 P2) (Value.ix5_1 (ix2 p q))) (Scalar.ofBits .f32 0x26901D7D#32)) (FloatOps.maximumf (FloatOps.subf (Scalar.ofBits .f32 0x3F800000#32) ((ttV P2) (Value.ix5_2 (ix2 p q)))) ((k0_pay11 (F := Ideal)) (Value.ix5_3 (ix2 p q))))))) (FloatOps.mulf (FloatOps.subf (Scalar.ofBits .f32 0x3F800000#32) (FloatOps.logistic (P0 (Value.ix5_4 (ix2 p q))))) (FloatOps.log (FloatOps.divf (FloatOps.maximumf ((numV P1 P2) (Value.ix5_5 (ix2 p q))) (Scalar.ofBits .f32 0x26901D7D#32)) (FloatOps.maximumf (FloatOps.subf (Scalar.ofBits .f32 0x3F800000#32) ((hhV P1) (Value.ix5_6 (ix2 p q)))) (Scalar.ofBits .f32 0x26901D7D#32))))))) (P3 (Value.ix5_7 (ix2 p q)))) (P4 (Value.ix5_8 (ix2 p q))) = _
  simp only [c0, c1, c2, c3, c4, c5, c6, c7, c8]
  rw [numV_apply, ttV_apply, hhV_apply]
  rfl

theorem off2 : (![0, 0] : Fin 2 → Nat) = fun _ => 0 := funext fun a => by fin_cases a <;> rfl
theorem off3 : (![0, 0, 0] : Fin 3 → Nat) = fun _ => 0 := funext fun a => by fin_cases a <;> rfl

/-- What the body leaves in the output window's buffer, at (p, q), from the five input blocks: the pair's score. -/
theorem out_apply (x0 : Vec Ideal S128x128x64 .f32) (x1 : Vec Ideal S128x64 .f32) (x2 x3 : Vec Ideal S128x1 .f32)
    (x4 : Vec Ideal S128x128 .f32) (p q : Fin 128) :
    out0_5 x0 x1 x2 x3 x4 (ix2 p q)
      = score (fun k => x0 (ix3 p q k)) (fun k => x1 (ix2 p k)) (x2 (ix2 p (0 : Fin 1))) (x3 (ix2 p (0 : Fin 1))) (x4 (ix2 p q)) := by
  unfold out0_5
  simp only [View.ld_unit_zero (S := S128x128x64) off3, View.ld_unit_zero (S := S128x64) off2,
    View.ld_unit_zero (S := S128x1) off2, View.ld_unit_zero (S := S128x128) off2]
  rw [Cert.KernelIdeal.Value.canon5_eq x2 x1 x0 x3 x4 (ix2 p q)]
  exact E5_apply x2 x1 x0 x3 x4 p q

end Cert.KernelIdeal.Block

end
-- ==== Proof.KernelArray.lean ====
/-
  From the output blocks to the whole output array.

  The grid is 8 × 8; point t stages block (i, j) = its grid coordinates of the candidates, of the second biases and of
  the output, and block i of the heads, the gates and the first biases.  So what point t writes back is block t of the
  score array (Spec.lean) of the five arrays the region finds, and the 64 blocks of 128 × 128 entries cover the
  1024 × 1024 output: the output array ends as that score array.
-/
import proofs.«149156_j781684048755_1_alg».proof.Proof.Gen.KernelIdeal.Value
import proofs.«149156_j781684048755_1_alg».proof.Proof.KernelBlock
import proofs.«149156_j781684048755_1_alg».proof.Proof.Spec

noncomputable section

namespace Cert.KernelIdeal.Arr

open Cert.KernelIdeal Cert.KernelIdeal.Gen Idealize.ShloMosaic Idealize.ShloMosaic.TcCoe Idealize.SL.Sem
open Idealize.ShloMosaic.Pipeline (Dat)
open Idealize.ShloMosaic.ValueIdx Busemann

variable (m : (ℓ : Loc nD τ sig) → Buf (Elt Ideal) ℓ) (ρ : Dev nD → PrngReg)

/-- The score array of the five arrays the region finds on entry. -/
abbrev outArr (c : Dev nD) : S1024x1024.Idx → EReal := (scoreArr (V m c main_v174) (V m c main_v146) (fun r => (V m c main_v175) (ix2 r (0 : Fin 1))) (fun r => (V m c main_v176) (ix2 r (0 : Fin 1))) (V m c main_v167))

/-- The printed index maps over the grid: every input window's block index is the output window's on the axes it has,
    and 0 on an axis the grid does not move; the output's block indices are below 8. -/
theorem idx_facts : ∀ t : Fin cfg0.N,
    win0_0.index t (0 : Fin 3) = win0_5.index t (0 : Fin 2) ∧ win0_0.index t (1 : Fin 3) = win0_5.index t (1 : Fin 2)
    ∧ win0_0.index t (2 : Fin 3) = 0
    ∧ win0_1.index t (0 : Fin 2) = win0_5.index t (0 : Fin 2) ∧ win0_1.index t (1 : Fin 2) = 0
    ∧ win0_2.index t (0 : Fin 2) = win0_5.index t (0 : Fin 2) ∧ win0_2.index t (1 : Fin 2) = 0
    ∧ win0_3.index t (0 : Fin 2) = win0_5.index t (0 : Fin 2) ∧ win0_3.index t (1 : Fin 2) = 0
    ∧ win0_4.index t (0 : Fin 2) = win0_5.index t (0 : Fin 2) ∧ win0_4.index t (1 : Fin 2) = win0_5.index t (1 : Fin 2)
    ∧ win0_5.index t (0 : Fin 2) ≤ 7 ∧ win0_5.index t (1 : Fin 2) ≤ 7 :=
  (by decide +kernel : ∀ t : Fin grid0.N, _)

/-- Every block of the output is some point's. -/
theorem idx_onto : ∀ (q0 q1 : Fin 8), ∃ t : Fin cfg0.N, win0_5.index t = ![q0.val, q1.val] :=
  (by decide +kernel : ∀ (q0 q1 : Fin 8), ∃ t : Fin grid0.N, win0_5.index t = ![q0.val, q1.val])

/-- Each input window's block at point t reads its array through the point's rectangle. -/
theorem blk0_apply (c : Dev nD) (t : Fin cfg0.N) (j : S128x128x64.Idx) :
    iblk m c 0 t j = (V m c main_v174) (((cfg0.win 0).blk t).view.emb j) := rfl
theorem blk1_apply (c : Dev nD) (t : Fin cfg0.N) (j : S128x64.Idx) :
    iblk m c 1 t j = (V m c main_v146) (((cfg0.win 1).blk t).view.emb j) := rfl
theorem blk2_apply (c : Dev nD) (t : Fin cfg0.N) (j : S128x1.Idx) :
    iblk m c 2 t j = (V m c main_v175) (((cfg0.win 2).blk t).view.emb j) := rfl
theorem blk3_apply (c : Dev nD) (t : Fin cfg0.N) (j : S128x1.Idx) :
    iblk m c 3 t j = (V m c main_v176) (((cfg0.win 3).blk t).view.emb j) := rfl
theorem blk4_apply (c : Dev nD) (t : Fin cfg0.N) (j : S128x128.Idx) :
    iblk m c 4 t j = (V m c main_v167) (((cfg0.win 4).blk t).view.emb j) := rfl

/-- Where the blocks of point t sit in their arrays, relative to the output's block: the candidates' and second biases'
    at the same rows and columns, the heads', gates' and first biases' at the same rows. -/
theorem emb0_eq (t : Fin cfg0.N) (p q : Fin 128) (k : Fin 64) :
    ((cfg0.win 0).blk t).view.emb (ix3 p q k) = ix3 ((((cfg0.win 5).blk t).view.emb (ix2 p q)) 0) ((((cfg0.win 5).blk t).view.emb (ix2 p q)) 1) k := by
  obtain ⟨e0, e1, e2, e3, e4, e5, e6, e7, e8, e9, e10, e11, e12⟩ := idx_facts t
  have hp : p.val < 128 := p.isLt
  have hq : q.val < 128 := q.isLt
  have hk : k.val < 64 := k.isLt
  funext a; apply Fin.ext
  match a with
  | ⟨0, _⟩ => show win0_0.index t (0 : Fin 3) * 128 + 1 * p.val = win0_5.index t (0 : Fin 2) * 128 + 1 * p.val; omega
  | ⟨1, _⟩ => show win0_0.index t (1 : Fin 3) * 128 + 1 * q.val = win0_5.index t (1 : Fin 2) * 128 + 1 * q.val; omega
  | ⟨2, _⟩ => show win0_0.index t (2 : Fin 3) * 64 + 1 * k.val = k.val; omega

theorem emb1_eq (t : Fin cfg0.N) (p q : Fin 128) (k : Fin 64) :
    ((cfg0.win 1).blk t).view.emb (ix2 p k) = ix2 ((((cfg0.win 5).blk t).view.emb (ix2 p q)) 0) k := by
  obtain ⟨e0, e1, e2, e3, e4, e5, e6, e7, e8, e9, e10, e11, e12⟩ := idx_facts t
  have hp : p.val < 128 := p.isLt
  have hk : k.val < 64 := k.isLt
  funext a; apply Fin.ext
  match a with
  | ⟨0, _⟩ => show win0_1.index t (0 : Fin 2) * 128 + 1 * p.val = win0_5.index t (0 : Fin 2) * 128 + 1 * p.val; omega
  | ⟨1, _⟩ => show win0_1.index t (1 : Fin 2) * 64 + 1 * k.val = k.val; omega

theorem emb2_eq (t : Fin cfg0.N) (p q : Fin 128) :
    ((cfg0.win 2).blk t).view.emb (ix2 p (0 : Fin 1)) = ix2 ((((cfg0.win 5).blk t).view.emb (ix2 p q)) 0) (0 : Fin 1) := by
  obtain ⟨e0, e1, e2, e3, e4, e5, e6, e7, e8, e9, e10, e11, e12⟩ := idx_facts t
  have hp : p.val < 128 := p.isLt
  funext a; apply Fin.ext
  match a with
  | ⟨0, _⟩ => show win0_2.index t (0 : Fin 2) * 128 + 1 * p.val = win0_5.index t (0 : Fin 2) * 128 + 1 * p.val; omega
  | ⟨1, _⟩ => show win0_2.index t (1 : Fin 2) * 1 + 1 * 0 = 0; omega

theorem emb3_eq (t : Fin cfg0.N) (p q : Fin 128) :
    ((cfg0.win 3).blk t).view.emb (ix2 p (0 : Fin 1)) = ix2 ((((cfg0.win 5).blk t).view.emb (ix2 p q)) 0) (0 : Fin 1) := by
  obtain ⟨e0, e1, e2, e3, e4, e5, e6, e7, e8, e9, e10, e11, e12⟩ := idx_facts t
  have hp : p.val < 128 := p.isLt
  funext a; apply Fin.ext
  match a with
  | ⟨0, _⟩ => show win0_3.index t (0 : Fin 2) * 128 + 1 * p.val = win0_5.index t (0 : Fin 2) * 128 + 1 * p.val; omega
  | ⟨1, _⟩ => show win0_3.index t (1 : Fin 2) * 1 + 1 * 0 = 0; omega

theorem emb4_eq (t : Fin cfg0.N) (p q : Fin 128) :
    ((cfg0.win 4).blk t).view.emb (ix2 p q) = (((cfg0.win 5).blk t).view.emb (ix2 p q)) := by
  obtain ⟨e0, e1, e2, e3, e4, e5, e6, e7, e8, e9, e10, e11, e12⟩ := idx_facts t
  have hp : p.val < 128 := p.isLt
  have hq : q.val < 128 := q.isLt
  funext a; apply Fin.ext
  match a with
  | ⟨0, _⟩ => show win0_4.index t (0 : Fin 2) * 128 + 1 * p.val = win0_5.index t (0 : Fin 2) * 128 + 1 * p.val; omega
  | ⟨1, _⟩ => show win0_4.index t (1 : Fin 2) * 128 + 1 * q.val = win0_5.index t (1 : Fin 2) * 128 + 1 * q.val; omega

/-- The score array at an index, spelled out. -/
theorem outArr_apply (c : Dev nD) (i : S1024x1024.Idx) :
    outArr m c i = score (fun k => (V m c main_v174) (ix3 (i 0) (i 1) k)) (fun k => (V m c main_v146) (ix2 (i 0) k))
      ((V m c main_v175) (ix2 (i 0) (0 : Fin 1))) ((V m c main_v176) (ix2 (i 0) (0 : Fin 1))) ((V m c main_v167) i) := rfl

/-- What the body leaves at (p, q) of the output block at point t is the score array at the entry the block puts
    there. -/
theorem point_eq (c : Dev nD) (t : Fin cfg0.N) (p q : Fin 128) :
    out0_5 (iblk m c 0 t) (iblk m c 1 t) (iblk m c 2 t) (iblk m c 3 t) (iblk m c 4 t) (ix2 p q)
      = outArr m c (((cfg0.win 5).blk t).view.emb (ix2 p q)) := by
  rw [Block.out_apply (iblk m c 0 t) (iblk m c 1 t) (iblk m c 2 t) (iblk m c 3 t) (iblk m c 4 t) p q, outArr_apply]
  refine congr (congr (congr (congr (congrArg score (funext fun k => ?_)) (funext fun k => ?_)) ?_) ?_) ?_
  · exact (blk0_apply m c t _).trans (congrArg (V m c main_v174) (emb0_eq t p q k))
  · exact (blk1_apply m c t _).trans (congrArg (V m c main_v146) (emb1_eq t p q k))
  · exact (blk2_apply m c t _).trans (congrArg (V m c main_v175) (emb2_eq t p q))
  · exact (blk3_apply m c t _).trans (congrArg (V m c main_v176) (emb3_eq t p q))
  · exact (blk4_apply m c t _).trans (congrArg (V m c main_v167) (emb4_eq t p q))

/-- What point t writes back is block t of the score array. -/
theorem flushed_eq (c : Dev nD) (t : Fin cfg0.N) :
    (dats m 0 c).flushed 5 t = ((cfg0.win 5).blk t).view.read (Elt Ideal) (outArr m c) := by
  rw [Value.flushed5]
  funext j
  obtain ⟨p, q, rfl⟩ : ∃ (p q : Fin 128), j = ix2 p q := ⟨j 0, j 1, eq_ix2 j⟩
  exact point_eq m c t p q

/-- An index of the output array is in point t's block iff each coordinate is in the block's range on its axis. -/
theorem mem_blk (t : Fin cfg0.N) (i : S1024x1024.Idx) :
    i ∈ ((cfg0.win 5).blk t).view.set ↔ ∀ a : Fin 2, win0_5.index t a * S128x128.size a ≤ (i a).val ∧ (i a).val < win0_5.index t a * S128x128.size a + S128x128.size a := by
  show i ∈ ((View.whole main_v177).slice (win0_5.rect t)).set ↔ _
  rw [View.set_slice_whole, Rect.mem_set_unit]
  exact Iff.rfl

/-- Every index of the output array is in some point's block: the block of its coordinates divided by 128. -/
theorem cover (i : S1024x1024.Idx) :
    ∃ t : Fin cfg0.N, (cfg0.win 5).flush t = true ∧ i ∈ ((cfg0.win 5).blk t).view.set := by
  have hi0 : (i 0).val < 1024 := (i 0).isLt
  have hi1 : (i 1).val < 1024 := (i 1).isLt
  obtain ⟨t, ht⟩ := idx_onto ⟨(i 0).val / 128, by omega⟩ ⟨(i 1).val / 128, by omega⟩
  have q0 : win0_5.index t (0 : Fin 2) = (i 0).val / 128 := congrFun ht 0
  have q1 : win0_5.index t (1 : Fin 2) = (i 1).val / 128 := congrFun ht 1
  refine ⟨t, flush0_5 t, ?_⟩
  rw [mem_blk]
  intro a
  match a with
  | ⟨0, _⟩ => show win0_5.index t (0 : Fin 2) * 128 ≤ (i 0).val ∧ (i 0).val < win0_5.index t (0 : Fin 2) * 128 + 128; omega
  | ⟨1, _⟩ => show win0_5.index t (1 : Fin 2) * 128 ≤ (i 1).val ∧ (i 1).val < win0_5.index t (1 : Fin 2) * 128 + 128; omega

/-- The output array after the run is the score array. -/
theorem final (c : Dev nD) : (dats m 0 c).arrAt 5 cfg0.N = outArr m c :=
  (dats m 0 c).arrAt_eq_of_cover 5 (outArr m c) (fun t _ => flushed_eq m c t) cover

/-- The kernel's run: the result array ends as the score array of what the region found, the arguments unchanged. -/
theorem run : θ_run defs (onTc (τ := τ) (main (F := Ideal))) ⟨m, fun _ => 0, ρ⟩ fun r => ∀ c : Dev nD,
      r.2.mem ((c : Thread nD τ).loc main_v177) = outArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (Value.run_blocks m ρ)

end Cert.KernelIdeal.Arr

end
-- ==== Proof.HostPrefix.lean ====
/-
  The arrays the kernel's region finds on entry, as functions of the arguments.

  Before the region the kernel's program runs the same host operations as the reference does for the same quantities:
  the gathered raw candidates, the head array (exponential maps, two Möbius additions and a Givens rotation of the
  gathered rows), the gathered gates and first biases (there reshaped to columns) and the gathered second biases.  Each
  is therefore the reference's own stage for that quantity, applied to the arguments.
-/
import proofs.«149156_j781684048755_1_alg».proof.Proof.Gen.KernelIdeal.Frame
import proofs.«149156_j781684048755_1_alg».proof.Proof.RefRead
import Idealize.ShloMosaic.Lib.StableHlo.Run

set_option maxRecDepth 65536

noncomputable section

namespace Cert.KernelIdeal.Prefix

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

set_option maxHeartbeats 4000000 in
/-- The gathered raw candidates. -/
theorem V_cand (c : Dev nD) : V m c main_v174 = Cert.ReferenceIdeal.Read.val_main_v21 (F := Ideal) (m ((c : Thread nD τ).loc main_arg2)) (m ((c : Thread nD τ).loc main_arg3)) := by
  dsimp only [V]
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  rfl

set_option maxHeartbeats 4000000 in
/-- The gathered second biases. -/
theorem V_bias2 (c : Dev nD) : V m c main_v167 = Cert.ReferenceIdeal.Read.val_main_v231 (F := Ideal) (m ((c : Thread nD τ).loc main_arg2)) (m ((c : Thread nD τ).loc main_arg8)) := by
  dsimp only [V]
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  rfl

set_option maxHeartbeats 4000000 in
/-- The gathered gates, as a column. -/
theorem V_gate (c : Dev nD) :
    V m c main_v175 = shapeCast S1024x1 (Cert.ReferenceIdeal.Read.val_main_v198 (F := Ideal) (m ((c : Thread nD τ).loc main_arg1)) (m ((c : Thread nD τ).loc main_arg9))) shapeCasts_S1024_S1024x1 := by
  dsimp only [V]
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  rfl

set_option maxHeartbeats 4000000 in
/-- The gathered first biases, as a column. -/
theorem V_bias1 (c : Dev nD) :
    V m c main_v176 = shapeCast S1024x1 (Cert.ReferenceIdeal.Read.val_main_v221 (F := Ideal) (m ((c : Thread nD τ).loc main_arg0)) (m ((c : Thread nD τ).loc main_arg7))) shapeCasts_S1024_S1024x1 := by
  dsimp only [V]
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  rfl

set_option maxHeartbeats 40000000 in
/-- The head array. -/
theorem V_head (c : Dev nD) : V m c main_v146 = Cert.ReferenceIdeal.Read.val_main_v161 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  dsimp only [V]
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  rfl

end Cert.KernelIdeal.Prefix

end
-- ==== Proof.RefScore.lean ====
/-
  The reference's result, entry by entry, is the score (Spec.lean) of its own intermediate arrays.

  The reference maps the gathered candidates into the ball on the host, repeats the head over the candidates, takes
  the two Busemann-type distances — the second with the difference written the other way round, which a squared
  difference does not see —, and mixes them with the logistic gate, spelled on the host as 1 / (1 + exp (−s)).
  Read at entry (r, c): the score of row (r, c) of the gathered candidates, row r of the head array, the gathered
  gate and first bias of query r, and the gathered second bias of the pair.
-/
import proofs.«149156_j781684048755_1_alg».proof.Proof.RefRead
import proofs.«149156_j781684048755_1_alg».proof.Proof.Spec

noncomputable section

namespace Cert.ReferenceIdeal.Score

open Cert.ReferenceIdeal Cert.ReferenceIdeal.Gen Cert.ReferenceIdeal.Read Idealize.ShloMosaic Idealize.ShloMosaic.TcCoe Idealize.SL.Sem
open Idealize.ShloMosaic.ValueIdx Busemann
open scoped BigOperators

variable (x0 x1 : (⟨S1024, .i32⟩ : BufTy).Contents (Elt Ideal)) (x2 : (⟨S1024x1024, .i32⟩ : BufTy).Contents (Elt Ideal))
  (x3 : (⟨S200000x64, .f32⟩ : BufTy).Contents (Elt Ideal)) (x4 x5 x6 : (⟨S500x64, .f32⟩ : BufTy).Contents (Elt Ideal))
  (x7 x8 : (⟨S200000, .f32⟩ : BufTy).Contents (Elt Ideal)) (x9 : (⟨S500, .f32⟩ : BufTy).Contents (Elt Ideal))

/-- The clipped norm of the gathered candidate (r, c). -/
theorem norm_ref (r c : Fin 1024) : val_main_v24 (F := Ideal) x2 x3 (ix3 r c (0 : Fin 1)) = clipNorm (fun l => val_main_v21 (F := Ideal) x2 x3 (ix3 r c l)) := by
  show max (Ideal.sqrt (val_main_call1_v2 (F := Ideal) x2 x3 (ix3 r c (0 : Fin 1)))) (val_main_v23 (F := Ideal) (ix3 r c (0 : Fin 1))) = _
  rw [val_main_call1_v2_apply, val_main_call1_v1_apply]
  refine congrArg₂ max (congrArg Ideal.sqrt ((zero_word_add _).trans (Finset.sum_congr rfl fun k _ => ?_))) ?_
  · have hi : idx_main_call1_v1 (idx_main_call1_v2 (ix3 r c (0 : Fin 1))) k = (ix3 r c k) := by funext a; match a with | ⟨0, _⟩ => rfl | ⟨1, _⟩ => rfl | ⟨2, _⟩ => rfl
    rw [hi]
    rfl
  · rfl

/-- The mapped candidate at (r, c, k). -/
theorem tail_ref (r c : Fin 1024) (k : Fin 64) : val_main_v29 (F := Ideal) x2 x3 (ix3 r c k) = expmap (fun l => val_main_v21 (F := Ideal) x2 x3 (ix3 r c l)) k := by
  show Ideal.div (val_main_v26 (F := Ideal) x2 x3 (ix3 r c k) * val_main_v21 (F := Ideal) x2 x3 (ix3 r c k)) (val_main_v28 (F := Ideal) x2 x3 (ix3 r c k)) = _
  rw [val_main_v26_apply, val_main_v28_apply]
  have hi : idx_main_v26 (ix3 r c k) = (ix3 r c (0 : Fin 1)) := by funext a; match a with | ⟨0, _⟩ => rfl | ⟨1, _⟩ => rfl | ⟨2, _⟩ => rfl
  have hi' : idx_main_v28 (ix3 r c k) = (ix3 r c (0 : Fin 1)) := by funext a; match a with | ⟨0, _⟩ => rfl | ⟨1, _⟩ => rfl | ⟨2, _⟩ => rfl
  rw [hi, hi']
  show Ideal.div (Ideal.tanh (val_main_v24 (F := Ideal) x2 x3 (ix3 r c (0 : Fin 1))) * val_main_v21 (F := Ideal) x2 x3 (ix3 r c k)) (val_main_v24 (F := Ideal) x2 x3 (ix3 r c (0 : Fin 1))) = _
  rw [norm_ref]
  rfl

/-- The head repeated over the candidates, at (r, c, k) (first use). -/
theorem head_ref (r c : Fin 1024) (k : Fin 64) : val_main_v163 (F := Ideal) x0 x1 x3 x4 x5 x6 (ix3 r c k) = val_main_v161 (F := Ideal) x0 x1 x3 x4 x5 x6 (ix2 r k) := by
  rw [val_main_v163_apply, val_main_v162_apply]
  exact congrArg _ (by funext a; match a with | ⟨0, _⟩ => rfl | ⟨1, _⟩ => rfl)

/-- The head repeated over the candidates, at (r, c, k) (second use). -/
theorem head_ref' (r c : Fin 1024) (k : Fin 64) : val_main_v177 (F := Ideal) x0 x1 x3 x4 x5 x6 (ix3 r c k) = val_main_v161 (F := Ideal) x0 x1 x3 x4 x5 x6 (ix2 r k) := by
  rw [val_main_v177_apply, val_main_v162_apply]
  exact congrArg _ (by funext a; match a with | ⟨0, _⟩ => rfl | ⟨1, _⟩ => rfl)

/-- Σ (h − t)² at pair (r, c). -/
theorem num_ref (r c : Fin 1024) : val_main_v166 (F := Ideal) x0 x1 x2 x3 x4 x5 x6 (ix2 r c) = sqDist (fun l => val_main_v161 (F := Ideal) x0 x1 x3 x4 x5 x6 (ix2 r l)) (expmap (fun l => val_main_v21 (F := Ideal) x2 x3 (ix3 r c l))) := by
  rw [val_main_v166_apply]
  refine (zero_word_add _).trans (Finset.sum_congr rfl fun k _ => ?_)
  have hi : idx_main_v166 (ix2 r c) k = (ix3 r c k) := by funext a; match a with | ⟨0, _⟩ => rfl | ⟨1, _⟩ => rfl | ⟨2, _⟩ => rfl
  rw [hi]
  show (val_main_v163 (F := Ideal) x0 x1 x3 x4 x5 x6 (ix3 r c k) - val_main_v29 (F := Ideal) x2 x3 (ix3 r c k)) * (val_main_v163 (F := Ideal) x0 x1 x3 x4 x5 x6 (ix3 r c k) - val_main_v29 (F := Ideal) x2 x3 (ix3 r c k)) = _
  rw [head_ref, tail_ref]

/-- Σ (t − h)² at pair (r, c): the same number. -/
theorem num_ref' (r c : Fin 1024) : val_main_v180 (F := Ideal) x0 x1 x2 x3 x4 x5 x6 (ix2 r c) = sqDist (fun l => val_main_v161 (F := Ideal) x0 x1 x3 x4 x5 x6 (ix2 r l)) (expmap (fun l => val_main_v21 (F := Ideal) x2 x3 (ix3 r c l))) := by
  rw [val_main_v180_apply]
  refine (zero_word_add _).trans ((Finset.sum_congr rfl fun k _ => ?_).trans (sqDist_comm (fun l => val_main_v161 (F := Ideal) x0 x1 x3 x4 x5 x6 (ix2 r l)) (expmap (fun l => val_main_v21 (F := Ideal) x2 x3 (ix3 r c l)))))
  have hi : idx_main_v180 (ix2 r c) k = (ix3 r c k) := by funext a; match a with | ⟨0, _⟩ => rfl | ⟨1, _⟩ => rfl | ⟨2, _⟩ => rfl
  rw [hi]
  show (val_main_v29 (F := Ideal) x2 x3 (ix3 r c k) - val_main_v177 (F := Ideal) x0 x1 x3 x4 x5 x6 (ix3 r c k)) * (val_main_v29 (F := Ideal) x2 x3 (ix3 r c k) - val_main_v177 (F := Ideal) x0 x1 x3 x4 x5 x6 (ix3 r c k)) = _
  rw [head_ref', tail_ref]

/-- Σ t² at pair (r, c). -/
theorem tt_ref (r c : Fin 1024) : val_main_v168 (F := Ideal) x2 x3 (ix2 r c) = sqNorm (expmap (fun l => val_main_v21 (F := Ideal) x2 x3 (ix3 r c l))) := by
  rw [val_main_v168_apply]
  refine (zero_word_add _).trans (Finset.sum_congr rfl fun k _ => ?_)
  have hi : idx_main_v168 (ix2 r c) k = (ix3 r c k) := by funext a; match a with | ⟨0, _⟩ => rfl | ⟨1, _⟩ => rfl | ⟨2, _⟩ => rfl
  rw [hi]
  show val_main_v29 (F := Ideal) x2 x3 (ix3 r c k) * val_main_v29 (F := Ideal) x2 x3 (ix3 r c k) = _
  rw [tail_ref]

/-- Σ h² for query r. -/
theorem hh_ref (r : Fin 1024) : val_main_v182 (F := Ideal) x0 x1 x3 x4 x5 x6 (ix2 r (0 : Fin 1)) = sqNorm (fun l => val_main_v161 (F := Ideal) x0 x1 x3 x4 x5 x6 (ix2 r l)) := by
  rw [val_main_v182_apply]
  refine (zero_word_add _).trans (Finset.sum_congr rfl fun k _ => ?_)
  have hi : idx_main_v182 (ix2 r (0 : Fin 1)) k = ix3 r (0 : Fin 1) k := by funext a; match a with | ⟨0, _⟩ => rfl | ⟨1, _⟩ => rfl | ⟨2, _⟩ => rfl
  rw [hi]
  show val_main_v162 (F := Ideal) x0 x1 x3 x4 x5 x6 (ix3 r (0 : Fin 1) k) * val_main_v162 (F := Ideal) x0 x1 x3 x4 x5 x6 (ix3 r (0 : Fin 1) k) = _
  rw [val_main_v162_apply]
  have hj : idx_main_v162 (ix3 r (0 : Fin 1) k) = ix2 r k := by funext a; match a with | ⟨0, _⟩ => rfl | ⟨1, _⟩ => rfl
  rw [hj]

/-- The clipped second denominator for query r. -/
theorem denh_ref (r : Fin 1024) : val_main_v188 (F := Ideal) x0 x1 x3 x4 x5 x6 (ix2 r (0 : Fin 1)) = max (one - sqNorm (fun l => val_main_v161 (F := Ideal) x0 x1 x3 x4 x5 x6 (ix2 r l))) eps := by
  show max (val_main_v183 (F := Ideal) (ix2 r (0 : Fin 1)) - val_main_v182 (F := Ideal) x0 x1 x3 x4 x5 x6 (ix2 r (0 : Fin 1))) (val_main_v187 (F := Ideal) (ix2 r (0 : Fin 1))) = _
  rw [hh_ref, val_main_v183_apply, val_main_v187_apply]
  rfl

/-- The gate of query r. -/
theorem sig_ref (r : Fin 1024) : val_main_v205 (F := Ideal) x1 x9 (ix2 r (0 : Fin 1)) = Ideal.logistic (val_main_v198 (F := Ideal) x1 x9 (ix1 r)) := by
  rw [val_main_v205_apply]
  have hi : idx_main_v205 (ix2 r (0 : Fin 1)) = (ix1 r) := by funext a; match a with | ⟨0, _⟩ => rfl
  rw [hi]
  show Ideal.div (val_main_v203 (F := Ideal) (ix1 r)) (val_main_v201 (F := Ideal) (ix1 r) + Ideal.exp (-(val_main_v198 (F := Ideal) x1 x9 (ix1 r)))) = _
  rw [val_main_v203_apply, val_main_v201_apply]
  exact logistic_spelled _

/-- One minus the gate of query r. -/
theorem cosig_ref (r : Fin 1024) : val_main_v209 (F := Ideal) x1 x9 (ix2 r (0 : Fin 1)) = one - Ideal.logistic (val_main_v198 (F := Ideal) x1 x9 (ix1 r)) := by
  show val_main_v208 (F := Ideal) (ix2 r (0 : Fin 1)) - val_main_v205 (F := Ideal) x1 x9 (ix2 r (0 : Fin 1)) = _
  rw [sig_ref, val_main_v208_apply]
  rfl

/-- The first bias of query r as a column. -/
theorem bu_ref (r : Fin 1024) : val_main_v222 (F := Ideal) x0 x7 (ix2 r (0 : Fin 1)) = val_main_v221 (F := Ideal) x0 x7 (ix1 r) := by
  rw [val_main_v222_apply]
  exact congrArg _ (by funext a; match a with | ⟨0, _⟩ => rfl)

/-- The first distance at pair (r, c). -/
theorem dist_tail_ref (r c : Fin 1024) :
    val_main_v176 (F := Ideal) x0 x1 x2 x3 x4 x5 x6 (ix2 r c) = buse (sqDist (fun l => val_main_v161 (F := Ideal) x0 x1 x3 x4 x5 x6 (ix2 r l)) (expmap (fun l => val_main_v21 (F := Ideal) x2 x3 (ix3 r c l)))) (one - sqNorm (expmap (fun l => val_main_v21 (F := Ideal) x2 x3 (ix3 r c l)))) := by
  show Ideal.log (Ideal.div (max (val_main_v166 (F := Ideal) x0 x1 x2 x3 x4 x5 x6 (ix2 r c)) (val_main_v171 (F := Ideal) (ix2 r c)))
      (max (val_main_v169 (F := Ideal) (ix2 r c) - val_main_v168 (F := Ideal) x2 x3 (ix2 r c)) (val_main_v173 (F := Ideal) (ix2 r c)))) = _
  rw [num_ref, tt_ref, val_main_v171_apply, val_main_v169_apply, val_main_v173_apply]
  rfl

/-- The second distance at pair (r, c). -/
theorem dist_head_ref (r c : Fin 1024) :
    val_main_v191 (F := Ideal) x0 x1 x2 x3 x4 x5 x6 (ix2 r c) = buse (sqDist (fun l => val_main_v161 (F := Ideal) x0 x1 x3 x4 x5 x6 (ix2 r l)) (expmap (fun l => val_main_v21 (F := Ideal) x2 x3 (ix3 r c l)))) (one - sqNorm (fun l => val_main_v161 (F := Ideal) x0 x1 x3 x4 x5 x6 (ix2 r l))) := by
  show Ideal.log (Ideal.div (max (val_main_v180 (F := Ideal) x0 x1 x2 x3 x4 x5 x6 (ix2 r c)) (val_main_v185 (F := Ideal) (ix2 r c))) (val_main_v189 (F := Ideal) x0 x1 x3 x4 x5 x6 (ix2 r c))) = _
  rw [val_main_v189_apply]
  have hi : idx_main_v189 (ix2 r c) = (ix2 r (0 : Fin 1)) := by funext a; match a with | ⟨0, _⟩ => rfl | ⟨1, _⟩ => rfl
  rw [hi, denh_ref, num_ref', val_main_v185_apply]
  rfl

/-- The reference's result at (r, c). -/
theorem result_apply (r c : Fin 1024) :
    val_main_v232 (F := Ideal) x0 x1 x2 x3 x4 x5 x6 x7 x8 x9 (ix2 r c)
      = score (fun l => val_main_v21 (F := Ideal) x2 x3 (ix3 r c l)) (fun l => val_main_v161 (F := Ideal) x0 x1 x3 x4 x5 x6 (ix2 r l)) (val_main_v198 (F := Ideal) x1 x9 (ix1 r)) (val_main_v221 (F := Ideal) x0 x7 (ix1 r)) (val_main_v231 (F := Ideal) x2 x8 (ix2 r c)) := by
  show val_main_v213 (F := Ideal) (ix2 r c) - (val_main_v206 (F := Ideal) x1 x9 (ix2 r c) * val_main_v176 (F := Ideal) x0 x1 x2 x3 x4 x5 x6 (ix2 r c) + val_main_v210 (F := Ideal) x1 x9 (ix2 r c) * val_main_v191 (F := Ideal) x0 x1 x2 x3 x4 x5 x6 (ix2 r c))
      + val_main_v223 (F := Ideal) x0 x7 (ix2 r c) + val_main_v231 (F := Ideal) x2 x8 (ix2 r c) = _
  rw [val_main_v206_apply, val_main_v210_apply, val_main_v223_apply, val_main_v213_apply]
  have h206 : idx_main_v206 (ix2 r c) = (ix2 r (0 : Fin 1)) := by funext a; match a with | ⟨0, _⟩ => rfl | ⟨1, _⟩ => rfl
  have h210 : idx_main_v210 (ix2 r c) = (ix2 r (0 : Fin 1)) := by funext a; match a with | ⟨0, _⟩ => rfl | ⟨1, _⟩ => rfl
  have h223 : idx_main_v223 (ix2 r c) = (ix2 r (0 : Fin 1)) := by funext a; match a with | ⟨0, _⟩ => rfl | ⟨1, _⟩ => rfl
  rw [h206, h210, h223, sig_ref, cosig_ref, bu_ref, dist_tail_ref, dist_head_ref]
  rfl

/-- The reference's result is the score array of its gathered candidates, its head array and its gathered gates and
    biases. -/
theorem result_eq :
    val_main_v232 (F := Ideal) x0 x1 x2 x3 x4 x5 x6 x7 x8 x9
      = scoreArr (val_main_v21 (F := Ideal) x2 x3) (val_main_v161 (F := Ideal) x0 x1 x3 x4 x5 x6) (fun r => val_main_v198 (F := Ideal) x1 x9 (ix1 r)) (fun r => val_main_v221 (F := Ideal) x0 x7 (ix1 r)) (val_main_v231 (F := Ideal) x2 x8) := by
  funext i
  obtain ⟨r, c, rfl⟩ : ∃ (r c : Fin 1024), i = ix2 r c := ⟨i 0, i 1, eq_ix2 i⟩
  exact result_apply x0 x1 x2 x3 x4 x5 x6 x7 x8 x9 r c

end Cert.ReferenceIdeal.Score

end
-- ==== Proof.RefStages.lean ====
/-
  The reference's run, with its result read as the last of its stages.

  Every weakly fair execution of the reference's straight line of 306 host operations terminates with each buffer at the
  fold of the operations' results over the launch contents.  Written out over the arguments, the result's term repeats
  the head array's term (two hundred operations) at each of its uses; so the operations are read in three stretches — the
  first 173, up to the two halves of the rotated head; the next 42, through the second Möbius addition to the head
  array; the last 91, which read the head array, the mapped candidates and six of the arguments — and the result is
  stated as the last stage of the operation-by-operation reading, in which each shared value is one named function of
  the arguments.
-/
import proofs.«149156_j781684048755_1_alg».proof.Proof.RefRun
import proofs.«149156_j781684048755_1_alg».proof.Proof.RefRead
import Idealize.ShloMosaic.Lib.StableHlo.Run
import Idealize.ShloMosaic.Lib.Pipeline.Frame

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-! ## The run read in three stretches

Written out over the arguments, the result's term repeats the head array's term (two hundred operations) at each of its
uses.  So the operations are read in three stretches: the first 173, up to the two halves of the rotated head; the next
42, from their concatenation through the second Möbius addition to the head array `main_v161`; and the last 91, which
read the head array, the mapped candidates `main_v29` and six of the arguments.  Each stretch starts from any contents
that hold the stages it reads. -/

/-- The first 173 operations. -/
abbrev opsA : List (HloOp τ sig (Elt F)) :=
  [ nullary main_c (constantI S_ 32 0#32),
    unary main_c main_v0 (broadcastInDim S1024 ![] bcast_S_S1024 : (⟨S_, .i32⟩ : BufTy).Contents (Elt F) → (⟨S1024, .i32⟩ : BufTy).Contents (Elt F)),
    binary main_arg0 main_v0 main_v1 (cmpi .slt : (⟨S1024, .i32⟩ : BufTy).Contents (Elt F) → (⟨S1024, .i32⟩ : BufTy).Contents (Elt F) → (⟨S1024, .i1⟩ : BufTy).Contents (Elt F)),
    nullary main_c_0 (constantI S_ 32 200000#32),
    unary main_c_0 main_v2 (broadcastInDim S1024 ![] bcast_S_S1024 : (⟨S_, .i32⟩ : BufTy).Contents (Elt F) → (⟨S1024, .i32⟩ : BufTy).Contents (Elt F)),
    binary main_arg0 main_v2 main_v3 (addi : (⟨S1024, .i32⟩ : BufTy).Contents (Elt F) → (⟨S1024, .i32⟩ : BufTy).Contents (Elt F) → (⟨S1024, .i32⟩ : BufTy).Contents (Elt F)),
    ternary main_v1 main_v3 main_arg0 main_v4 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    unary main_v4 main_v5 (broadcastInDim S1024x1 ![0] bcast_S1024_S1024x1_0 : (⟨S1024, .i32⟩ : BufTy).Contents (Elt F) → (⟨S1024x1, .i32⟩ : BufTy).Contents (Elt F)),
    binary main_arg3 main_v5 main_v6 ((fun x i => Host.gather gather_S200000x64_S1024x1_S1024x64_1_0_n_n_0_1_164 x i) : (⟨S200000x64, .f32⟩ : BufTy).Contents (Elt F) → (⟨S1024x1, .i32⟩ : BufTy).Contents (Elt F) → (⟨S1024x64, .f32⟩ : BufTy).Contents (Elt F)),
    TRef.binary (TRef.of (T := ⟨S1024x64, .f32⟩) main_v6) (TRef.of (T := ⟨S1024x64, .f32⟩) main_v6) (TRef.of (T := ⟨S1024x64, .f32⟩) main_call0_v0) mulf,
    TRef.nullary (TRef.of (T := ⟨S_, .f32⟩) main_call0_cst) (constant S_ .f32 0x00000000#32),
    TRef.binary (TRef.of (T := ⟨S1024x64, .f32⟩) main_call0_v0) (TRef.of (T := ⟨S_, .f32⟩) main_call0_cst) (TRef.of (T := ⟨S1024, .f32⟩) main_call0_v1) (fun x v => Host.reduceAdd x v reducesTo_S1024x64_S1024_d1 h_S_),
    TRef.unary (TRef.of (T := ⟨S1024, .f32⟩) main_call0_v1) (TRef.of (T := ⟨S1024x1, .f32⟩) main_call0_v2) (broadcastInDim S1024x1 ![0] bcast_S1024_S1024x1_0),
    TRef.unary (TRef.of (T := ⟨S1024x1, .f32⟩) main_call0_v2) (TRef.of (T := ⟨S1024x1, .f32⟩) main_v7) Host.sqrt,
    nullary main_cst (constant S_ .f32 0x26901D7D#32),
    unary main_cst main_v8 (broadcastInDim S1024x1 ![] bcast_S_S1024x1 : (⟨S_, .f32⟩ : BufTy).Contents (Elt F) → (⟨S1024x1, .f32⟩ : BufTy).Contents (Elt F)),
    binary main_v7 main_v8 main_v9 (maximumf : (⟨S1024x1, .f32⟩ : BufTy).Contents (Elt F) → (⟨S1024x1, .f32⟩ : BufTy).Contents (Elt F) → (⟨S1024x1, .f32⟩ : BufTy).Contents (Elt F)),
    unary main_v9 main_v10 (Host.tanh : (⟨S1024x1, .f32⟩ : BufTy).Contents (Elt F) → (⟨S1024x1, .f32⟩ : BufTy).Contents (Elt F)),
    unary main_v10 main_v11 (broadcastInDim S1024x64 ![0, 1] bcast_S1024x1_S1024x64_0_1 : (⟨S1024x1, .f32⟩ : BufTy).Contents (Elt F) → (⟨S1024x64, .f32⟩ : BufTy).Contents (Elt F)),
    binary main_v11 main_v6 main_v12 (mulf : (⟨S1024x64, .f32⟩ : BufTy).Contents (Elt F) → (⟨S1024x64, .f32⟩ : BufTy).Contents (Elt F) → (⟨S1024x64, .f32⟩ : BufTy).Contents (Elt F)),
    unary main_v9 main_v13 (broadcastInDim S1024x64 ![0, 1] bcast_S1024x1_S1024x64_0_1 : (⟨S1024x1, .f32⟩ : BufTy).Contents (Elt F) → (⟨S1024x64, .f32⟩ : BufTy).Contents (Elt F)),
    binary main_v12 main_v13 main_v14 (Host.divf : (⟨S1024x64, .f32⟩ : BufTy).Contents (Elt F) → (⟨S1024x64, .f32⟩ : BufTy).Contents (Elt F) → (⟨S1024x64, .f32⟩ : BufTy).Contents (Elt F)),
    nullary main_c_1 (constantI S_ 32 0#32),
    unary main_c_1 main_v15 (broadcastInDim S1024x1024 ![] bcast_S_S1024x1024 : (⟨S_, .i32⟩ : BufTy).Contents (Elt F) → (⟨S1024x1024, .i32⟩ : BufTy).Contents (Elt F)),
    binary main_arg2 main_v15 main_v16 (cmpi .slt : (⟨S1024x1024, .i32⟩ : BufTy).Contents (Elt F) → (⟨S1024x1024, .i32⟩ : BufTy).Contents (Elt F) → (⟨S1024x1024, .i1⟩ : BufTy).Contents (Elt F)),
    nullary main_c_2 (constantI S_ 32 200000#32),
    unary main_c_2 main_v17 (broadcastInDim S1024x1024 ![] bcast_S_S1024x1024 : (⟨S_, .i32⟩ : BufTy).Contents (Elt F) → (⟨S1024x1024, .i32⟩ : BufTy).Contents (Elt F)),
    binary main_arg2 main_v17 main_v18 (addi : (⟨S1024x1024, .i32⟩ : BufTy).Contents (Elt F) → (⟨S1024x1024, .i32⟩ : BufTy).Contents (Elt F) → (⟨S1024x1024, .i32⟩ : BufTy).Contents (Elt F)),
    ternary main_v16 main_v18 main_arg2 main_v19 (select : (⟨S1024x1024, .i1⟩ : BufTy).Contents (Elt F) → (⟨S1024x1024, .i32⟩ : BufTy).Contents (Elt F) → (⟨S1024x1024, .i32⟩ : BufTy).Contents (Elt F) → (⟨S1024x1024, .i32⟩ : BufTy).Contents (Elt F)),
    unary main_v19 main_v20 (broadcastInDim S1024x1024x1 ![0, 1] bcast_S1024x1024_S1024x1024x1_0_1 : (⟨S1024x1024, .i32⟩ : BufTy).Contents (Elt F) → (⟨S1024x1024x1, .i32⟩ : BufTy).Contents (Elt F)),
    binary main_arg3 main_v20 main_v21 ((fun x i => Host.gather gather_S200000x64_S1024x1024x1_S1024x1024x64_2_0_n_n_0_2_164 x i) : (⟨S200000x64, .f32⟩ : BufTy).Contents (Elt F) → (⟨S1024x1024x1, .i32⟩ : BufTy).Contents (Elt F) → (⟨S1024x1024x64, .f32⟩ : BufTy).Contents (Elt F)),
    TRef.binary (TRef.of (T := ⟨S1024x1024x64, .f32⟩) main_v21) (TRef.of (T := ⟨S1024x1024x64, .f32⟩) main_v21) (TRef.of (T := ⟨S1024x1024x64, .f32⟩) main_call1_v0) mulf,
    TRef.nullary (TRef.of (T := ⟨S_, .f32⟩) main_call1_cst) (constant S_ .f32 0x00000000#32),
    TRef.binary (TRef.of (T := ⟨S1024x1024x64, .f32⟩) main_call1_v0) (TRef.of (T := ⟨S_, .f32⟩) main_call1_cst) (TRef.of (T := ⟨S1024x1024, .f32⟩) main_call1_v1) (fun x v => Host.reduceAdd x v reducesTo_S1024x1024x64_S1024x1024_d2 h_S_),
    TRef.unary (TRef.of (T := ⟨S1024x1024, .f32⟩) main_call1_v1) (TRef.of (T := ⟨S1024x1024x1, .f32⟩) main_call1_v2) (broadcastInDim S1024x1024x1 ![0, 1] bcast_S1024x1024_S1024x1024x1_0_1),
    TRef.unary (TRef.of (T := ⟨S1024x1024x1, .f32⟩) main_call1_v2) (TRef.of (T := ⟨S1024x1024x1, .f32⟩) main_v22) Host.sqrt,
    nullary main_cst_3 (constant S_ .f32 0x26901D7D#32),
    unary main_cst_3 main_v23 (broadcastInDim S1024x1024x1 ![] bcast_S_S1024x1024x1 : (⟨S_, .f32⟩ : BufTy).Contents (Elt F) → (⟨S1024x1024x1, .f32⟩ : BufTy).Contents (Elt F)),
    binary main_v22 main_v23 main_v24 (maximumf : (⟨S1024x1024x1, .f32⟩ : BufTy).Contents (Elt F) → (⟨S1024x1024x1, .f32⟩ : BufTy).Contents (Elt F) → (⟨S1024x1024x1, .f32⟩ : BufTy).Contents (Elt F)),
    unary main_v24 main_v25 (Host.tanh : (⟨S1024x1024x1, .f32⟩ : BufTy).Contents (Elt F) → (⟨S1024x1024x1, .f32⟩ : BufTy).Contents (Elt F)),
    unary main_v25 main_v26 (broadcastInDim S1024x1024x64 ![0, 1, 2] bcast_S1024x1024x1_S1024x1024x64_0_1_2 : (⟨S1024x1024x1, .f32⟩ : BufTy).Contents (Elt F) → (⟨S1024x1024x64, .f32⟩ : BufTy).Contents (Elt F)),
    binary main_v26 main_v21 main_v27 (mulf : (⟨S1024x1024x64, .f32⟩ : BufTy).Contents (Elt F) → (⟨S1024x1024x64, .f32⟩ : BufTy).Contents (Elt F) → (⟨S1024x1024x64, .f32⟩ : BufTy).Contents (Elt F)),
    unary main_v24 main_v28 (broadcastInDim S1024x1024x64 ![0, 1, 2] bcast_S1024x1024x1_S1024x1024x64_0_1_2 : (⟨S1024x1024x1, .f32⟩ : BufTy).Contents (Elt F) → (⟨S1024x1024x64, .f32⟩ : BufTy).Contents (Elt F)),
    binary main_v27 main_v28 main_v29 (Host.divf : (⟨S1024x1024x64, .f32⟩ : BufTy).Contents (Elt F) → (⟨S1024x1024x64, .f32⟩ : BufTy).Contents (Elt F) → (⟨S1024x1024x64, .f32⟩ : BufTy).Contents (Elt F)),
    nullary main_c_4 (constantI S_ 32 0#32),
    unary main_c_4 main_v30 (broadcastInDim S1024 ![] bcast_S_S1024 : (⟨S_, .i32⟩ : BufTy).Contents (Elt F) → (⟨S1024, .i32⟩ : BufTy).Contents (Elt F)),
    binary main_arg1 main_v30 main_v31 (cmpi .slt : (⟨S1024, .i32⟩ : BufTy).Contents (Elt F) → (⟨S1024, .i32⟩ : BufTy).Contents (Elt F) → (⟨S1024, .i1⟩ : BufTy).Contents (Elt F)),
    nullary main_c_5 (constantI S_ 32 500#32),
    unary main_c_5 main_v32 (broadcastInDim S1024 ![] bcast_S_S1024 : (⟨S_, .i32⟩ : BufTy).Contents (Elt F) → (⟨S1024, .i32⟩ : BufTy).Contents (Elt F)),
    binary main_arg1 main_v32 main_v33 (addi : (⟨S1024, .i32⟩ : BufTy).Contents (Elt F) → (⟨S1024, .i32⟩ : BufTy).Contents (Elt F) → (⟨S1024, .i32⟩ : BufTy).Contents (Elt F)),
    ternary main_v31 main_v33 main_arg1 main_v34 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    unary main_v34 main_v35 (broadcastInDim S1024x1 ![0] bcast_S1024_S1024x1_0 : (⟨S1024, .i32⟩ : BufTy).Contents (Elt F) → (⟨S1024x1, .i32⟩ : BufTy).Contents (Elt F)),
    binary main_arg5 main_v35 main_v36 ((fun x i => Host.gather gather_S500x64_S1024x1_S1024x64_1_0_n_n_0_1_164 x i) : (⟨S500x64, .f32⟩ : BufTy).Contents (Elt F) → (⟨S1024x1, .i32⟩ : BufTy).Contents (Elt F) → (⟨S1024x64, .f32⟩ : BufTy).Contents (Elt F)),
    TRef.binary (TRef.of (T := ⟨S1024x64, .f32⟩) main_v36) (TRef.of (T := ⟨S1024x64, .f32⟩) main_v36) (TRef.of (T := ⟨S1024x64, .f32⟩) main_call2_v0) mulf,
    TRef.nullary (TRef.of (T := ⟨S_, .f32⟩) main_call2_cst) (constant S_ .f32 0x00000000#32),
    TRef.binary (TRef.of (T := ⟨S1024x64, .f32⟩) main_call2_v0) (TRef.of (T := ⟨S_, .f32⟩) main_call2_cst) (TRef.of (T := ⟨S1024, .f32⟩) main_call2_v1) (fun x v => Host.reduceAdd x v reducesTo_S1024x64_S1024_d1 h_S_),
    TRef.unary (TRef.of (T := ⟨S1024, .f32⟩) main_call2_v1) (TRef.of (T := ⟨S1024x1, .f32⟩) main_call2_v2) (broadcastInDim S1024x1 ![0] bcast_S1024_S1024x1_0),
    TRef.unary (TRef.of (T := ⟨S1024x1, .f32⟩) main_call2_v2) (TRef.of (T := ⟨S1024x1, .f32⟩) main_v37) Host.sqrt,
    nullary main_cst_6 (constant S_ .f32 0x26901D7D#32),
    unary main_cst_6 main_v38 (broadcastInDim S1024x1 ![] bcast_S_S1024x1 : (⟨S_, .f32⟩ : BufTy).Contents (Elt F) → (⟨S1024x1, .f32⟩ : BufTy).Contents (Elt F)),
    binary main_v37 main_v38 main_v39 (maximumf : (⟨S1024x1, .f32⟩ : BufTy).Contents (Elt F) → (⟨S1024x1, .f32⟩ : BufTy).Contents (Elt F) → (⟨S1024x1, .f32⟩ : BufTy).Contents (Elt F)),
    unary main_v39 main_v40 (Host.tanh : (⟨S1024x1, .f32⟩ : BufTy).Contents (Elt F) → (⟨S1024x1, .f32⟩ : BufTy).Contents (Elt F)),
    unary main_v40 main_v41 (broadcastInDim S1024x64 ![0, 1] bcast_S1024x1_S1024x64_0_1 : (⟨S1024x1, .f32⟩ : BufTy).Contents (Elt F) → (⟨S1024x64, .f32⟩ : BufTy).Contents (Elt F)),
    binary main_v41 main_v36 main_v42 (mulf : (⟨S1024x64, .f32⟩ : BufTy).Contents (Elt F) → (⟨S1024x64, .f32⟩ : BufTy).Contents (Elt F) → (⟨S1024x64, .f32⟩ : BufTy).Contents (Elt F)),
    unary main_v39 main_v43 (broadcastInDim S1024x64 ![0, 1] bcast_S1024x1_S1024x64_0_1 : (⟨S1024x1, .f32⟩ : BufTy).Contents (Elt F) → (⟨S1024x64, .f32⟩ : BufTy).Contents (Elt F)),
    binary main_v42 main_v43 main_v44 (Host.divf : (⟨S1024x64, .f32⟩ : BufTy).Contents (Elt F) → (⟨S1024x64, .f32⟩ : BufTy).Contents (Elt F) → (⟨S1024x64, .f32⟩ : BufTy).Contents (Elt F)),
    nullary main_c_7 (constantI S_ 32 0#32),
    unary main_c_7 main_v45 (broadcastInDim S1024 ![] bcast_S_S1024 : (⟨S_, .i32⟩ : BufTy).Contents (Elt F) → (⟨S1024, .i32⟩ : BufTy).Contents (Elt F)),
    binary main_arg1 main_v45 main_v46 (cmpi .slt : (⟨S1024, .i32⟩ : BufTy).Contents (Elt F) → (⟨S1024, .i32⟩ : BufTy).Contents (Elt F) → (⟨S1024, .i1⟩ : BufTy).Contents (Elt F)),
    nullary main_c_8 (constantI S_ 32 500#32),
    unary main_c_8 main_v47 (broadcastInDim S1024 ![] bcast_S_S1024 : (⟨S_, .i32⟩ : BufTy).Contents (Elt F) → (⟨S1024, .i32⟩ : BufTy).Contents (Elt F)),
    binary main_arg1 main_v47 main_v48 (addi : (⟨S1024, .i32⟩ : BufTy).Contents (Elt F) → (⟨S1024, .i32⟩ : BufTy).Contents (Elt F) → (⟨S1024, .i32⟩ : BufTy).Contents (Elt F)),
    ternary main_v46 main_v48 main_arg1 main_v49 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    unary main_v49 main_v50 (broadcastInDim S1024x1 ![0] bcast_S1024_S1024x1_0 : (⟨S1024, .i32⟩ : BufTy).Contents (Elt F) → (⟨S1024x1, .i32⟩ : BufTy).Contents (Elt F)),
    binary main_arg6 main_v50 main_v51 ((fun x i => Host.gather gather_S500x64_S1024x1_S1024x64_1_0_n_n_0_1_164 x i) : (⟨S500x64, .f32⟩ : BufTy).Contents (Elt F) → (⟨S1024x1, .i32⟩ : BufTy).Contents (Elt F) → (⟨S1024x64, .f32⟩ : BufTy).Contents (Elt F)),
    TRef.binary (TRef.of (T := ⟨S1024x64, .f32⟩) main_v51) (TRef.of (T := ⟨S1024x64, .f32⟩) main_v51) (TRef.of (T := ⟨S1024x64, .f32⟩) main_call3_v0) mulf,
    TRef.nullary (TRef.of (T := ⟨S_, .f32⟩) main_call3_cst) (constant S_ .f32 0x00000000#32),
    TRef.binary (TRef.of (T := ⟨S1024x64, .f32⟩) main_call3_v0) (TRef.of (T := ⟨S_, .f32⟩) main_call3_cst) (TRef.of (T := ⟨S1024, .f32⟩) main_call3_v1) (fun x v => Host.reduceAdd x v reducesTo_S1024x64_S1024_d1 h_S_),
    TRef.unary (TRef.of (T := ⟨S1024, .f32⟩) main_call3_v1) (TRef.of (T := ⟨S1024x1, .f32⟩) main_call3_v2) (broadcastInDim S1024x1 ![0] bcast_S1024_S1024x1_0),
    TRef.unary (TRef.of (T := ⟨S1024x1, .f32⟩) main_call3_v2) (TRef.of (T := ⟨S1024x1, .f32⟩) main_v52) Host.sqrt,
    nullary main_cst_9 (constant S_ .f32 0x26901D7D#32),
    unary main_cst_9 main_v53 (broadcastInDim S1024x1 ![] bcast_S_S1024x1 : (⟨S_, .f32⟩ : BufTy).Contents (Elt F) → (⟨S1024x1, .f32⟩ : BufTy).Contents (Elt F)),
    binary main_v52 main_v53 main_v54 (maximumf : (⟨S1024x1, .f32⟩ : BufTy).Contents (Elt F) → (⟨S1024x1, .f32⟩ : BufTy).Contents (Elt F) → (⟨S1024x1, .f32⟩ : BufTy).Contents (Elt F)),
    unary main_v54 main_v55 (Host.tanh : (⟨S1024x1, .f32⟩ : BufTy).Contents (Elt F) → (⟨S1024x1, .f32⟩ : BufTy).Contents (Elt F)),
    unary main_v55 main_v56 (broadcastInDim S1024x64 ![0, 1] bcast_S1024x1_S1024x64_0_1 : (⟨S1024x1, .f32⟩ : BufTy).Contents (Elt F) → (⟨S1024x64, .f32⟩ : BufTy).Contents (Elt F)),
    binary main_v56 main_v51 main_v57 (mulf : (⟨S1024x64, .f32⟩ : BufTy).Contents (Elt F) → (⟨S1024x64, .f32⟩ : BufTy).Contents (Elt F) → (⟨S1024x64, .f32⟩ : BufTy).Contents (Elt F)),
    unary main_v54 main_v58 (broadcastInDim S1024x64 ![0, 1] bcast_S1024x1_S1024x64_0_1 : (⟨S1024x1, .f32⟩ : BufTy).Contents (Elt F) → (⟨S1024x64, .f32⟩ : BufTy).Contents (Elt F)),
    binary main_v57 main_v58 main_v59 (Host.divf : (⟨S1024x64, .f32⟩ : BufTy).Contents (Elt F) → (⟨S1024x64, .f32⟩ : BufTy).Contents (Elt F) → (⟨S1024x64, .f32⟩ : BufTy).Contents (Elt F)),
    nullary main_c_10 (constantI S_ 32 0#32),
    unary main_c_10 main_v60 (broadcastInDim S1024 ![] bcast_S_S1024 : (⟨S_, .i32⟩ : BufTy).Contents (Elt F) → (⟨S1024, .i32⟩ : BufTy).Contents (Elt F)),
    binary main_arg1 main_v60 main_v61 (cmpi .slt : (⟨S1024, .i32⟩ : BufTy).Contents (Elt F) → (⟨S1024, .i32⟩ : BufTy).Contents (Elt F) → (⟨S1024, .i1⟩ : BufTy).Contents (Elt F)),
    nullary main_c_11 (constantI S_ 32 500#32),
    unary main_c_11 main_v62 (broadcastInDim S1024 ![] bcast_S_S1024 : (⟨S_, .i32⟩ : BufTy).Contents (Elt F) → (⟨S1024, .i32⟩ : BufTy).Contents (Elt F)),
    binary main_arg1 main_v62 main_v63 (addi : (⟨S1024, .i32⟩ : BufTy).Contents (Elt F) → (⟨S1024, .i32⟩ : BufTy).Contents (Elt F) → (⟨S1024, .i32⟩ : BufTy).Contents (Elt F)),
    ternary main_v61 main_v63 main_arg1 main_v64 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    unary main_v64 main_v65 (broadcastInDim S1024x1 ![0] bcast_S1024_S1024x1_0 : (⟨S1024, .i32⟩ : BufTy).Contents (Elt F) → (⟨S1024x1, .i32⟩ : BufTy).Contents (Elt F)),
    binary main_arg4 main_v65 main_v66 ((fun x i => Host.gather gather_S500x64_S1024x1_S1024x64_1_0_n_n_0_1_164 x i) : (⟨S500x64, .f32⟩ : BufTy).Contents (Elt F) → (⟨S1024x1, .i32⟩ : BufTy).Contents (Elt F) → (⟨S1024x64, .f32⟩ : BufTy).Contents (Elt F)),
    binary main_v14 main_v14 main_v67 (mulf : (⟨S1024x64, .f32⟩ : BufTy).Contents (Elt F) → (⟨S1024x64, .f32⟩ : BufTy).Contents (Elt F) → (⟨S1024x64, .f32⟩ : BufTy).Contents (Elt F)),
    nullary main_cst_12 (constant S_ .f32 0x00000000#32),
    binary main_v67 main_cst_12 main_v68 ((fun x v => Host.reduceAdd x v reducesTo_S1024x64_S1024_d1 h_S_) : (⟨S1024x64, .f32⟩ : BufTy).Contents (Elt F) → (⟨S_, .f32⟩ : BufTy).Contents (Elt F) → (⟨S1024, .f32⟩ : BufTy).Contents (Elt F)),
    unary main_v68 main_v69 (broadcastInDim S1024x1 ![0] bcast_S1024_S1024x1_0 : (⟨S1024, .f32⟩ : BufTy).Contents (Elt F) → (⟨S1024x1, .f32⟩ : BufTy).Contents (Elt F)),
    binary main_v44 main_v44 main_v70 (mulf : (⟨S1024x64, .f32⟩ : BufTy).Contents (Elt F) → (⟨S1024x64, .f32⟩ : BufTy).Contents (Elt F) → (⟨S1024x64, .f32⟩ : BufTy).Contents (Elt F)),
    nullary main_cst_13 (constant S_ .f32 0x00000000#32),
    binary main_v70 main_cst_13 main_v71 ((fun x v => Host.reduceAdd x v reducesTo_S1024x64_S1024_d1 h_S_) : (⟨S1024x64, .f32⟩ : BufTy).Contents (Elt F) → (⟨S_, .f32⟩ : BufTy).Contents (Elt F) → (⟨S1024, .f32⟩ : BufTy).Contents (Elt F)),
    unary main_v71 main_v72 (broadcastInDim S1024x1 ![0] bcast_S1024_S1024x1_0 : (⟨S1024, .f32⟩ : BufTy).Contents (Elt F) → (⟨S1024x1, .f32⟩ : BufTy).Contents (Elt F)),
    binary main_v14 main_v44 main_v73 (mulf : (⟨S1024x64, .f32⟩ : BufTy).Contents (Elt F) → (⟨S1024x64, .f32⟩ : BufTy).Contents (Elt F) → (⟨S1024x64, .f32⟩ : BufTy).Contents (Elt F)),
    nullary main_cst_14 (constant S_ .f32 0x00000000#32),
    binary main_v73 main_cst_14 main_v74 ((fun x v => Host.reduceAdd x v reducesTo_S1024x64_S1024_d1 h_S_) : (⟨S1024x64, .f32⟩ : BufTy).Contents (Elt F) → (⟨S_, .f32⟩ : BufTy).Contents (Elt F) → (⟨S1024, .f32⟩ : BufTy).Contents (Elt F)),
    unary main_v74 main_v75 (broadcastInDim S1024x1 ![0] bcast_S1024_S1024x1_0 : (⟨S1024, .f32⟩ : BufTy).Contents (Elt F) → (⟨S1024x1, .f32⟩ : BufTy).Contents (Elt F)),
    nullary main_cst_15 (constant S_ .f32 0x40000000#32),
    unary main_cst_15 main_v76 (broadcastInDim S1024x1 ![] bcast_S_S1024x1 : (⟨S_, .f32⟩ : BufTy).Contents (Elt F) → (⟨S1024x1, .f32⟩ : BufTy).Contents (Elt F)),
    binary main_v76 main_v75 main_v77 (mulf : (⟨S1024x1, .f32⟩ : BufTy).Contents (Elt F) → (⟨S1024x1, .f32⟩ : BufTy).Contents (Elt F) → (⟨S1024x1, .f32⟩ : BufTy).Contents (Elt F)),
    nullary main_cst_16 (constant S_ .f32 0x3F800000#32),
    unary main_cst_16 main_v78 (broadcastInDim S1024x1 ![] bcast_S_S1024x1 : (⟨S_, .f32⟩ : BufTy).Contents (Elt F) → (⟨S1024x1, .f32⟩ : BufTy).Contents (Elt F)),
    binary main_v78 main_v77 main_v79 (addf : (⟨S1024x1, .f32⟩ : BufTy).Contents (Elt F) → (⟨S1024x1, .f32⟩ : BufTy).Contents (Elt F) → (⟨S1024x1, .f32⟩ : BufTy).Contents (Elt F)),
    binary main_v79 main_v72 main_v80 (addf : (⟨S1024x1, .f32⟩ : BufTy).Contents (Elt F) → (⟨S1024x1, .f32⟩ : BufTy).Contents (Elt F) → (⟨S1024x1, .f32⟩ : BufTy).Contents (Elt F)),
    unary main_v80 main_v81 (broadcastInDim S1024x64 ![0, 1] bcast_S1024x1_S1024x64_0_1 : (⟨S1024x1, .f32⟩ : BufTy).Contents (Elt F) → (⟨S1024x64, .f32⟩ : BufTy).Contents (Elt F)),
    binary main_v81 main_v14 main_v82 (mulf : (⟨S1024x64, .f32⟩ : BufTy).Contents (Elt F) → (⟨S1024x64, .f32⟩ : BufTy).Contents (Elt F) → (⟨S1024x64, .f32⟩ : BufTy).Contents (Elt F)),
    nullary main_cst_17 (constant S_ .f32 0x3F800000#32),
    unary main_cst_17 main_v83 (broadcastInDim S1024x1 ![] bcast_S_S1024x1 : (⟨S_, .f32⟩ : BufTy).Contents (Elt F) → (⟨S1024x1, .f32⟩ : BufTy).Contents (Elt F)),
    binary main_v83 main_v69 main_v84 (subf : (⟨S1024x1, .f32⟩ : BufTy).Contents (Elt F) → (⟨S1024x1, .f32⟩ : BufTy).Contents (Elt F) → (⟨S1024x1, .f32⟩ : BufTy).Contents (Elt F)),
    unary main_v84 main_v85 (broadcastInDim S1024x64 ![0, 1] bcast_S1024x1_S1024x64_0_1 : (⟨S1024x1, .f32⟩ : BufTy).Contents (Elt F) → (⟨S1024x64, .f32⟩ : BufTy).Contents (Elt F)),
    binary main_v85 main_v44 main_v86 (mulf : (⟨S1024x64, .f32⟩ : BufTy).Contents (Elt F) → (⟨S1024x64, .f32⟩ : BufTy).Contents (Elt F) → (⟨S1024x64, .f32⟩ : BufTy).Contents (Elt F)),
    binary main_v82 main_v86 main_v87 (addf : (⟨S1024x64, .f32⟩ : BufTy).Contents (Elt F) → (⟨S1024x64, .f32⟩ : BufTy).Contents (Elt F) → (⟨S1024x64, .f32⟩ : BufTy).Contents (Elt F)),
    nullary main_cst_18 (constant S_ .f32 0x40000000#32),
    unary main_cst_18 main_v88 (broadcastInDim S1024x1 ![] bcast_S_S1024x1 : (⟨S_, .f32⟩ : BufTy).Contents (Elt F) → (⟨S1024x1, .f32⟩ : BufTy).Contents (Elt F)),
    binary main_v88 main_v75 main_v89 (mulf : (⟨S1024x1, .f32⟩ : BufTy).Contents (Elt F) → (⟨S1024x1, .f32⟩ : BufTy).Contents (Elt F) → (⟨S1024x1, .f32⟩ : BufTy).Contents (Elt F)),
    nullary main_cst_19 (constant S_ .f32 0x3F800000#32),
    unary main_cst_19 main_v90 (broadcastInDim S1024x1 ![] bcast_S_S1024x1 : (⟨S_, .f32⟩ : BufTy).Contents (Elt F) → (⟨S1024x1, .f32⟩ : BufTy).Contents (Elt F)),
    binary main_v90 main_v89 main_v91 (addf : (⟨S1024x1, .f32⟩ : BufTy).Contents (Elt F) → (⟨S1024x1, .f32⟩ : BufTy).Contents (Elt F) → (⟨S1024x1, .f32⟩ : BufTy).Contents (Elt F)),
    binary main_v69 main_v72 main_v92 (mulf : (⟨S1024x1, .f32⟩ : BufTy).Contents (Elt F) → (⟨S1024x1, .f32⟩ : BufTy).Contents (Elt F) → (⟨S1024x1, .f32⟩ : BufTy).Contents (Elt F)),
    binary main_v91 main_v92 main_v93 (addf : (⟨S1024x1, .f32⟩ : BufTy).Contents (Elt F) → (⟨S1024x1, .f32⟩ : BufTy).Contents (Elt F) → (⟨S1024x1, .f32⟩ : BufTy).Contents (Elt F)),
    nullary main_cst_20 (constant S_ .f32 0x26901D7D#32),
    unary main_cst_20 main_v94 (broadcastInDim S1024x1 ![] bcast_S_S1024x1 : (⟨S_, .f32⟩ : BufTy).Contents (Elt F) → (⟨S1024x1, .f32⟩ : BufTy).Contents (Elt F)),
    binary main_v93 main_v94 main_v95 (maximumf : (⟨S1024x1, .f32⟩ : BufTy).Contents (Elt F) → (⟨S1024x1, .f32⟩ : BufTy).Contents (Elt F) → (⟨S1024x1, .f32⟩ : BufTy).Contents (Elt F)),
    unary main_v95 main_v96 (broadcastInDim S1024x64 ![0, 1] bcast_S1024x1_S1024x64_0_1 : (⟨S1024x1, .f32⟩ : BufTy).Contents (Elt F) → (⟨S1024x64, .f32⟩ : BufTy).Contents (Elt F)),
    binary main_v87 main_v96 main_v97 (Host.divf : (⟨S1024x64, .f32⟩ : BufTy).Contents (Elt F) → (⟨S1024x64, .f32⟩ : BufTy).Contents (Elt F) → (⟨S1024x64, .f32⟩ : BufTy).Contents (Elt F)),
    reshape main_v66 main_v98 rfl shapeCasts_S1024x64_S1024x32x2,
    TRef.binary (TRef.of (T := ⟨S1024x32x2, .f32⟩) main_v98) (TRef.of (T := ⟨S1024x32x2, .f32⟩) main_v98) (TRef.of (T := ⟨S1024x32x2, .f32⟩) main_call4_v0) mulf,
    TRef.nullary (TRef.of (T := ⟨S_, .f32⟩) main_call4_cst) (constant S_ .f32 0x00000000#32),
    TRef.binary (TRef.of (T := ⟨S1024x32x2, .f32⟩) main_call4_v0) (TRef.of (T := ⟨S_, .f32⟩) main_call4_cst) (TRef.of (T := ⟨S1024x32, .f32⟩) main_call4_v1) (fun x v => Host.reduceAdd x v reducesTo_S1024x32x2_S1024x32_d2 h_S_),
    TRef.unary (TRef.of (T := ⟨S1024x32, .f32⟩) main_call4_v1) (TRef.of (T := ⟨S1024x32x1, .f32⟩) main_call4_v2) (broadcastInDim S1024x32x1 ![0, 1] bcast_S1024x32_S1024x32x1_0_1),
    TRef.unary (TRef.of (T := ⟨S1024x32x1, .f32⟩) main_call4_v2) (TRef.of (T := ⟨S1024x32x1, .f32⟩) main_v99) Host.sqrt,
    nullary main_cst_21 (constant S_ .f32 0x26901D7D#32),
    unary main_cst_21 main_v100 (broadcastInDim S1024x32x1 ![] bcast_S_S1024x32x1 : (⟨S_, .f32⟩ : BufTy).Contents (Elt F) → (⟨S1024x32x1, .f32⟩ : BufTy).Contents (Elt F)),
    binary main_v99 main_v100 main_v101 (maximumf : (⟨S1024x32x1, .f32⟩ : BufTy).Contents (Elt F) → (⟨S1024x32x1, .f32⟩ : BufTy).Contents (Elt F) → (⟨S1024x32x1, .f32⟩ : BufTy).Contents (Elt F)),
    unary main_v101 main_v102 (broadcastInDim S1024x32x2 ![0, 1, 2] bcast_S1024x32x1_S1024x32x2_0_1_2 : (⟨S1024x32x1, .f32⟩ : BufTy).Contents (Elt F) → (⟨S1024x32x2, .f32⟩ : BufTy).Contents (Elt F)),
    binary main_v98 main_v102 main_v103 (Host.divf : (⟨S1024x32x2, .f32⟩ : BufTy).Contents (Elt F) → (⟨S1024x32x2, .f32⟩ : BufTy).Contents (Elt F) → (⟨S1024x32x2, .f32⟩ : BufTy).Contents (Elt F)),
    reshape main_v97 main_v104 rfl shapeCasts_S1024x64_S1024x32x2,
    unary main_v103 main_v105 ((extractStridedSlice S1024x32x1 ![0, 0, 0] · slices_S1024x32x2_S1024x32x1_0_0_0) : (⟨S1024x32x2, .f32⟩ : BufTy).Contents (Elt F) → (⟨S1024x32x1, .f32⟩ : BufTy).Contents (Elt F)),
    reshape main_v105 main_v106 rfl shapeCasts_S1024x32x1_S1024x32,
    unary main_v104 main_v107 ((extractStridedSlice S1024x32x1 ![0, 0, 0] · slices_S1024x32x2_S1024x32x1_0_0_0) : (⟨S1024x32x2, .f32⟩ : BufTy).Contents (Elt F) → (⟨S1024x32x1, .f32⟩ : BufTy).Contents (Elt F)),
    reshape main_v107 main_v108 rfl shapeCasts_S1024x32x1_S1024x32,
    binary main_v106 main_v108 main_v109 (mulf : (⟨S1024x32, .f32⟩ : BufTy).Contents (Elt F) → (⟨S1024x32, .f32⟩ : BufTy).Contents (Elt F) → (⟨S1024x32, .f32⟩ : BufTy).Contents (Elt F)),
    unary main_v103 main_v110 ((extractStridedSlice S1024x32x1 ![0, 0, 1] · slices_S1024x32x2_S1024x32x1_0_0_1) : (⟨S1024x32x2, .f32⟩ : BufTy).Contents (Elt F) → (⟨S1024x32x1, .f32⟩ : BufTy).Contents (Elt F)),
    reshape main_v110 main_v111 rfl shapeCasts_S1024x32x1_S1024x32,
    unary main_v104 main_v112 ((extractStridedSlice S1024x32x1 ![0, 0, 1] · slices_S1024x32x2_S1024x32x1_0_0_1) : (⟨S1024x32x2, .f32⟩ : BufTy).Contents (Elt F) → (⟨S1024x32x1, .f32⟩ : BufTy).Contents (Elt F)),
    reshape main_v112 main_v113 rfl shapeCasts_S1024x32x1_S1024x32,
    binary main_v111 main_v113 main_v114 (mulf : (⟨S1024x32, .f32⟩ : BufTy).Contents (Elt F) → (⟨S1024x32, .f32⟩ : BufTy).Contents (Elt F) → (⟨S1024x32, .f32⟩ : BufTy).Contents (Elt F)),
    binary main_v109 main_v114 main_v115 (subf : (⟨S1024x32, .f32⟩ : BufTy).Contents (Elt F) → (⟨S1024x32, .f32⟩ : BufTy).Contents (Elt F) → (⟨S1024x32, .f32⟩ : BufTy).Contents (Elt F)),
    unary main_v103 main_v116 ((extractStridedSlice S1024x32x1 ![0, 0, 1] · slices_S1024x32x2_S1024x32x1_0_0_1) : (⟨S1024x32x2, .f32⟩ : BufTy).Contents (Elt F) → (⟨S1024x32x1, .f32⟩ : BufTy).Contents (Elt F)),
    reshape main_v116 main_v117 rfl shapeCasts_S1024x32x1_S1024x32,
    unary main_v104 main_v118 ((extractStridedSlice S1024x32x1 ![0, 0, 0] · slices_S1024x32x2_S1024x32x1_0_0_0) : (⟨S1024x32x2, .f32⟩ : BufTy).Contents (Elt F) → (⟨S1024x32x1, .f32⟩ : BufTy).Contents (Elt F)),
    reshape main_v118 main_v119 rfl shapeCasts_S1024x32x1_S1024x32,
    binary main_v117 main_v119 main_v120 (mulf : (⟨S1024x32, .f32⟩ : BufTy).Contents (Elt F) → (⟨S1024x32, .f32⟩ : BufTy).Contents (Elt F) → (⟨S1024x32, .f32⟩ : BufTy).Contents (Elt F)),
    unary main_v103 main_v121 ((extractStridedSlice S1024x32x1 ![0, 0, 0] · slices_S1024x32x2_S1024x32x1_0_0_0) : (⟨S1024x32x2, .f32⟩ : BufTy).Contents (Elt F) → (⟨S1024x32x1, .f32⟩ : BufTy).Contents (Elt F)),
    reshape main_v121 main_v122 rfl shapeCasts_S1024x32x1_S1024x32,
    unary main_v104 main_v123 ((extractStridedSlice S1024x32x1 ![0, 0, 1] · slices_S1024x32x2_S1024x32x1_0_0_1) : (⟨S1024x32x2, .f32⟩ : BufTy).Contents (Elt F) → (⟨S1024x32x1, .f32⟩ : BufTy).Contents (Elt F)),
    reshape main_v123 main_v124 rfl shapeCasts_S1024x32x1_S1024x32,
    binary main_v122 main_v124 main_v125 (mulf : (⟨S1024x32, .f32⟩ : BufTy).Contents (Elt F) → (⟨S1024x32, .f32⟩ : BufTy).Contents (Elt F) → (⟨S1024x32, .f32⟩ : BufTy).Contents (Elt F)),
    binary main_v120 main_v125 main_v126 (addf : (⟨S1024x32, .f32⟩ : BufTy).Contents (Elt F) → (⟨S1024x32, .f32⟩ : BufTy).Contents (Elt F) → (⟨S1024x32, .f32⟩ : BufTy).Contents (Elt F)),
    unary main_v115 main_v127 (broadcastInDim S1024x32x1 ![0, 1] bcast_S1024x32_S1024x32x1_0_1 : (⟨S1024x32, .f32⟩ : BufTy).Contents (Elt F) → (⟨S1024x32x1, .f32⟩ : BufTy).Contents (Elt F)),
    unary main_v126 main_v128 (broadcastInDim S1024x32x1 ![0, 1] bcast_S1024x32_S1024x32x1_0_1 : (⟨S1024x32, .f32⟩ : BufTy).Contents (Elt F) → (⟨S1024x32x1, .f32⟩ : BufTy).Contents (Elt F)) ]

/-- The next 42 operations. -/
abbrev opsB : List (HloOp τ sig (Elt F)) :=
  [ binary main_v127 main_v128 main_v129 ((fun a b => concatenate S1024x32x2 2 [⟨S1024x32x1, a⟩, ⟨S1024x32x1, b⟩] concatenates_S1024x32x1_S1024x32x1_S1024x32x2_d2) : (⟨S1024x32x1, .f32⟩ : BufTy).Contents (Elt F) → (⟨S1024x32x1, .f32⟩ : BufTy).Contents (Elt F) → (⟨S1024x32x2, .f32⟩ : BufTy).Contents (Elt F)),
    reshape main_v129 main_v130 rfl shapeCasts_S1024x32x2_S1024x64,
    binary main_v130 main_v130 main_v131 (mulf : (⟨S1024x64, .f32⟩ : BufTy).Contents (Elt F) → (⟨S1024x64, .f32⟩ : BufTy).Contents (Elt F) → (⟨S1024x64, .f32⟩ : BufTy).Contents (Elt F)),
    nullary main_cst_22 (constant S_ .f32 0x00000000#32),
    binary main_v131 main_cst_22 main_v132 ((fun x v => Host.reduceAdd x v reducesTo_S1024x64_S1024_d1 h_S_) : (⟨S1024x64, .f32⟩ : BufTy).Contents (Elt F) → (⟨S_, .f32⟩ : BufTy).Contents (Elt F) → (⟨S1024, .f32⟩ : BufTy).Contents (Elt F)),
    unary main_v132 main_v133 (broadcastInDim S1024x1 ![0] bcast_S1024_S1024x1_0 : (⟨S1024, .f32⟩ : BufTy).Contents (Elt F) → (⟨S1024x1, .f32⟩ : BufTy).Contents (Elt F)),
    binary main_v59 main_v59 main_v134 (mulf : (⟨S1024x64, .f32⟩ : BufTy).Contents (Elt F) → (⟨S1024x64, .f32⟩ : BufTy).Contents (Elt F) → (⟨S1024x64, .f32⟩ : BufTy).Contents (Elt F)),
    nullary main_cst_23 (constant S_ .f32 0x00000000#32),
    binary main_v134 main_cst_23 main_v135 ((fun x v => Host.reduceAdd x v reducesTo_S1024x64_S1024_d1 h_S_) : (⟨S1024x64, .f32⟩ : BufTy).Contents (Elt F) → (⟨S_, .f32⟩ : BufTy).Contents (Elt F) → (⟨S1024, .f32⟩ : BufTy).Contents (Elt F)),
    unary main_v135 main_v136 (broadcastInDim S1024x1 ![0] bcast_S1024_S1024x1_0 : (⟨S1024, .f32⟩ : BufTy).Contents (Elt F) → (⟨S1024x1, .f32⟩ : BufTy).Contents (Elt F)),
    binary main_v130 main_v59 main_v137 (mulf : (⟨S1024x64, .f32⟩ : BufTy).Contents (Elt F) → (⟨S1024x64, .f32⟩ : BufTy).Contents (Elt F) → (⟨S1024x64, .f32⟩ : BufTy).Contents (Elt F)),
    nullary main_cst_24 (constant S_ .f32 0x00000000#32),
    binary main_v137 main_cst_24 main_v138 ((fun x v => Host.reduceAdd x v reducesTo_S1024x64_S1024_d1 h_S_) : (⟨S1024x64, .f32⟩ : BufTy).Contents (Elt F) → (⟨S_, .f32⟩ : BufTy).Contents (Elt F) → (⟨S1024, .f32⟩ : BufTy).Contents (Elt F)),
    unary main_v138 main_v139 (broadcastInDim S1024x1 ![0] bcast_S1024_S1024x1_0 : (⟨S1024, .f32⟩ : BufTy).Contents (Elt F) → (⟨S1024x1, .f32⟩ : BufTy).Contents (Elt F)),
    nullary main_cst_25 (constant S_ .f32 0x40000000#32),
    unary main_cst_25 main_v140 (broadcastInDim S1024x1 ![] bcast_S_S1024x1 : (⟨S_, .f32⟩ : BufTy).Contents (Elt F) → (⟨S1024x1, .f32⟩ : BufTy).Contents (Elt F)),
    binary main_v140 main_v139 main_v141 (mulf : (⟨S1024x1, .f32⟩ : BufTy).Contents (Elt F) → (⟨S1024x1, .f32⟩ : BufTy).Contents (Elt F) → (⟨S1024x1, .f32⟩ : BufTy).Contents (Elt F)),
    nullary main_cst_26 (constant S_ .f32 0x3F800000#32),
    unary main_cst_26 main_v142 (broadcastInDim S1024x1 ![] bcast_S_S1024x1 : (⟨S_, .f32⟩ : BufTy).Contents (Elt F) → (⟨S1024x1, .f32⟩ : BufTy).Contents (Elt F)),
    binary main_v142 main_v141 main_v143 (addf : (⟨S1024x1, .f32⟩ : BufTy).Contents (Elt F) → (⟨S1024x1, .f32⟩ : BufTy).Contents (Elt F) → (⟨S1024x1, .f32⟩ : BufTy).Contents (Elt F)),
    binary main_v143 main_v136 main_v144 (addf : (⟨S1024x1, .f32⟩ : BufTy).Contents (Elt F) → (⟨S1024x1, .f32⟩ : BufTy).Contents (Elt F) → (⟨S1024x1, .f32⟩ : BufTy).Contents (Elt F)),
    unary main_v144 main_v145 (broadcastInDim S1024x64 ![0, 1] bcast_S1024x1_S1024x64_0_1 : (⟨S1024x1, .f32⟩ : BufTy).Contents (Elt F) → (⟨S1024x64, .f32⟩ : BufTy).Contents (Elt F)),
    binary main_v145 main_v130 main_v146 (mulf : (⟨S1024x64, .f32⟩ : BufTy).Contents (Elt F) → (⟨S1024x64, .f32⟩ : BufTy).Contents (Elt F) → (⟨S1024x64, .f32⟩ : BufTy).Contents (Elt F)),
    nullary main_cst_27 (constant S_ .f32 0x3F800000#32),
    unary main_cst_27 main_v147 (broadcastInDim S1024x1 ![] bcast_S_S1024x1 : (⟨S_, .f32⟩ : BufTy).Contents (Elt F) → (⟨S1024x1, .f32⟩ : BufTy).Contents (Elt F)),
    binary main_v147 main_v133 main_v148 (subf : (⟨S1024x1, .f32⟩ : BufTy).Contents (Elt F) → (⟨S1024x1, .f32⟩ : BufTy).Contents (Elt F) → (⟨S1024x1, .f32⟩ : BufTy).Contents (Elt F)),
    unary main_v148 main_v149 (broadcastInDim S1024x64 ![0, 1] bcast_S1024x1_S1024x64_0_1 : (⟨S1024x1, .f32⟩ : BufTy).Contents (Elt F) → (⟨S1024x64, .f32⟩ : BufTy).Contents (Elt F)),
    binary main_v149 main_v59 main_v150 (mulf : (⟨S1024x64, .f32⟩ : BufTy).Contents (Elt F) → (⟨S1024x64, .f32⟩ : BufTy).Contents (Elt F) → (⟨S1024x64, .f32⟩ : BufTy).Contents (Elt F)),
    binary main_v146 main_v150 main_v151 (addf : (⟨S1024x64, .f32⟩ : BufTy).Contents (Elt F) → (⟨S1024x64, .f32⟩ : BufTy).Contents (Elt F) → (⟨S1024x64, .f32⟩ : BufTy).Contents (Elt F)),
    nullary main_cst_28 (constant S_ .f32 0x40000000#32),
    unary main_cst_28 main_v152 (broadcastInDim S1024x1 ![] bcast_S_S1024x1 : (⟨S_, .f32⟩ : BufTy).Contents (Elt F) → (⟨S1024x1, .f32⟩ : BufTy).Contents (Elt F)),
    binary main_v152 main_v139 main_v153 (mulf : (⟨S1024x1, .f32⟩ : BufTy).Contents (Elt F) → (⟨S1024x1, .f32⟩ : BufTy).Contents (Elt F) → (⟨S1024x1, .f32⟩ : BufTy).Contents (Elt F)),
    nullary main_cst_29 (constant S_ .f32 0x3F800000#32),
    unary main_cst_29 main_v154 (broadcastInDim S1024x1 ![] bcast_S_S1024x1 : (⟨S_, .f32⟩ : BufTy).Contents (Elt F) → (⟨S1024x1, .f32⟩ : BufTy).Contents (Elt F)),
    binary main_v154 main_v153 main_v155 (addf : (⟨S1024x1, .f32⟩ : BufTy).Contents (Elt F) → (⟨S1024x1, .f32⟩ : BufTy).Contents (Elt F) → (⟨S1024x1, .f32⟩ : BufTy).Contents (Elt F)),
    binary main_v133 main_v136 main_v156 (mulf : (⟨S1024x1, .f32⟩ : BufTy).Contents (Elt F) → (⟨S1024x1, .f32⟩ : BufTy).Contents (Elt F) → (⟨S1024x1, .f32⟩ : BufTy).Contents (Elt F)),
    binary main_v155 main_v156 main_v157 (addf : (⟨S1024x1, .f32⟩ : BufTy).Contents (Elt F) → (⟨S1024x1, .f32⟩ : BufTy).Contents (Elt F) → (⟨S1024x1, .f32⟩ : BufTy).Contents (Elt F)),
    nullary main_cst_30 (constant S_ .f32 0x26901D7D#32),
    unary main_cst_30 main_v158 (broadcastInDim S1024x1 ![] bcast_S_S1024x1 : (⟨S_, .f32⟩ : BufTy).Contents (Elt F) → (⟨S1024x1, .f32⟩ : BufTy).Contents (Elt F)),
    binary main_v157 main_v158 main_v159 (maximumf : (⟨S1024x1, .f32⟩ : BufTy).Contents (Elt F) → (⟨S1024x1, .f32⟩ : BufTy).Contents (Elt F) → (⟨S1024x1, .f32⟩ : BufTy).Contents (Elt F)),
    unary main_v159 main_v160 (broadcastInDim S1024x64 ![0, 1] bcast_S1024x1_S1024x64_0_1 : (⟨S1024x1, .f32⟩ : BufTy).Contents (Elt F) → (⟨S1024x64, .f32⟩ : BufTy).Contents (Elt F)),
    binary main_v151 main_v160 main_v161 (Host.divf : (⟨S1024x64, .f32⟩ : BufTy).Contents (Elt F) → (⟨S1024x64, .f32⟩ : BufTy).Contents (Elt F) → (⟨S1024x64, .f32⟩ : BufTy).Contents (Elt F)) ]

/-- The last 91 operations. -/
abbrev opsC : List (HloOp τ sig (Elt F)) :=
  [ unary main_v161 main_v162 (broadcastInDim S1024x1x64 ![0, 2] bcast_S1024x64_S1024x1x64_0_2 : (⟨S1024x64, .f32⟩ : BufTy).Contents (Elt F) → (⟨S1024x1x64, .f32⟩ : BufTy).Contents (Elt F)),
    unary main_v162 main_v163 (broadcastInDim S1024x1024x64 ![0, 1, 2] bcast_S1024x1x64_S1024x1024x64_0_1_2 : (⟨S1024x1x64, .f32⟩ : BufTy).Contents (Elt F) → (⟨S1024x1024x64, .f32⟩ : BufTy).Contents (Elt F)),
    binary main_v163 main_v29 main_v164 (subf : (⟨S1024x1024x64, .f32⟩ : BufTy).Contents (Elt F) → (⟨S1024x1024x64, .f32⟩ : BufTy).Contents (Elt F) → (⟨S1024x1024x64, .f32⟩ : BufTy).Contents (Elt F)),
    binary main_v164 main_v164 main_v165 (mulf : (⟨S1024x1024x64, .f32⟩ : BufTy).Contents (Elt F) → (⟨S1024x1024x64, .f32⟩ : BufTy).Contents (Elt F) → (⟨S1024x1024x64, .f32⟩ : BufTy).Contents (Elt F)),
    nullary main_cst_31 (constant S_ .f32 0x00000000#32),
    binary main_v165 main_cst_31 main_v166 ((fun x v => Host.reduceAdd x v reducesTo_S1024x1024x64_S1024x1024_d2 h_S_) : (⟨S1024x1024x64, .f32⟩ : BufTy).Contents (Elt F) → (⟨S_, .f32⟩ : BufTy).Contents (Elt F) → (⟨S1024x1024, .f32⟩ : BufTy).Contents (Elt F)),
    binary main_v29 main_v29 main_v167 (mulf : (⟨S1024x1024x64, .f32⟩ : BufTy).Contents (Elt F) → (⟨S1024x1024x64, .f32⟩ : BufTy).Contents (Elt F) → (⟨S1024x1024x64, .f32⟩ : BufTy).Contents (Elt F)),
    nullary main_cst_32 (constant S_ .f32 0x00000000#32),
    binary main_v167 main_cst_32 main_v168 ((fun x v => Host.reduceAdd x v reducesTo_S1024x1024x64_S1024x1024_d2 h_S_) : (⟨S1024x1024x64, .f32⟩ : BufTy).Contents (Elt F) → (⟨S_, .f32⟩ : BufTy).Contents (Elt F) → (⟨S1024x1024, .f32⟩ : BufTy).Contents (Elt F)),
    nullary main_cst_33 (constant S_ .f32 0x3F800000#32),
    unary main_cst_33 main_v169 (broadcastInDim S1024x1024 ![] bcast_S_S1024x1024 : (⟨S_, .f32⟩ : BufTy).Contents (Elt F) → (⟨S1024x1024, .f32⟩ : BufTy).Contents (Elt F)),
    binary main_v169 main_v168 main_v170 (subf : (⟨S1024x1024, .f32⟩ : BufTy).Contents (Elt F) → (⟨S1024x1024, .f32⟩ : BufTy).Contents (Elt F) → (⟨S1024x1024, .f32⟩ : BufTy).Contents (Elt F)),
    nullary main_cst_34 (constant S_ .f32 0x26901D7D#32),
    unary main_cst_34 main_v171 (broadcastInDim S1024x1024 ![] bcast_S_S1024x1024 : (⟨S_, .f32⟩ : BufTy).Contents (Elt F) → (⟨S1024x1024, .f32⟩ : BufTy).Contents (Elt F)),
    binary main_v166 main_v171 main_v172 (maximumf : (⟨S1024x1024, .f32⟩ : BufTy).Contents (Elt F) → (⟨S1024x1024, .f32⟩ : BufTy).Contents (Elt F) → (⟨S1024x1024, .f32⟩ : BufTy).Contents (Elt F)),
    nullary main_cst_35 (constant S_ .f32 0x26901D7D#32),
    unary main_cst_35 main_v173 (broadcastInDim S1024x1024 ![] bcast_S_S1024x1024 : (⟨S_, .f32⟩ : BufTy).Contents (Elt F) → (⟨S1024x1024, .f32⟩ : BufTy).Contents (Elt F)),
    binary main_v170 main_v173 main_v174 (maximumf : (⟨S1024x1024, .f32⟩ : BufTy).Contents (Elt F) → (⟨S1024x1024, .f32⟩ : BufTy).Contents (Elt F) → (⟨S1024x1024, .f32⟩ : BufTy).Contents (Elt F)),
    binary main_v172 main_v174 main_v175 (Host.divf : (⟨S1024x1024, .f32⟩ : BufTy).Contents (Elt F) → (⟨S1024x1024, .f32⟩ : BufTy).Contents (Elt F) → (⟨S1024x1024, .f32⟩ : BufTy).Contents (Elt F)),
    unary main_v175 main_v176 (Host.log : (⟨S1024x1024, .f32⟩ : BufTy).Contents (Elt F) → (⟨S1024x1024, .f32⟩ : BufTy).Contents (Elt F)),
    unary main_v162 main_v177 (broadcastInDim S1024x1024x64 ![0, 1, 2] bcast_S1024x1x64_S1024x1024x64_0_1_2 : (⟨S1024x1x64, .f32⟩ : BufTy).Contents (Elt F) → (⟨S1024x1024x64, .f32⟩ : BufTy).Contents (Elt F)),
    binary main_v29 main_v177 main_v178 (subf : (⟨S1024x1024x64, .f32⟩ : BufTy).Contents (Elt F) → (⟨S1024x1024x64, .f32⟩ : BufTy).Contents (Elt F) → (⟨S1024x1024x64, .f32⟩ : BufTy).Contents (Elt F)),
    binary main_v178 main_v178 main_v179 (mulf : (⟨S1024x1024x64, .f32⟩ : BufTy).Contents (Elt F) → (⟨S1024x1024x64, .f32⟩ : BufTy).Contents (Elt F) → (⟨S1024x1024x64, .f32⟩ : BufTy).Contents (Elt F)),
    nullary main_cst_36 (constant S_ .f32 0x00000000#32),
    binary main_v179 main_cst_36 main_v180 ((fun x v => Host.reduceAdd x v reducesTo_S1024x1024x64_S1024x1024_d2 h_S_) : (⟨S1024x1024x64, .f32⟩ : BufTy).Contents (Elt F) → (⟨S_, .f32⟩ : BufTy).Contents (Elt F) → (⟨S1024x1024, .f32⟩ : BufTy).Contents (Elt F)),
    binary main_v162 main_v162 main_v181 (mulf : (⟨S1024x1x64, .f32⟩ : BufTy).Contents (Elt F) → (⟨S1024x1x64, .f32⟩ : BufTy).Contents (Elt F) → (⟨S1024x1x64, .f32⟩ : BufTy).Contents (Elt F)),
    nullary main_cst_37 (constant S_ .f32 0x00000000#32),
    binary main_v181 main_cst_37 main_v182 ((fun x v => Host.reduceAdd x v reducesTo_S1024x1x64_S1024x1_d2 h_S_) : (⟨S1024x1x64, .f32⟩ : BufTy).Contents (Elt F) → (⟨S_, .f32⟩ : BufTy).Contents (Elt F) → (⟨S1024x1, .f32⟩ : BufTy).Contents (Elt F)),
    nullary main_cst_38 (constant S_ .f32 0x3F800000#32),
    unary main_cst_38 main_v183 (broadcastInDim S1024x1 ![] bcast_S_S1024x1 : (⟨S_, .f32⟩ : BufTy).Contents (Elt F) → (⟨S1024x1, .f32⟩ : BufTy).Contents (Elt F)),
    binary main_v183 main_v182 main_v184 (subf : (⟨S1024x1, .f32⟩ : BufTy).Contents (Elt F) → (⟨S1024x1, .f32⟩ : BufTy).Contents (Elt F) → (⟨S1024x1, .f32⟩ : BufTy).Contents (Elt F)),
    nullary main_cst_39 (constant S_ .f32 0x26901D7D#32),
    unary main_cst_39 main_v185 (broadcastInDim S1024x1024 ![] bcast_S_S1024x1024 : (⟨S_, .f32⟩ : BufTy).Contents (Elt F) → (⟨S1024x1024, .f32⟩ : BufTy).Contents (Elt F)),
    binary main_v180 main_v185 main_v186 (maximumf : (⟨S1024x1024, .f32⟩ : BufTy).Contents (Elt F) → (⟨S1024x1024, .f32⟩ : BufTy).Contents (Elt F) → (⟨S1024x1024, .f32⟩ : BufTy).Contents (Elt F)),
    nullary main_cst_40 (constant S_ .f32 0x26901D7D#32),
    unary main_cst_40 main_v187 (broadcastInDim S1024x1 ![] bcast_S_S1024x1 : (⟨S_, .f32⟩ : BufTy).Contents (Elt F) → (⟨S1024x1, .f32⟩ : BufTy).Contents (Elt F)),
    binary main_v184 main_v187 main_v188 (maximumf : (⟨S1024x1, .f32⟩ : BufTy).Contents (Elt F) → (⟨S1024x1, .f32⟩ : BufTy).Contents (Elt F) → (⟨S1024x1, .f32⟩ : BufTy).Contents (Elt F)),
    unary main_v188 main_v189 (broadcastInDim S1024x1024 ![0, 1] bcast_S1024x1_S1024x1024_0_1 : (⟨S1024x1, .f32⟩ : BufTy).Contents (Elt F) → (⟨S1024x1024, .f32⟩ : BufTy).Contents (Elt F)),
    binary main_v186 main_v189 main_v190 (Host.divf : (⟨S1024x1024, .f32⟩ : BufTy).Contents (Elt F) → (⟨S1024x1024, .f32⟩ : BufTy).Contents (Elt F) → (⟨S1024x1024, .f32⟩ : BufTy).Contents (Elt F)),
    unary main_v190 main_v191 (Host.log : (⟨S1024x1024, .f32⟩ : BufTy).Contents (Elt F) → (⟨S1024x1024, .f32⟩ : BufTy).Contents (Elt F)),
    nullary main_c_41 (constantI S_ 32 0#32),
    unary main_c_41 main_v192 (broadcastInDim S1024 ![] bcast_S_S1024 : (⟨S_, .i32⟩ : BufTy).Contents (Elt F) → (⟨S1024, .i32⟩ : BufTy).Contents (Elt F)),
    binary main_arg1 main_v192 main_v193 (cmpi .slt : (⟨S1024, .i32⟩ : BufTy).Contents (Elt F) → (⟨S1024, .i32⟩ : BufTy).Contents (Elt F) → (⟨S1024, .i1⟩ : BufTy).Contents (Elt F)),
    nullary main_c_42 (constantI S_ 32 500#32),
    unary main_c_42 main_v194 (broadcastInDim S1024 ![] bcast_S_S1024 : (⟨S_, .i32⟩ : BufTy).Contents (Elt F) → (⟨S1024, .i32⟩ : BufTy).Contents (Elt F)),
    binary main_arg1 main_v194 main_v195 (addi : (⟨S1024, .i32⟩ : BufTy).Contents (Elt F) → (⟨S1024, .i32⟩ : BufTy).Contents (Elt F) → (⟨S1024, .i32⟩ : BufTy).Contents (Elt F)),
    ternary main_v193 main_v195 main_arg1 main_v196 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    unary main_v196 main_v197 (broadcastInDim S1024x1 ![0] bcast_S1024_S1024x1_0 : (⟨S1024, .i32⟩ : BufTy).Contents (Elt F) → (⟨S1024x1, .i32⟩ : BufTy).Contents (Elt F)),
    binary main_arg9 main_v197 main_v198 ((fun x i => Host.gather gather_S500_S1024x1_S1024_n_0_n_n_0_1_1 x i) : (⟨S500, .f32⟩ : BufTy).Contents (Elt F) → (⟨S1024x1, .i32⟩ : BufTy).Contents (Elt F) → (⟨S1024, .f32⟩ : BufTy).Contents (Elt F)),
    unary main_v198 main_v199 (Host.negf : (⟨S1024, .f32⟩ : BufTy).Contents (Elt F) → (⟨S1024, .f32⟩ : BufTy).Contents (Elt F)),
    unary main_v199 main_v200 (Host.exp : (⟨S1024, .f32⟩ : BufTy).Contents (Elt F) → (⟨S1024, .f32⟩ : BufTy).Contents (Elt F)),
    nullary main_cst_43 (constant S_ .f32 0x3F800000#32),
    unary main_cst_43 main_v201 (broadcastInDim S1024 ![] bcast_S_S1024 : (⟨S_, .f32⟩ : BufTy).Contents (Elt F) → (⟨S1024, .f32⟩ : BufTy).Contents (Elt F)),
    binary main_v201 main_v200 main_v202 (addf : (⟨S1024, .f32⟩ : BufTy).Contents (Elt F) → (⟨S1024, .f32⟩ : BufTy).Contents (Elt F) → (⟨S1024, .f32⟩ : BufTy).Contents (Elt F)),
    nullary main_cst_44 (constant S_ .f32 0x3F800000#32),
    unary main_cst_44 main_v203 (broadcastInDim S1024 ![] bcast_S_S1024 : (⟨S_, .f32⟩ : BufTy).Contents (Elt F) → (⟨S1024, .f32⟩ : BufTy).Contents (Elt F)),
    binary main_v203 main_v202 main_v204 (Host.divf : (⟨S1024, .f32⟩ : BufTy).Contents (Elt F) → (⟨S1024, .f32⟩ : BufTy).Contents (Elt F) → (⟨S1024, .f32⟩ : BufTy).Contents (Elt F)),
    unary main_v204 main_v205 (broadcastInDim S1024x1 ![0] bcast_S1024_S1024x1_0 : (⟨S1024, .f32⟩ : BufTy).Contents (Elt F) → (⟨S1024x1, .f32⟩ : BufTy).Contents (Elt F)),
    unary main_v205 main_v206 (broadcastInDim S1024x1024 ![0, 1] bcast_S1024x1_S1024x1024_0_1 : (⟨S1024x1, .f32⟩ : BufTy).Contents (Elt F) → (⟨S1024x1024, .f32⟩ : BufTy).Contents (Elt F)),
    binary main_v206 main_v176 main_v207 (mulf : (⟨S1024x1024, .f32⟩ : BufTy).Contents (Elt F) → (⟨S1024x1024, .f32⟩ : BufTy).Contents (Elt F) → (⟨S1024x1024, .f32⟩ : BufTy).Contents (Elt F)),
    nullary main_cst_45 (constant S_ .f32 0x3F800000#32),
    unary main_cst_45 main_v208 (broadcastInDim S1024x1 ![] bcast_S_S1024x1 : (⟨S_, .f32⟩ : BufTy).Contents (Elt F) → (⟨S1024x1, .f32⟩ : BufTy).Contents (Elt F)),
    binary main_v208 main_v205 main_v209 (subf : (⟨S1024x1, .f32⟩ : BufTy).Contents (Elt F) → (⟨S1024x1, .f32⟩ : BufTy).Contents (Elt F) → (⟨S1024x1, .f32⟩ : BufTy).Contents (Elt F)),
    unary main_v209 main_v210 (broadcastInDim S1024x1024 ![0, 1] bcast_S1024x1_S1024x1024_0_1 : (⟨S1024x1, .f32⟩ : BufTy).Contents (Elt F) → (⟨S1024x1024, .f32⟩ : BufTy).Contents (Elt F)),
    binary main_v210 main_v191 main_v211 (mulf : (⟨S1024x1024, .f32⟩ : BufTy).Contents (Elt F) → (⟨S1024x1024, .f32⟩ : BufTy).Contents (Elt F) → (⟨S1024x1024, .f32⟩ : BufTy).Contents (Elt F)),
    binary main_v207 main_v211 main_v212 (addf : (⟨S1024x1024, .f32⟩ : BufTy).Contents (Elt F) → (⟨S1024x1024, .f32⟩ : BufTy).Contents (Elt F) → (⟨S1024x1024, .f32⟩ : BufTy).Contents (Elt F)),
    nullary main_cst_46 (constant S_ .f32 0x41100000#32),
    unary main_cst_46 main_v213 (broadcastInDim S1024x1024 ![] bcast_S_S1024x1024 : (⟨S_, .f32⟩ : BufTy).Contents (Elt F) → (⟨S1024x1024, .f32⟩ : BufTy).Contents (Elt F)),
    binary main_v213 main_v212 main_v214 (subf : (⟨S1024x1024, .f32⟩ : BufTy).Contents (Elt F) → (⟨S1024x1024, .f32⟩ : BufTy).Contents (Elt F) → (⟨S1024x1024, .f32⟩ : BufTy).Contents (Elt F)),
    nullary main_c_47 (constantI S_ 32 0#32),
    unary main_c_47 main_v215 (broadcastInDim S1024 ![] bcast_S_S1024 : (⟨S_, .i32⟩ : BufTy).Contents (Elt F) → (⟨S1024, .i32⟩ : BufTy).Contents (Elt F)),
    binary main_arg0 main_v215 main_v216 (cmpi .slt : (⟨S1024, .i32⟩ : BufTy).Contents (Elt F) → (⟨S1024, .i32⟩ : BufTy).Contents (Elt F) → (⟨S1024, .i1⟩ : BufTy).Contents (Elt F)),
    nullary main_c_48 (constantI S_ 32 200000#32),
    unary main_c_48 main_v217 (broadcastInDim S1024 ![] bcast_S_S1024 : (⟨S_, .i32⟩ : BufTy).Contents (Elt F) → (⟨S1024, .i32⟩ : BufTy).Contents (Elt F)),
    binary main_arg0 main_v217 main_v218 (addi : (⟨S1024, .i32⟩ : BufTy).Contents (Elt F) → (⟨S1024, .i32⟩ : BufTy).Contents (Elt F) → (⟨S1024, .i32⟩ : BufTy).Contents (Elt F)),
    ternary main_v216 main_v218 main_arg0 main_v219 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    unary main_v219 main_v220 (broadcastInDim S1024x1 ![0] bcast_S1024_S1024x1_0 : (⟨S1024, .i32⟩ : BufTy).Contents (Elt F) → (⟨S1024x1, .i32⟩ : BufTy).Contents (Elt F)),
    binary main_arg7 main_v220 main_v221 ((fun x i => Host.gather gather_S200000_S1024x1_S1024_n_0_n_n_0_1_1 x i) : (⟨S200000, .f32⟩ : BufTy).Contents (Elt F) → (⟨S1024x1, .i32⟩ : BufTy).Contents (Elt F) → (⟨S1024, .f32⟩ : BufTy).Contents (Elt F)),
    unary main_v221 main_v222 (broadcastInDim S1024x1 ![0] bcast_S1024_S1024x1_0 : (⟨S1024, .f32⟩ : BufTy).Contents (Elt F) → (⟨S1024x1, .f32⟩ : BufTy).Contents (Elt F)),
    unary main_v222 main_v223 (broadcastInDim S1024x1024 ![0, 1] bcast_S1024x1_S1024x1024_0_1 : (⟨S1024x1, .f32⟩ : BufTy).Contents (Elt F) → (⟨S1024x1024, .f32⟩ : BufTy).Contents (Elt F)),
    binary main_v214 main_v223 main_v224 (addf : (⟨S1024x1024, .f32⟩ : BufTy).Contents (Elt F) → (⟨S1024x1024, .f32⟩ : BufTy).Contents (Elt F) → (⟨S1024x1024, .f32⟩ : BufTy).Contents (Elt F)),
    nullary main_c_49 (constantI S_ 32 0#32),
    unary main_c_49 main_v225 (broadcastInDim S1024x1024 ![] bcast_S_S1024x1024 : (⟨S_, .i32⟩ : BufTy).Contents (Elt F) → (⟨S1024x1024, .i32⟩ : BufTy).Contents (Elt F)),
    binary main_arg2 main_v225 main_v226 (cmpi .slt : (⟨S1024x1024, .i32⟩ : BufTy).Contents (Elt F) → (⟨S1024x1024, .i32⟩ : BufTy).Contents (Elt F) → (⟨S1024x1024, .i1⟩ : BufTy).Contents (Elt F)),
    nullary main_c_50 (constantI S_ 32 200000#32),
    unary main_c_50 main_v227 (broadcastInDim S1024x1024 ![] bcast_S_S1024x1024 : (⟨S_, .i32⟩ : BufTy).Contents (Elt F) → (⟨S1024x1024, .i32⟩ : BufTy).Contents (Elt F)),
    binary main_arg2 main_v227 main_v228 (addi : (⟨S1024x1024, .i32⟩ : BufTy).Contents (Elt F) → (⟨S1024x1024, .i32⟩ : BufTy).Contents (Elt F) → (⟨S1024x1024, .i32⟩ : BufTy).Contents (Elt F)),
    ternary main_v226 main_v228 main_arg2 main_v229 (select : (⟨S1024x1024, .i1⟩ : BufTy).Contents (Elt F) → (⟨S1024x1024, .i32⟩ : BufTy).Contents (Elt F) → (⟨S1024x1024, .i32⟩ : BufTy).Contents (Elt F) → (⟨S1024x1024, .i32⟩ : BufTy).Contents (Elt F)),
    unary main_v229 main_v230 (broadcastInDim S1024x1024x1 ![0, 1] bcast_S1024x1024_S1024x1024x1_0_1 : (⟨S1024x1024, .i32⟩ : BufTy).Contents (Elt F) → (⟨S1024x1024x1, .i32⟩ : BufTy).Contents (Elt F)),
    binary main_arg8 main_v230 main_v231 ((fun x i => Host.gather gather_S200000_S1024x1024x1_S1024x1024_n_0_n_n_0_2_1 x i) : (⟨S200000, .f32⟩ : BufTy).Contents (Elt F) → (⟨S1024x1024x1, .i32⟩ : BufTy).Contents (Elt F) → (⟨S1024x1024, .f32⟩ : BufTy).Contents (Elt F)),
    binary main_v224 main_v231 main_v232 (addf : (⟨S1024x1024, .f32⟩ : BufTy).Contents (Elt F) → (⟨S1024x1024, .f32⟩ : BufTy).Contents (Elt F) → (⟨S1024x1024, .f32⟩ : BufTy).Contents (Elt F)) ]

set_option maxRecDepth 65536 in
theorem ops_split : (ops : List (HloOp τ sig (Elt F))) = opsA ++ (opsB ++ opsC) := rfl

section Stages

variable (m : (ℓ : Loc nD τ sig) → Buf (Elt F) ℓ) (c : Dev nD)

/-! ### The first stretch, from the launch contents -/

set_option maxRecDepth 65536 in
set_option maxHeartbeats 4000000 in
theorem stageA_v127 : after (opsA (F := F)) (launchContents m c) (Proc.devRef .tc main_v127) = Cert.ReferenceIdeal.Read.val_main_v127 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) := by
  after_results_simp <;> rfl

set_option maxRecDepth 65536 in
set_option maxHeartbeats 4000000 in
theorem stageA_v128 : after (opsA (F := F)) (launchContents m c) (Proc.devRef .tc main_v128) = Cert.ReferenceIdeal.Read.val_main_v128 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) := by
  after_results_simp <;> rfl

set_option maxRecDepth 65536 in
set_option maxHeartbeats 4000000 in
theorem stageA_v59 : after (opsA (F := F)) (launchContents m c) (Proc.devRef .tc main_v59) = Cert.ReferenceIdeal.Read.val_main_v59 (F := F) (m ((c.tc : Thread nD τ).loc main_arg1)) (m ((c.tc : Thread nD τ).loc main_arg6)) := by
  after_results_simp <;> rfl

set_option maxRecDepth 65536 in
set_option maxHeartbeats 4000000 in
theorem stageA_v29 : after (opsA (F := F)) (launchContents m c) (Proc.devRef .tc main_v29) = Cert.ReferenceIdeal.Read.val_main_v29 (F := F) (m ((c.tc : Thread nD τ).loc main_arg2)) (m ((c.tc : Thread nD τ).loc main_arg3)) := by
  after_results_simp <;> rfl

set_option maxRecDepth 65536 in
set_option maxHeartbeats 4000000 in
theorem stageA_arg0 : after (opsA (F := F)) (launchContents m c) (Proc.devRef .tc main_arg0) = m ((c.tc : Thread nD τ).loc main_arg0) := by
  after_results_simp <;> rfl

set_option maxRecDepth 65536 in
set_option maxHeartbeats 4000000 in
theorem stageA_arg1 : after (opsA (F := F)) (launchContents m c) (Proc.devRef .tc main_arg1) = m ((c.tc : Thread nD τ).loc main_arg1) := by
  after_results_simp <;> rfl

set_option maxRecDepth 65536 in
set_option maxHeartbeats 4000000 in
theorem stageA_arg2 : after (opsA (F := F)) (launchContents m c) (Proc.devRef .tc main_arg2) = m ((c.tc : Thread nD τ).loc main_arg2) := by
  after_results_simp <;> rfl

set_option maxRecDepth 65536 in
set_option maxHeartbeats 4000000 in
theorem stageA_arg7 : after (opsA (F := F)) (launchContents m c) (Proc.devRef .tc main_arg7) = m ((c.tc : Thread nD τ).loc main_arg7) := by
  after_results_simp <;> rfl

set_option maxRecDepth 65536 in
set_option maxHeartbeats 4000000 in
theorem stageA_arg8 : after (opsA (F := F)) (launchContents m c) (Proc.devRef .tc main_arg8) = m ((c.tc : Thread nD τ).loc main_arg8) := by
  after_results_simp <;> rfl

set_option maxRecDepth 65536 in
set_option maxHeartbeats 4000000 in
theorem stageA_arg9 : after (opsA (F := F)) (launchContents m c) (Proc.devRef .tc main_arg9) = m ((c.tc : Thread nD τ).loc main_arg9) := by
  after_results_simp <;> rfl

/-! ### The second stretch, from any contents -/

set_option maxRecDepth 65536 in
set_option maxHeartbeats 4000000 in
/-- The head array, from the two halves of the rotated head and the second bias point. -/
theorem stageB_head (W : Valuation τ sig (Elt F))
    (h127 : W (Proc.devRef .tc main_v127) = Cert.ReferenceIdeal.Read.val_main_v127 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)))
    (h128 : W (Proc.devRef .tc main_v128) = Cert.ReferenceIdeal.Read.val_main_v128 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)))
    (h59 : W (Proc.devRef .tc main_v59) = Cert.ReferenceIdeal.Read.val_main_v59 (F := F) (m ((c.tc : Thread nD τ).loc main_arg1)) (m ((c.tc : Thread nD τ).loc main_arg6))) :
    after (opsB (F := F)) W (Proc.devRef .tc main_v161) = Cert.ReferenceIdeal.Read.val_main_v161 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) := by
  after_results_simp
  rw [h127, h128, h59]
  rfl

set_option maxRecDepth 65536 in
set_option maxHeartbeats 4000000 in
theorem stageB_keep_v29 (W : Valuation τ sig (Elt F)) : after (opsB (F := F)) W (Proc.devRef .tc main_v29) = W (Proc.devRef .tc main_v29) := by
  after_results_simp

set_option maxRecDepth 65536 in
set_option maxHeartbeats 4000000 in
theorem stageB_keep_arg0 (W : Valuation τ sig (Elt F)) : after (opsB (F := F)) W (Proc.devRef .tc main_arg0) = W (Proc.devRef .tc main_arg0) := by
  after_results_simp

set_option maxRecDepth 65536 in
set_option maxHeartbeats 4000000 in
theorem stageB_keep_arg1 (W : Valuation τ sig (Elt F)) : after (opsB (F := F)) W (Proc.devRef .tc main_arg1) = W (Proc.devRef .tc main_arg1) := by
  after_results_simp

set_option maxRecDepth 65536 in
set_option maxHeartbeats 4000000 in
theorem stageB_keep_arg2 (W : Valuation τ sig (Elt F)) : after (opsB (F := F)) W (Proc.devRef .tc main_arg2) = W (Proc.devRef .tc main_arg2) := by
  after_results_simp

set_option maxRecDepth 65536 in
set_option maxHeartbeats 4000000 in
theorem stageB_keep_arg7 (W : Valuation τ sig (Elt F)) : after (opsB (F := F)) W (Proc.devRef .tc main_arg7) = W (Proc.devRef .tc main_arg7) := by
  after_results_simp

set_option maxRecDepth 65536 in
set_option maxHeartbeats 4000000 in
theorem stageB_keep_arg8 (W : Valuation τ sig (Elt F)) : after (opsB (F := F)) W (Proc.devRef .tc main_arg8) = W (Proc.devRef .tc main_arg8) := by
  after_results_simp

set_option maxRecDepth 65536 in
set_option maxHeartbeats 4000000 in
theorem stageB_keep_arg9 (W : Valuation τ sig (Elt F)) : after (opsB (F := F)) W (Proc.devRef .tc main_arg9) = W (Proc.devRef .tc main_arg9) := by
  after_results_simp

/-! ### The last stretch, from any contents -/

set_option maxRecDepth 65536 in
set_option maxHeartbeats 4000000 in
/-- The result, from the head array, the mapped candidates and six arguments. -/
theorem stageC_result (W : Valuation τ sig (Elt F))
    (h161 : W (Proc.devRef .tc main_v161) = Cert.ReferenceIdeal.Read.val_main_v161 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)))
    (h29 : W (Proc.devRef .tc main_v29) = Cert.ReferenceIdeal.Read.val_main_v29 (F := F) (m ((c.tc : Thread nD τ).loc main_arg2)) (m ((c.tc : Thread nD τ).loc main_arg3)))
    (ha0 : W (Proc.devRef .tc main_arg0) = m ((c.tc : Thread nD τ).loc main_arg0))
    (ha1 : W (Proc.devRef .tc main_arg1) = m ((c.tc : Thread nD τ).loc main_arg1))
    (ha2 : W (Proc.devRef .tc main_arg2) = m ((c.tc : Thread nD τ).loc main_arg2))
    (ha7 : W (Proc.devRef .tc main_arg7) = m ((c.tc : Thread nD τ).loc main_arg7))
    (ha8 : W (Proc.devRef .tc main_arg8) = m ((c.tc : Thread nD τ).loc main_arg8))
    (ha9 : W (Proc.devRef .tc main_arg9) = m ((c.tc : Thread nD τ).loc main_arg9)) :
    after (opsC (F := F)) W (Proc.devRef .tc main_v232) = Cert.ReferenceIdeal.Read.val_main_v232 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  after_results_simp
  simp only [h161, h29, ha0, ha1, ha2, ha7, ha8, ha9]
  rfl

/-- The result buffer after all the operations is the last stage. -/
theorem result_stage : after (ops (F := F)) (launchContents m c) (Proc.devRef .tc main_v232) = Cert.ReferenceIdeal.Read.val_main_v232 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  rw [ops_split, StableHlo.after_append, StableHlo.after_append]
  refine stageC_result m c _ ?_ ?_ ?_ ?_ ?_ ?_ ?_ ?_
  · exact stageB_head m c _ (stageA_v127 m c) (stageA_v128 m c) (stageA_v59 m c)
  · exact (stageB_keep_v29 _).trans (stageA_v29 m c)
  · exact (stageB_keep_arg0 _).trans (stageA_arg0 m c)
  · exact (stageB_keep_arg1 _).trans (stageA_arg1 m c)
  · exact (stageB_keep_arg2 _).trans (stageA_arg2 m c)
  · exact (stageB_keep_arg7 _).trans (stageA_arg7 m c)
  · exact (stageB_keep_arg8 _).trans (stageA_arg8 m c)
  · exact (stageB_keep_arg9 _).trans (stageA_arg9 m c)

end Stages

set_option maxRecDepth 8192 in
set_option maxHeartbeats 122400000 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v232) = Cert.ReferenceIdeal.Read.val_main_v232 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v232).trans (result_stage m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl)⟩)
    (run_seq scopedRefs_eq scopedSems_eq defs main (fun _ => ops) main_eq (fun _ => ops_sub) m ρ)

end Cert.ReferenceIdeal.Value

end
-- ==== Proof.lean ====
/-
  Busemann-distance scoring of 1024 queries against 1024 candidates each, in a 64-dimensional ball: the tiled kernel
  against the plain host computation, on the extended reals.

  Both programs first compute, on the host and by the same operations, the head point of every query (exponential
  maps of gathered rows, two Möbius additions, a Givens rotation) and gather the raw candidates, gates and biases.
  The kernel then does, block by block over an 8 × 8 grid, what the reference does on whole arrays: maps each
  candidate u into the ball, t = tanh n · u / n with n = max (‖u‖) ε; takes num = Σ (h − t)²; the two distances
  log (max num ε / max (1 − Σ t²) ε) and log (max num ε / max (1 − Σ h²) ε); mixes them with the logistic gate; and
  forms 9 − mix + bias₁ + bias₂.  The programs differ in three ways, none visible on the extended reals: the
  reference writes the second distance's numerator as Σ (t − h)², and a squared difference is symmetric on every
  extended real; it spells the gate as 1 / (1 + exp (−s)), which is what the logistic function is; and sums by blocks
  are sums.  No finiteness of the inputs is used.

  The modules: Spec (the score of one pair, the score array, the two laws), KernelBlock (the body's output block entry
  by entry), KernelArray (blocks to the whole array, and the kernel's run), HostPrefix (the arrays the region finds are
  the reference's own stages), RefScore (the reference's result entry by entry), RefRead and RefRun (the reference one
  operation at a time and its list of operations: patched copies of two generated modules), RefStages (the reference's
  run, its result read as the last stage), and the general layout lemmas
  LibLastAxis3, LibOuter3, LibKeepdims, LibMidAxis3.
-/
import proofs.«149156_j781684048755_1_alg».proof.Defs
import proofs.«149156_j781684048755_1_alg».proof.Proof.Gen.Kernel
import proofs.«149156_j781684048755_1_alg».proof.Proof.Gen.Kernel.Skeleton
import proofs.«149156_j781684048755_1_alg».proof.Proof.Gen.Kernel.Launch
import proofs.«149156_j781684048755_1_alg».proof.Proof.Gen.Kernel.Points
import proofs.«149156_j781684048755_1_alg».proof.Proof.Gen.Kernel.Frame
import proofs.«149156_j781684048755_1_alg».proof.Proof.Gen.KernelIdeal
import proofs.«149156_j781684048755_1_alg».proof.Proof.Gen.KernelIdeal.Skeleton
import proofs.«149156_j781684048755_1_alg».proof.Proof.Gen.KernelIdeal.Launch
import proofs.«149156_j781684048755_1_alg».proof.Proof.Gen.KernelIdeal.Points
import proofs.«149156_j781684048755_1_alg».proof.Proof.Gen.KernelIdeal.Frame
import proofs.«149156_j781684048755_1_alg».proof.Proof.Gen.ReferenceIdeal
import proofs.«149156_j781684048755_1_alg».proof.Proof.Gen.Pre_finite_inputs
import proofs.«149156_j781684048755_1_alg».proof.Proof.Gen.KernelIdeal.Value
import proofs.«149156_j781684048755_1_alg».proof.Proof.Spec
import proofs.«149156_j781684048755_1_alg».proof.Proof.LibKeepdims
import proofs.«149156_j781684048755_1_alg».proof.Proof.KernelArray
import proofs.«149156_j781684048755_1_alg».proof.Proof.HostPrefix
import proofs.«149156_j781684048755_1_alg».proof.Proof.RefScore
import proofs.«149156_j781684048755_1_alg».proof.Proof.RefStages
import Idealize.ShloMosaic.Adequacy
import Idealize.ShloMosaic.Init

noncomputable section

namespace Cert.Proof

open Idealize.ShloMosaic Idealize.ShloMosaic.TcCoe Idealize.SL.Sem
open Idealize.ShloMosaic.ValueIdx Busemann

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The score array depends only on its five arrays. -/
theorem scoreArr_congr {T T' : (⟨3, ![1024, 1024, 64]⟩ : Shape).Idx → EReal} {H H' : (⟨2, ![1024, 64]⟩ : Shape).Idx → EReal}
    {Sg Sg' B1 B1' : Fin 1024 → EReal} {B2 B2' : (⟨2, ![1024, 1024]⟩ : Shape).Idx → EReal}
    (hT : T = T') (hH : H = H') (hS : Sg = Sg') (h1 : B1 = B1') (h2 : B2 = B2') :
    scoreArr T H Sg B1 B2 = scoreArr T' H' Sg' B1' B2' := by
  subst hT hH hS h1 h2; rfl

/-- The score array of what the kernel's region finds is the reference's result on the same arguments: the five arrays
    are the reference's own stages (the gates and first biases as columns, read back down the column), and the
    reference's result is the score array of those stages. -/
theorem algebraic : Cert.algebraic_KernelIdeal_ReferenceIdeal := by
  intro m ρ m' ρ' _ hagree
  refine ⟨fun c => Cert.KernelIdeal.Arr.outArr m c, Cert.KernelIdeal.Arr.run m ρ, ?_⟩
  refine (θ_run Cert.ReferenceIdeal.defs _ _).mono (fun _ h c => ⟨(h c).1.trans ?_, (h c).2⟩)
    (Cert.ReferenceIdeal.Value.run (F := Ideal) m' ρ')
  obtain ⟨g0, g1, g2, g3, g4, g5, g6, g7, g8, g9⟩ := hagree c
  rw [Cert.ReferenceIdeal.Score.result_eq, g0, g1, g2, g3, g4, g5, g6, g7, g8, g9]
  refine scoreArr_congr (Cert.KernelIdeal.Prefix.V_cand m c).symm (Cert.KernelIdeal.Prefix.V_head m c).symm
    (funext fun r => ?_) (funext fun r => ?_) (Cert.KernelIdeal.Prefix.V_bias2 m c).symm
  · rw [Cert.KernelIdeal.Prefix.V_gate]
    exact (Cert.Lib.Keepdims.shapeCast_a_a1_apply _ _ r (0 : Fin 1)).symm
  · rw [Cert.KernelIdeal.Prefix.V_bias1]
    exact (Cert.Lib.Keepdims.shapeCast_a_a1_apply _ _ r (0 : Fin 1)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
